-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x256 : Shape := ⟨2, ![8000, 256]⟩
abbrev S5x256x40x40 : Shape := ⟨4, ![5, 256, 40, 40]⟩
abbrev S8000 : Shape := ⟨1, ![8000]⟩
abbrev S4000 : Shape := ⟨1, ![4000]⟩
abbrev S_ : Shape := ⟨0, ![]⟩

class Facts : Prop where
  bcast_S_S8000x256 : S_.BroadcastsInDim S8000x256 (![] : Fin 0 → Fin S8000x256.rank)
  reducesTo_S8000x256_S_d0_1 : S8000x256.ReducesTo [0, 1] S_
  h_S_ : 0 < S_.numel
  bcast_S_S5x256x40x40 : S_.BroadcastsInDim S5x256x40x40 (![] : Fin 0 → Fin S5x256x40x40.rank)
  reducesTo_S5x256x40x40_S_d0_1_2_3 : S5x256x40x40.ReducesTo [0, 1, 2, 3] S_
  bcast_S_S8000 : S_.BroadcastsInDim S8000 (![] : Fin 0 → Fin S8000.rank)
  reducesTo_S8000_S_d0 : S8000.ReducesTo [0] S_

variable [Facts]

def fn_part1 {F : FTy → Type} [FloatOps F] (main_arg6 : FVec F S8000 .f32) (main_arg7 : FVec F S8000 .f32) (main_v13 : IVec S_ 1) (main_v16 : IVec S5x256x40x40 1) : IVec S_ 1 :=
  let main_c_5 : IVec S_ 1 := constantI S_ 1 1#1
  let main_v17 : IVec S_ 1 := (fun x v => Host.reduce IntOp.andi x v reducesTo_S5x256x40x40_S_d0_1_2_3 h_S_) main_v16 main_c_5
  let main_v18 : IVec S_ 1 := andi main_v13 main_v17
  let main_v19 : FVec F S8000 .f32 := Host.absf main_arg6
  let main_cst_6 : FVec F S_ .f32 := constant S_ .f32 0x7F800000#32
  let main_v20 : FVec F S8000 .f32 := broadcastInDim S8000 ![] bcast_S_S8000 main_cst_6
  let main_v21 : IVec S8000 1 := cmpf .olt main_v19 main_v20
  let main_c_7 : IVec S_ 1 := constantI S_ 1 1#1
  let main_v22 : IVec S_ 1 := (fun x v => Host.reduce IntOp.andi x v reducesTo_S8000_S_d0 h_S_) main_v21 main_c_7
  let main_v23 : IVec S_ 1 := andi main_v18 main_v22
  let main_v24 : FVec F S8000 .f32 := Host.absf main_arg7
  let main_cst_8 : FVec F S_ .f32 := constant S_ .f32 0x7F800000#32
  let main_v25 : FVec F S8000 .f32 := broadcastInDim S8000 ![] bcast_S_S8000 main_cst_8
  let main_v26 : IVec S8000 1 := cmpf .olt main_v24 main_v25
  let main_c_9 : IVec S_ 1 := constantI S_ 1 1#1
  let main_v27 : IVec S_ 1 := (fun x v => Host.reduce IntOp.andi x v reducesTo_S8000_S_d0 h_S_) main_v26 main_c_9
  let main_v28 : IVec S_ 1 := andi main_v23 main_v27
  main_v28

def fn {F : FTy → Type} [FloatOps F] (main_arg0 : FVec F S8000x256 .f32) (main_arg1 : FVec F S8000x256 .f32) (main_arg2 : FVec F S5x256x40x40 .f32) (main_arg3 : FVec F S5x256x40x40 .f32) (main_arg4 : IVec S8000 32) (main_arg5 : IVec S8000 32) (main_arg6 : FVec F S8000 .f32) (main_arg7 : FVec F S8000 .f32) (main_arg8 : IVec S4000 32) (main_arg9 : IVec S4000 32) : IVec S_ 1 :=
  let main_v0 : FVec F S8000x256 .f32 := Host.absf main_arg0
  let main_cst : FVec F S_ .f32 := constant S_ .f32 0x7F800000#32
  let main_v1 : FVec F S8000x256 .f32 := broadcastInDim S8000x256 ![] bcast_S_S8000x256 main_cst
  let main_v2 : IVec S8000x256 1 := cmpf .olt main_v0 main_v1
  let main_c : IVec S_ 1 := constantI S_ 1 1#1
  let main_v3 : IVec S_ 1 := (fun x v => Host.reduce IntOp.andi x v reducesTo_S8000x256_S_d0_1 h_S_) main_v2 main_c
  let main_v4 : FVec F S8000x256 .f32 := Host.absf main_arg1
  let main_cst_0 : FVec F S_ .f32 := constant S_ .f32 0x7F800000#32
  let main_v5 : FVec F S8000x256 .f32 := broadcastInDim S8000x256 ![] bcast_S_S8000x256 main_cst_0
  let main_v6 : IVec S8000x256 1 := cmpf .olt main_v4 main_v5
  let main_c_1 : IVec S_ 1 := constantI S_ 1 1#1
  let main_v7 : IVec S_ 1 := (fun x v => Host.reduce IntOp.andi x v reducesTo_S8000x256_S_d0_1 h_S_) main_v6 main_c_1
  let main_v8 : IVec S_ 1 := andi main_v3 main_v7
  let main_v9 : FVec F S5x256x40x40 .f32 := Host.absf main_arg2
  let main_cst_2 : FVec F S_ .f32 := constant S_ .f32 0x7F800000#32
  let main_v10 : FVec F S5x256x40x40 .f32 := broadcastInDim S5x256x40x40 ![] bcast_S_S5x256x40x40 main_cst_2
  let main_v11 : IVec S5x256x40x40 1 := cmpf .olt main_v9 main_v10
  let main_c_3 : IVec S_ 1 := constantI S_ 1 1#1
  let main_v12 : IVec S_ 1 := (fun x v => Host.reduce IntOp.andi x v reducesTo_S5x256x40x40_S_d0_1_2_3 h_S_) main_v11 main_c_3
  let main_v13 : IVec S_ 1 := andi main_v8 main_v12
  let main_v14 : FVec F S5x256x40x40 .f32 := Host.absf main_arg3
  let main_cst_4 : FVec F S_ .f32 := constant S_ .f32 0x7F800000#32
  let main_v15 : FVec F S5x256x40x40 .f32 := broadcastInDim S5x256x40x40 ![] bcast_S_S5x256x40x40 main_cst_4
  let main_v16 : IVec S5x256x40x40 1 := cmpf .olt main_v14 main_v15
  fn_part1 (F := F) main_arg6 main_arg7 main_v13 main_v16
-- ==== Kernel.lean ====
abbrev S8000x256 : Shape := ⟨2, ![8000, 256]⟩
abbrev S5x256x40x40 : Shape := ⟨4, ![5, 256, 40, 40]⟩
abbrev S8000 : Shape := ⟨1, ![8000]⟩
abbrev S4000 : Shape := ⟨1, ![4000]⟩
abbrev S_ : Shape := ⟨0, ![]⟩
abbrev S5x40x40x256 : Shape := ⟨4, ![5, 40, 40, 256]⟩
abbrev S4000x1 : Shape := ⟨2, ![4000, 1]⟩
abbrev S4000x256 : Shape := ⟨2, ![4000, 256]⟩
abbrev S8000x1 : Shape := ⟨2, ![8000, 1]⟩
abbrev S1x8000 : Shape := ⟨2, ![1, 8000]⟩
abbrev S400x256 : Shape := ⟨2, ![400, 256]⟩
abbrev S400x1 : Shape := ⟨2, ![400, 1]⟩
abbrev S256x400 : Shape := ⟨2, ![256, 400]⟩
abbrev S400x400 : Shape := ⟨2, ![400, 400]⟩
abbrev S1x400 : Shape := ⟨2, ![1, 400]⟩
abbrev S400 : Shape := ⟨1, ![400]⟩

abbrev nBuf : Space → Nat
  | .hbm => 123
  | .vmem => 24
  | .smem => 0
  | _ => 0

abbrev bufTy : (tb : Table) → Fin (tcTables nBuf tb) → BufTy
  | .hbm, ⟨0, _⟩ => ⟨S8000x256, .f32⟩
  | .hbm, ⟨1, _⟩ => ⟨S8000x256, .f32⟩
  | .hbm, ⟨2, _⟩ => ⟨S5x256x40x40, .f32⟩
  | .hbm, ⟨3, _⟩ => ⟨S5x256x40x40, .f32⟩
  | .hbm, ⟨4, _⟩ => ⟨S8000, .i32⟩
  | .hbm, ⟨5, _⟩ => ⟨S8000, .i32⟩
  | .hbm, ⟨6, _⟩ => ⟨S8000, .f32⟩
  | .hbm, ⟨7, _⟩ => ⟨S8000, .f32⟩
  | .hbm, ⟨8, _⟩ => ⟨S4000, .i32⟩
  | .hbm, ⟨9, _⟩ => ⟨S4000, .i32⟩
  | .hbm, ⟨10, _⟩ => ⟨S8000x256, .f32⟩
  | .hbm, ⟨11, _⟩ => ⟨S_, .f32⟩
  | .hbm, ⟨12, _⟩ => ⟨S8000, .f32⟩
  | .hbm, ⟨13, _⟩ => ⟨S_, .f32⟩
  | .hbm, ⟨14, _⟩ => ⟨S8000, .f32⟩
  | .hbm, ⟨15, _⟩ => ⟨S8000, .f32⟩
  | .hbm, ⟨16, _⟩ => ⟨S5x40x40x256, .f32⟩
  | .hbm, ⟨17, _⟩ => ⟨S8000x256, .f32⟩
  | .hbm, ⟨18, _⟩ => ⟨S5x40x40x256, .f32⟩
  | .hbm, ⟨19, _⟩ => ⟨S8000x256, .f32⟩
  | .hbm, ⟨20, _⟩ => ⟨S_, .i32⟩
  | .hbm, ⟨21, _⟩ => ⟨S4000, .i32⟩
  | .hbm, ⟨22, _⟩ => ⟨S4000, .i1⟩
  | .hbm, ⟨23, _⟩ => ⟨S_, .i32⟩
  | .hbm, ⟨24, _⟩ => ⟨S4000, .i32⟩
  | .hbm, ⟨25, _⟩ => ⟨S4000, .i32⟩
  | .hbm, ⟨26, _⟩ => ⟨S4000, .i32⟩
  | .hbm, ⟨27, _⟩ => ⟨S4000x1, .i32⟩
  | .hbm, ⟨28, _⟩ => ⟨S4000x256, .f32⟩
  | .hbm, ⟨29, _⟩ => ⟨S_, .i32⟩
  | .hbm, ⟨30, _⟩ => ⟨S4000, .i32⟩
  | .hbm, ⟨31, _⟩ => ⟨S4000, .i1⟩
  | .hbm, ⟨32, _⟩ => ⟨S_, .i32⟩
  | .hbm, ⟨33, _⟩ => ⟨S4000, .i32⟩
  | .hbm, ⟨34, _⟩ => ⟨S4000, .i32⟩
  | .hbm, ⟨35, _⟩ => ⟨S4000, .i32⟩
  | .hbm, ⟨36, _⟩ => ⟨S4000x1, .i32⟩
  | .hbm, ⟨37, _⟩ => ⟨S4000x256, .f32⟩
  | .hbm, ⟨38, _⟩ => ⟨S8000x256, .f32⟩
  | .hbm, ⟨39, _⟩ => ⟨S_, .i32⟩
  | .hbm, ⟨40, _⟩ => ⟨S4000, .i32⟩
  | .hbm, ⟨41, _⟩ => ⟨S4000, .i1⟩
  | .hbm, ⟨42, _⟩ => ⟨S_, .i32⟩
  | .hbm, ⟨43, _⟩ => ⟨S4000, .i32⟩
  | .hbm, ⟨44, _⟩ => ⟨S4000, .i32⟩
  | .hbm, ⟨45, _⟩ => ⟨S4000, .i32⟩
  | .hbm, ⟨46, _⟩ => ⟨S4000x1, .i32⟩
  | .hbm, ⟨47, _⟩ => ⟨S4000, .i32⟩
  | .hbm, ⟨48, _⟩ => ⟨S_, .i32⟩
  | .hbm, ⟨49, _⟩ => ⟨S4000, .i32⟩
  | .hbm, ⟨50, _⟩ => ⟨S4000, .i1⟩
  | .hbm, ⟨51, _⟩ => ⟨S_, .i32⟩
  | .hbm, ⟨52, _⟩ => ⟨S4000, .i32⟩
  | .hbm, ⟨53, _⟩ => ⟨S4000, .i32⟩
  | .hbm, ⟨54, _⟩ => ⟨S4000, .i32⟩
  | .hbm, ⟨55, _⟩ => ⟨S4000x1, .i32⟩
  | .hbm, ⟨56, _⟩ => ⟨S4000, .i32⟩
  | .hbm, ⟨57, _⟩ => ⟨S8000, .i32⟩
  | .hbm, ⟨58, _⟩ => ⟨S8000x1, .f32⟩
  | .hbm, ⟨59, _⟩ => ⟨S8000x1, .i32⟩
  | .hbm, ⟨60, _⟩ => ⟨S1x8000, .i32⟩
  | .hbm, ⟨61, _⟩ => ⟨S8000x1, .f32⟩
  | .hbm, ⟨62, _⟩ => ⟨S8000x1, .f32⟩
  | .hbm, ⟨63, _⟩ => ⟨S8000, .f32⟩
  | .hbm, ⟨64, _⟩ => ⟨S8000, .f32⟩
  | .hbm, ⟨65, _⟩ => ⟨S8000, .f32⟩
  | .hbm, ⟨66, _⟩ => ⟨S8000, .f32⟩
  | .hbm, ⟨67, _⟩ => ⟨S_, .f32⟩
  | .hbm, ⟨68, _⟩ => ⟨S8000, .f32⟩
  | .hbm, ⟨69, _⟩ => ⟨S8000, .f32⟩
  | .hbm, ⟨70, _⟩ => ⟨S8000, .f32⟩
  | .hbm, ⟨71, _⟩ => ⟨S_, .f32⟩
  | .hbm, ⟨72, _⟩ => ⟨S8000, .f32⟩
  | .hbm, ⟨73, _⟩ => ⟨S8000, .i1⟩
  | .hbm, ⟨74, _⟩ => ⟨S8000, .i1⟩
  | .hbm, ⟨75, _⟩ => ⟨S8000, .i1⟩
  | .hbm, ⟨76, _⟩ => ⟨S8000, .f32⟩
  | .hbm, ⟨77, _⟩ => ⟨S_, .f32⟩
  | .hbm, ⟨78, _⟩ => ⟨S8000, .f32⟩
  | .hbm, ⟨79, _⟩ => ⟨S8000, .f32⟩
  | .hbm, ⟨80, _⟩ => ⟨S8000, .f32⟩
  | .hbm, ⟨81, _⟩ => ⟨S8000, .f32⟩
  | .hbm, ⟨82, _⟩ => ⟨S8000, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S8000x1, .f32⟩
  | .hbm, ⟨91, _⟩ => ⟨S8000x1, .i32⟩
  | .hbm, ⟨92, _⟩ => ⟨S1x8000, .i32⟩
  | .hbm, ⟨93, _⟩ => ⟨S8000x1, .f32⟩
  | .hbm, ⟨94, _⟩ => ⟨S8000x1, .f32⟩
  | .hbm, ⟨95, _⟩ => ⟨S8000, .f32⟩
  | .hbm, ⟨96, _⟩ => ⟨S8000, .f32⟩
  | .hbm, ⟨97, _⟩ => ⟨S8000, .f32⟩
  | .hbm, ⟨98, _⟩ => ⟨S8000, .f32⟩
  | .hbm, ⟨99, _⟩ => ⟨S_, .f32⟩
  | .hbm, ⟨100, _⟩ => ⟨S8000, .f32⟩
  | .hbm, ⟨101, _⟩ => ⟨S8000, .f32⟩
  | .hbm, ⟨102, _⟩ => ⟨S8000, .f32⟩
  | .hbm, ⟨103, _⟩ => ⟨S_, .f32⟩
  | .hbm, ⟨104, _⟩ => ⟨S8000, .f32⟩
  | .hbm, ⟨105, _⟩ => ⟨S8000, .i1⟩
  | .hbm, ⟨106, _⟩ => ⟨S8000, .i1⟩
  | .hbm, ⟨107, _⟩ => ⟨S8000, .i1⟩
  | .hbm, ⟨108, _⟩ => ⟨S8000, .f32⟩
  | .hbm, ⟨109, _⟩ => ⟨S_, .f32⟩
  | .hbm, ⟨110, _⟩ => ⟨S8000, .f32⟩
  | .hbm, ⟨111, _⟩ => ⟨S8000, .f32⟩
  | .hbm, ⟨112, _⟩ => ⟨S8000, .f32⟩
  | .hbm, ⟨113, _⟩ => ⟨S8000, .f32⟩
  | .hbm, ⟨114, _⟩ => ⟨S8000, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .local _ .vmem, ⟨0, _⟩ => ⟨S400x256, .f32⟩
  | .local _ .vmem, ⟨1, _⟩ => ⟨S400x256, .f32⟩
  | .local _ .vmem, ⟨2, _⟩ => ⟨S400x1, .f32⟩
  | .local _ .vmem, ⟨3, _⟩ => ⟨S400x1, .f32⟩
  | .local _ .vmem, ⟨4, _⟩ => ⟨S400x1, .i32⟩
  | .local _ .vmem, ⟨5, _⟩ => ⟨S400x1, .i32⟩
  | .local _ .vmem, ⟨6, _⟩ => ⟨S1x8000, .i32⟩
  | .local _ .vmem, ⟨7, _⟩ => ⟨S8000x256, .f32⟩
  | .local _ .vmem, ⟨8, _⟩ => ⟨S400x1, .f32⟩
  | .local _ .vmem, ⟨9, _⟩ => ⟨S400x1, .f32⟩
  | .local _ .vmem, ⟨10, _⟩ => ⟨S400x1, .f32⟩
  | .local _ .vmem, ⟨11, _⟩ => ⟨S400x1, .f32⟩
  | .local _ .vmem, ⟨12, _⟩ => ⟨S400x256, .f32⟩
  | .local _ .vmem, ⟨13, _⟩ => ⟨S400x256, .f32⟩
  | .local _ .vmem, ⟨14, _⟩ => ⟨S400x1, .f32⟩
  | .local _ .vmem, ⟨15, _⟩ => ⟨S400x1, .f32⟩
  | .local _ .vmem, ⟨16, _⟩ => ⟨S400x1, .i32⟩
  | .local _ .vmem, ⟨17, _⟩ => ⟨S400x1, .i32⟩
  | .local _ .vmem, ⟨18, _⟩ => ⟨S1x8000, .i32⟩
  | .local _ .vmem, ⟨19, _⟩ => ⟨S8000x256, .f32⟩
  | .local _ .vmem, ⟨20, _⟩ => ⟨S400x1, .f32⟩
  | .local _ .vmem, ⟨21, _⟩ => ⟨S400x1, .f32⟩
  | .local _ .vmem, ⟨22, _⟩ => ⟨S400x1, .f32⟩
  | .local _ .vmem, ⟨23, _⟩ => ⟨S400x1, .f32⟩
  | _, _ => ⟨S8000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41_0 : Ref sig .tc := ⟨.hbm, 61, rfl⟩
abbrev main_v41_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66_0 : Ref sig .tc := ⟨.hbm, 93, rfl⟩
abbrev main_v66_1 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_cst_18 : Ref sig .tc := ⟨.hbm, 117, rfl⟩
abbrev main_v85 : Ref sig .tc := ⟨.hbm, 118, rfl⟩
abbrev main_cst_19 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8000 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8000x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8000 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8000x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  reducesTo_S8000x256_S8000_d1 : S8000x256.ReducesTo [1] S8000
  h_S_ : 0 < S_.numel
  bcast_S_S8000 : S_.BroadcastsInDim S8000 (![] : Fin 0 → Fin S8000.rank)
  transposes_S5x256x40x40_S5x40x40x256_0_2_3_1 : S5x256x40x40.Transposes [0, 2, 3, 1] S5x40x40x256
  shapeCasts_S5x40x40x256_S8000x256 : S5x40x40x256.ShapeCasts S8000x256
  bcast_S_S4000 : S_.BroadcastsInDim S4000 (![] : Fin 0 → Fin S4000.rank)
  bcast_S4000_S4000x1_0 : S4000.BroadcastsInDim S4000x1 (![0] : Fin 1 → Fin S4000x1.rank)
  concatenates_S4000x256_S4000x256_S8000x256_d0 : Shape.Concatenates [S4000x256, S4000x256] S8000x256 0
  concatenates_S4000_S4000_S8000_d0 : Shape.Concatenates [S4000, S4000] S8000 0
  shapeCasts_S8000_S8000x1 : S8000.ShapeCasts S8000x1
  shapeCasts_S8000_S1x8000 : S8000.ShapeCasts S1x8000
  inb_S400x256_S400x256_0_0 : ∀ a, (![0, 0] : Fin 2 → Nat) a + S400x256.size a ≤ S400x256.size a
  h_S400x256 : 0 < S400x256.numel
  bitsLt_bf16_f32 : FTy.bits .bf16 < FTy.bits .f32
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S1x8000_S1x8000_0_0 : ∀ a, (![0, 0] : Fin 2 → Nat) a + S1x8000.size a ≤ S1x8000.size a
  h_S1x8000 : 0 < S1x8000.numel
  shapeCasts_S1x8000_S1x8000 : S1x8000.ShapeCasts S1x8000
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  slices_S8000x256_o0_0_S400x256 : S8000x256.Slices ![0, 0] S400x256
  transposes_S400x256_p1_0_S256x400 : S400x256.Transposes [1, 0] S256x400
  slices_S1x8000_o0_0_S1x400 : S1x8000.Slices ![0, 0] S1x400
  broadcasts_S400x1_S400x400 : S400x1.Broadcasts S400x400
  natLt_1_32 : 1 < 32
  reduces_S400x400_S400 : S400x400.Reduces [1] S400
  shapeCasts_S400_S400x1 : S400.ShapeCasts S400x1
  slices_S8000x256_o400_0_S400x256 : S8000x256.Slices ![400, 0] S400x256
  slices_S1x8000_o0_400_S1x400 : S1x8000.Slices ![0, 400] S1x400
  slices_S8000x256_o800_0_S400x256 : S8000x256.Slices ![800, 0] S400x256
  slices_S1x8000_o0_800_S1x400 : S1x8000.Slices ![0, 800] S1x400
  slices_S8000x256_o1200_0_S400x256 : S8000x256.Slices ![1200, 0] S400x256
  slices_S1x8000_o0_1200_S1x400 : S1x8000.Slices ![0, 1200] S1x400
  slices_S8000x256_o1600_0_S400x256 : S8000x256.Slices ![1600, 0] S400x256
  slices_S1x8000_o0_1600_S1x400 : S1x8000.Slices ![0, 1600] S1x400
  slices_S8000x256_o2000_0_S400x256 : S8000x256.Slices ![2000, 0] S400x256
  slices_S1x8000_o0_2000_S1x400 : S1x8000.Slices ![0, 2000] S1x400
  slices_S8000x256_o2400_0_S400x256 : S8000x256.Slices ![2400, 0] S400x256
  slices_S1x8000_o0_2400_S1x400 : S1x8000.Slices ![0, 2400] S1x400
  slices_S8000x256_o2800_0_S400x256 : S8000x256.Slices ![2800, 0] S400x256
  slices_S1x8000_o0_2800_S1x400 : S1x8000.Slices ![0, 2800] S1x400
  slices_S8000x256_o3200_0_S400x256 : S8000x256.Slices ![3200, 0] S400x256
  slices_S1x8000_o0_3200_S1x400 : S1x8000.Slices ![0, 3200] S1x400
  slices_S8000x256_o3600_0_S400x256 : S8000x256.Slices ![3600, 0] S400x256
  slices_S1x8000_o0_3600_S1x400 : S1x8000.Slices ![0, 3600] S1x400
  slices_S8000x256_o4000_0_S400x256 : S8000x256.Slices ![4000, 0] S400x256
  slices_S1x8000_o0_4000_S1x400 : S1x8000.Slices ![0, 4000] S1x400
  slices_S8000x256_o4400_0_S400x256 : S8000x256.Slices ![4400, 0] S400x256
  slices_S1x8000_o0_4400_S1x400 : S1x8000.Slices ![0, 4400] S1x400
  slices_S8000x256_o4800_0_S400x256 : S8000x256.Slices ![4800, 0] S400x256
  slices_S1x8000_o0_4800_S1x400 : S1x8000.Slices ![0, 4800] S1x400
  slices_S8000x256_o5200_0_S400x256 : S8000x256.Slices ![5200, 0] S400x256
  slices_S1x8000_o0_5200_S1x400 : S1x8000.Slices ![0, 5200] S1x400
  slices_S8000x256_o5600_0_S400x256 : S8000x256.Slices ![5600, 0] S400x256
  slices_S1x8000_o0_5600_S1x400 : S1x8000.Slices ![0, 5600] S1x400
  slices_S8000x256_o6000_0_S400x256 : S8000x256.Slices ![6000, 0] S400x256
  slices_S1x8000_o0_6000_S1x400 : S1x8000.Slices ![0, 6000] S1x400
  slices_S8000x256_o6400_0_S400x256 : S8000x256.Slices ![6400, 0] S400x256
  slices_S1x8000_o0_6400_S1x400 : S1x8000.Slices ![0, 6400] S1x400
  slices_S8000x256_o6800_0_S400x256 : S8000x256.Slices ![6800, 0] S400x256
  slices_S1x8000_o0_6800_S1x400 : S1x8000.Slices ![0, 6800] S1x400
  slices_S8000x256_o7200_0_S400x256 : S8000x256.Slices ![7200, 0] S400x256
  slices_S1x8000_o0_7200_S1x400 : S1x8000.Slices ![0, 7200] S1x400
  slices_S8000x256_o7600_0_S400x256 : S8000x256.Slices ![7600, 0] S400x256
  slices_S1x8000_o0_7600_S1x400 : S1x8000.Slices ![0, 7600] S1x400
  shapeCasts_S8000x1_S8000 : S8000x1.ShapeCasts S8000
  reducesTo_S8000_S_d0 : S8000.ReducesTo [0] S_
  gather_S8000x256_S4000x1_S4000x256_1_0_n_n_0_1_1256_wf : GatherDims.WF S8000x256 S4000x1 S4000x256 [1] [0] [] [0] [] 1 ![1, 256]
  gather_S8000_S4000x1_S4000_n_0_n_n_0_1_1_wf : GatherDims.WF S8000 S4000x1 S4000 [] [0] [] [0] [] 1 ![1]
  dot_S400x256_S256x400_S400x400_1_0_0_1_n_n_wf : DotDims.WF S400x256 S256x400 S400x400 [1] [0] [0] [1] [] []
  dot_S400x1_S1x400_S400x400_1_0_0_1_n_n_wf : DotDims.WF S400x1 S1x400 S400x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S8000x256.size a
  hwx0_0 : ∀ i : grid0.Coords, EltTy.bits .f32 = 32 ∨ (Rect.block (s := S8000x256) S400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1.size a ≤ S8000x1.size a
  hwx0_1 : ∀ i : grid0.Coords, EltTy.bits .f32 = 32 ∨ (Rect.block (s := S8000x1) S400x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S8000x1.size a
  hwx0_2 : ∀ i : grid0.Coords, EltTy.bits .i32 = 32 ∨ (Rect.block (s := S8000x1) S400x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8000.size a ≤ S1x8000.size a
  hwx0_3 : ∀ i : grid0.Coords, EltTy.bits .i32 = 32 ∨ (Rect.block (s := S1x8000) S1x8000.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8000x256.size a ≤ S8000x256.size a
  hwx0_4 : ∀ i : grid0.Coords, EltTy.bits .f32 = 32 ∨ (Rect.block (s := S8000x256) S8000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x1.size a ≤ S8000x1.size a
  hwx0_5 : ∀ i : grid0.Coords, EltTy.bits .f32 = 32 ∨ (Rect.block (s := S8000x1) S400x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x1.size a ≤ S8000x1.size a
  hwx0_6 : ∀ i : grid0.Coords, EltTy.bits .f32 = 32 ∨ (Rect.block (s := S8000x1) S400x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x256.size a ≤ S8000x256.size a
  hwx1_0 : ∀ i : grid1.Coords, EltTy.bits .f32 = 32 ∨ (Rect.block (s := S8000x256) S400x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x1.size a ≤ S8000x1.size a
  hwx1_1 : ∀ i : grid1.Coords, EltTy.bits .f32 = 32 ∨ (Rect.block (s := S8000x1) S400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S8000x1.size a
  hwx1_2 : ∀ i : grid1.Coords, EltTy.bits .i32 = 32 ∨ (Rect.block (s := S8000x1) S400x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8000.size a ≤ S1x8000.size a
  hwx1_3 : ∀ i : grid1.Coords, EltTy.bits .i32 = 32 ∨ (Rect.block (s := S1x8000) S1x8000.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8000x256.size a ≤ S8000x256.size a
  hwx1_4 : ∀ i : grid1.Coords, EltTy.bits .f32 = 32 ∨ (Rect.block (s := S8000x256) S8000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x1.size a ≤ S8000x1.size a
  hwx1_5 : ∀ i : grid1.Coords, EltTy.bits .f32 = 32 ∨ (Rect.block (s := S8000x1) S400x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x1.size a ≤ S8000x1.size a
  hwx1_6 : ∀ i : grid1.Coords, EltTy.bits .f32 = 32 ∨ (Rect.block (s := S8000x1) S400x1.size (cc1_transform_6 i) (hinb1_6 i)).WholeWords (EltTy.packing .f32)

variable [Facts₀]

def gather_S8000x256_S4000x1_S4000x256_1_0_n_n_0_1_1256 : GatherDims S8000x256 S4000x1 S4000x256 where
  offsetDims := [1]
  collapsedSliceDims := [0]
  operandBatchingDims := []
  startIndicesBatchingDims := []
  startIndexMap := [0]
  indexVectorDim := 1
  sliceSizes := ![1, 256]
  wf := gather_S8000x256_S4000x1_S4000x256_1_0_n_n_0_1_1256_wf
def gather_S8000_S4000x1_S4000_n_0_n_n_0_1_1 : GatherDims S8000 S4000x1 S4000 where
  offsetDims := []
  collapsedSliceDims := [0]
  operandBatchingDims := []
  startIndicesBatchingDims := []
  startIndexMap := [0]
  indexVectorDim := 1
  sliceSizes := ![1]
  wf := gather_S8000_S4000x1_S4000_n_0_n_n_0_1_1_wf
def dot_S400x256_S256x400_S400x400_1_0_0_1_n_n : DotDims S400x256 S256x400 S400x400 where
  lhsContracting := [1]
  rhsContracting := [0]
  lhsNonContracting := [0]
  rhsNonContracting := [1]
  lhsBatch := []
  rhsBatch := []
  wf := dot_S400x256_S256x400_S400x400_1_0_0_1_n_n_wf
def dot_S400x1_S1x400_S400x400_1_0_0_1_n_n : DotDims S400x1 S1x400 S400x400 where
  lhsContracting := [1]
  rhsContracting := [0]
  lhsNonContracting := [0]
  rhsNonContracting := [1]
  lhsBatch := []
  rhsBatch := []
  wf := dot_S400x1_S1x400_S400x400_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x8000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S8000x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41_0) S400x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v41_1) S400x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x8000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S8000x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66_0) S400x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v66_1) S400x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8000x256 : Shape := ⟨2, ![8000, 256]⟩
abbrev S5x256x40x40 : Shape := ⟨4, ![5, 256, 40, 40]⟩
abbrev S8000 : Shape := ⟨1, ![8000]⟩
abbrev S4000 : Shape := ⟨1, ![4000]⟩
abbrev S_ : Shape := ⟨0, ![]⟩
abbrev S8000x1 : Shape := ⟨2, ![8000, 1]⟩
abbrev S5x40x40x256 : Shape := ⟨4, ![5, 40, 40, 256]⟩
abbrev S4000x1 : Shape := ⟨2, ![4000, 1]⟩
abbrev S4000x256 : Shape := ⟨2, ![4000, 256]⟩
abbrev S1x8000 : Shape := ⟨2, ![1, 8000]⟩
abbrev S8000x8000 : Shape := ⟨2, ![8000, 8000]⟩
abbrev S256x8000 : Shape := ⟨2, ![256, 8000]⟩
abbrev S8000x8001 : Shape := ⟨2, ![8000, 8001]⟩

abbrev nBuf : Space → Nat
  | .hbm => 167
  | .vmem => 0
  | .smem => 0
  | _ => 0

abbrev hbmTy0_0 (i : Nat) : BufTy := match i % 128 with
  | 0 => ⟨S8000x256, .f32⟩
  | 1 => ⟨S8000x256, .f32⟩
  | 2 => ⟨S5x256x40x40, .f32⟩
  | 3 => ⟨S5x256x40x40, .f32⟩
  | 4 => ⟨S8000, .i32⟩
  | 5 => ⟨S8000, .i32⟩
  | 6 => ⟨S8000, .f32⟩
  | 7 => ⟨S8000, .f32⟩
  | 8 => ⟨S4000, .i32⟩
  | 9 => ⟨S4000, .i32⟩
  | 10 => ⟨S8000x256, .f32⟩
  | 11 => ⟨S_, .f32⟩
  | 12 => ⟨S8000, .f32⟩
  | 13 => ⟨S8000x1, .f32⟩
  | 14 => ⟨S_, .f32⟩
  | 15 => ⟨S8000x1, .f32⟩
  | 16 => ⟨S8000x1, .f32⟩
  | 17 => ⟨S8000x256, .f32⟩
  | 18 => ⟨S_, .f32⟩
  | 19 => ⟨S8000, .f32⟩
  | 20 => ⟨S8000x1, .f32⟩
  | 21 => ⟨S_, .f32⟩
  | 22 => ⟨S8000x1, .f32⟩
  | 23 => ⟨S8000x1, .f32⟩
  | 24 => ⟨S5x40x40x256, .f32⟩
  | 25 => ⟨S8000x256, .f32⟩
  | 26 => ⟨S5x40x40x256, .f32⟩
  | 27 => ⟨S8000x256, .f32⟩
  | 28 => ⟨S_, .i32⟩
  | 29 => ⟨S4000, .i32⟩
  | 30 => ⟨S4000, .i1⟩
  | 31 => ⟨S_, .i32⟩
  | 32 => ⟨S4000, .i32⟩
  | 33 => ⟨S4000, .i32⟩
  | 34 => ⟨S4000, .i32⟩
  | 35 => ⟨S4000x1, .i32⟩
  | 36 => ⟨S4000x256, .f32⟩
  | 37 => ⟨S_, .i32⟩
  | 38 => ⟨S4000, .i32⟩
  | 39 => ⟨S4000, .i1⟩
  | 40 => ⟨S_, .i32⟩
  | 41 => ⟨S4000, .i32⟩
  | 42 => ⟨S4000, .i32⟩
  | 43 => ⟨S4000, .i32⟩
  | 44 => ⟨S4000x1, .i32⟩
  | 45 => ⟨S4000x256, .f32⟩
  | 46 => ⟨S8000x256, .f32⟩
  | 47 => ⟨S_, .i32⟩
  | 48 => ⟨S4000, .i32⟩
  | 49 => ⟨S4000, .i1⟩
  | 50 => ⟨S_, .i32⟩
  | 51 => ⟨S4000, .i32⟩
  | 52 => ⟨S4000, .i32⟩
  | 53 => ⟨S4000, .i32⟩
  | 54 => ⟨S4000x1, .i32⟩
  | 55 => ⟨S4000, .i32⟩
  | 56 => ⟨S_, .i32⟩
  | 57 => ⟨S4000, .i32⟩
  | 58 => ⟨S4000, .i1⟩
  | 59 => ⟨S_, .i32⟩
  | 60 => ⟨S4000, .i32⟩
  | 61 => ⟨S4000, .i32⟩
  | 62 => ⟨S4000, .i32⟩
  | 63 => ⟨S4000x1, .i32⟩
  | 64 => ⟨S4000, .i32⟩
  | 65 => ⟨S8000, .i32⟩
  | 66 => ⟨S1x8000, .i32⟩
  | 67 => ⟨S8000x1, .i32⟩
  | 68 => ⟨S8000x8000, .i32⟩
  | 69 => ⟨S8000x8000, .i32⟩
  | 70 => ⟨S8000x8000, .i1⟩
  | 71 => ⟨S8000x8000, .f32⟩
  | 72 => ⟨S256x8000, .f32⟩
  | 73 => ⟨S8000x8000, .f32⟩
  | 74 => ⟨S_, .f32⟩
  | 75 => ⟨S8000x8000, .f32⟩
  | 76 => ⟨S8000x8000, .f32⟩
  | 77 => ⟨S8000x8001, .f32⟩
  | 78 => ⟨S_, .f32⟩
  | 79 => ⟨S8000x1, .f32⟩
  | 80 => ⟨S8000x8001, .f32⟩
  | 81 => ⟨S_, .f32⟩
  | 82 => ⟨S8000, .f32⟩
  | 83 => ⟨S8000x1, .f32⟩
  | 84 => ⟨S8000x8001, .f32⟩
  | 85 => ⟨S8000x8001, .f32⟩
  | 86 => ⟨S8000x8001, .f32⟩
  | 87 => ⟨S8000x8001, .f32⟩
  | 88 => ⟨S_, .f32⟩
  | 89 => ⟨S8000, .f32⟩
  | 90 => ⟨S8000x1, .f32⟩
  | 91 => ⟨S8000x1, .f32⟩
  | 92 => ⟨S8000, .f32⟩
  | 93 => ⟨S_, .f32⟩
  | 94 => ⟨S8000, .f32⟩
  | 95 => ⟨S8000, .f32⟩
  | 96 => ⟨S8000, .f32⟩
  | 97 => ⟨S_, .f32⟩
  | 98 => ⟨S8000, .f32⟩
  | 99 => ⟨S8000, .i1⟩
  | 100 => ⟨S8000, .i1⟩
  | 101 => ⟨S8000, .i1⟩
  | 102 => ⟨S8000, .f32⟩
  | 103 => ⟨S_, .f32⟩
  | 104 => ⟨S8000, .f32⟩
  | 105 => ⟨S8000, .f32⟩
  | 106 => ⟨S8000, .f32⟩
  | 107 => ⟨S8000, .f32⟩
  | 108 => ⟨S8000, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1x8000, .i32⟩
  | 117 => ⟨S8000x1, .i32⟩
  | 118 => ⟨S8000x8000, .i32⟩
  | 119 => ⟨S8000x8000, .i32⟩
  | 120 => ⟨S8000x8000, .i1⟩
  | 121 => ⟨S8000x8000, .f32⟩
  | 122 => ⟨S256x8000, .f32⟩
  | 123 => ⟨S8000x8000, .f32⟩
  | 124 => ⟨S_, .f32⟩
  | 125 => ⟨S8000x8000, .f32⟩
  | 126 => ⟨S8000x8000, .f32⟩
  | 127 => ⟨S8000x8001, .f32⟩
  | _ => ⟨S8000x256, .f32⟩

abbrev hbmTy0_1 (i : Nat) : BufTy := match i % 128 with
  | 0 => ⟨S_, .f32⟩
  | 1 => ⟨S8000x1, .f32⟩
  | 2 => ⟨S8000x8001, .f32⟩
  | 3 => ⟨S_, .f32⟩
  | 4 => ⟨S8000, .f32⟩
  | 5 => ⟨S8000x1, .f32⟩
  | 6 => ⟨S8000x8001, .f32⟩
  | 7 => ⟨S8000x8001, .f32⟩
  | 8 => ⟨S8000x8001, .f32⟩
  | 9 => ⟨S8000x8001, .f32⟩
  | 10 => ⟨S_, .f32⟩
  | 11 => ⟨S8000, .f32⟩
  | 12 => ⟨S8000x1, .f32⟩
  | 13 => ⟨S8000x1, .f32⟩
  | 14 => ⟨S8000, .f32⟩
  | 15 => ⟨S_, .f32⟩
  | 16 => ⟨S8000, .f32⟩
  | 17 => ⟨S8000, .f32⟩
  | 18 => ⟨S8000, .f32⟩
  | 19 => ⟨S_, .f32⟩
  | 20 => ⟨S8000, .f32⟩
  | 21 => ⟨S8000, .i1⟩
  | 22 => ⟨S8000, .i1⟩
  | 23 => ⟨S8000, .i1⟩
  | 24 => ⟨S8000, .f32⟩
  | 25 => ⟨S_, .f32⟩
  | 26 => ⟨S8000, .f32⟩
  | 27 => ⟨S8000, .f32⟩
  | 28 => ⟨S8000, .f32⟩
  | 29 => ⟨S8000, .f32⟩
  | 30 => ⟨S8000, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | _ => ⟨S8000x256, .f32⟩

abbrev hbmTy (i : Nat) : BufTy := match i / 128 with
  | 0 => hbmTy0_0 i
  | 1 => hbmTy0_1 i
  | _ => ⟨S8000x256, .f32⟩

abbrev bufTy : (tb : Table) → Fin (tcTables nBuf tb) → BufTy
  | .hbm, ⟨i, _⟩ => hbmTy i
  | _, _ => ⟨S8000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_21 : Ref sig .tc := ⟨.hbm, 128, rfl⟩
abbrev main_v95 : Ref sig .tc := ⟨.hbm, 129, rfl⟩
abbrev main_v96 : Ref sig .tc := ⟨.hbm, 130, rfl⟩
abbrev main_cst_22 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_23 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_24 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_25 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_26 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_27 : Ref sig .tc := ⟨.hbm, 159, rfl⟩
abbrev main_v120 : Ref sig .tc := ⟨.hbm, 160, rfl⟩
abbrev main_cst_28 : Ref sig .tc := ⟨.hbm, 161, rfl⟩
abbrev main_v121 : Ref sig .tc := ⟨.hbm, 162, rfl⟩
abbrev main_cst_29 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩

abbrev nD : Nat := 1
abbrev τ : Topo := Topo.v7x

variable {F : FTy → Type} [FloatOps F]

class Facts₀ : Prop where
  reducesTo_S8000x256_S8000_d1 : S8000x256.ReducesTo [1] S8000
  h_S_ : 0 < S_.numel
  bcast_S8000_S8000x1_0 : S8000.BroadcastsInDim S8000x1 (![0] : Fin 1 → Fin S8000x1.rank)
  bcast_S_S8000x1 : S_.BroadcastsInDim S8000x1 (![] : Fin 0 → Fin S8000x1.rank)
  transposes_S5x256x40x40_S5x40x40x256_0_2_3_1 : S5x256x40x40.Transposes [0, 2, 3, 1] S5x40x40x256
  shapeCasts_S5x40x40x256_S8000x256 : S5x40x40x256.ShapeCasts S8000x256
  bcast_S_S4000 : S_.BroadcastsInDim S4000 (![] : Fin 0 → Fin S4000.rank)
  bcast_S4000_S4000x1_0 : S4000.BroadcastsInDim S4000x1 (![0] : Fin 1 → Fin S4000x1.rank)
  concatenates_S4000x256_S4000x256_S8000x256_d0 : Shape.Concatenates [S4000x256, S4000x256] S8000x256 0
  concatenates_S4000_S4000_S8000_d0 : Shape.Concatenates [S4000, S4000] S8000 0
  bcast_S8000_S1x8000_1 : S8000.BroadcastsInDim S1x8000 (![1] : Fin 1 → Fin S1x8000.rank)
  bcast_S1x8000_S8000x8000_0_1 : S1x8000.BroadcastsInDim S8000x8000 (![0, 1] : Fin 2 → Fin S8000x8000.rank)
  bcast_S8000x1_S8000x8000_0_1 : S8000x1.BroadcastsInDim S8000x8000 (![0, 1] : Fin 2 → Fin S8000x8000.rank)
  transposes_S8000x256_S256x8000_1_0 : S8000x256.Transposes [1, 0] S256x8000
  bcast_S_S8000x8000 : S_.BroadcastsInDim S8000x8000 (![] : Fin 0 → Fin S8000x8000.rank)
  concatenates_S8000x1_S8000x8000_S8000x8001_d1 : Shape.Concatenates [S8000x1, S8000x8000] S8000x8001 1
  reducesTo_S8000x8001_S8000_d1 : S8000x8001.ReducesTo [1] S8000
  bcast_S8000x1_S8000x8001_0_1 : S8000x1.BroadcastsInDim S8000x8001 (![0, 1] : Fin 2 → Fin S8000x8001.rank)
  shapeCasts_S8000x1_S8000 : S8000x1.ShapeCasts S8000
  bcast_S_S8000 : S_.BroadcastsInDim S8000 (![] : Fin 0 → Fin S8000.rank)
  reducesTo_S8000_S_d0 : S8000.ReducesTo [0] S_
  gather_S8000x256_S4000x1_S4000x256_1_0_n_n_0_1_1256_wf : GatherDims.WF S8000x256 S4000x1 S4000x256 [1] [0] [] [0] [] 1 ![1, 256]
  gather_S8000_S4000x1_S4000_n_0_n_n_0_1_1_wf : GatherDims.WF S8000 S4000x1 S4000 [] [0] [] [0] [] 1 ![1]
  dot_S8000x256_S256x8000_S8000x8000_1_0_0_1_n_n_wf : DotDims.WF S8000x256 S256x8000 S8000x8000 [1] [0] [0] [1] [] []

variable [Facts₀]

def gather_S8000x256_S4000x1_S4000x256_1_0_n_n_0_1_1256 : GatherDims S8000x256 S4000x1 S4000x256 where
  offsetDims := [1]
  collapsedSliceDims := [0]
  operandBatchingDims := []
  startIndicesBatchingDims := []
  startIndexMap := [0]
  indexVectorDim := 1
  sliceSizes := ![1, 256]
  wf := gather_S8000x256_S4000x1_S4000x256_1_0_n_n_0_1_1256_wf
def gather_S8000_S4000x1_S4000_n_0_n_n_0_1_1 : GatherDims S8000 S4000x1 S4000 where
  offsetDims := []
  collapsedSliceDims := [0]
  operandBatchingDims := []
  startIndicesBatchingDims := []
  startIndexMap := [0]
  indexVectorDim := 1
  sliceSizes := ![1]
  wf := gather_S8000_S4000x1_S4000_n_0_n_n_0_1_1_wf
def dot_S8000x256_S256x8000_S8000x8000_1_0_0_1_n_n : DotDims S8000x256 S256x8000 S8000x8000 where
  lhsContracting := [1]
  rhsContracting := [0]
  lhsNonContracting := [0]
  rhsNonContracting := [1]
  lhsBatch := []
  rhsBatch := []
  wf := dot_S8000x256_S256x8000_S8000x8000_1_0_0_1_n_n_wf

class Facts : Prop extends Facts₀ where

variable [Facts]
-- ==== Proof.KBody.lean ====
/-
  The body of the contrastive kernel as twenty tile updates.

  A grid point holds 400 anchor rows. The 8000 memory rows are taken in twenty tiles of 400: a tile's scores are the
  anchor block times the transposed tile, times the inverse temperature; its mask is one where the column's own label
  (spread over the rows by a one-column product with a column of ones) differs from the row's memory label; the running
  maximum takes the tile's row maxima in, and the running sum is rescaled by exp (old maximum - new maximum) and takes the
  tile's masked exponentials in. Written here as one function per tile over whole vectors, the body's two stored values
  are the twentieth maximum and the twentieth sum.
-/
import proofs.«168614_j49684181680814_2_alg».proof.Proof.Gen.KernelIdeal.Frame

set_option maxRecDepth 16384

noncomputable section

namespace Cert.KernelIdeal.Body

open Idealize.ShloMosaic Cert.KernelIdeal Cert.KernelIdeal.Facts₀

variable {F : FTy → Type} [FloatOps F] [Named F] [Cert.KernelIdeal.Facts]

/-- A tile's scores: the anchor block times the transposed tile of memory rows that starts at row o 0, times the named
    inverse temperature. -/
def scores (o : Fin 2 → ℕ) (hs : S8000x256.Slices o S400x256) (a : FVec F S400x256 .bf16) (mem : FVec F S8000x256 .f32) :
    FVec F S400x400 .f32 :=
  mulf (matmul dot_S400x256_S256x400_S400x400_1_0_0_1_n_n none a
      (transpose S256x400 [1, 0] (truncf .bf16 (extractStridedSlice S400x256 o mem hs) bitsLt_bf16_f32) transposes_S400x256_p1_0_S256x400)
      (constant S400x400 .f32 0x00000000#32))
    (broadcast S400x400 (Named.named κ "inv_temp" (φ := .f32) 0x41200000#32))

/-- A tile's mask: one where the column's own label differs from the row's memory label. -/
def mask (o : Fin 2 → ℕ) (hs : S1x8000.Slices o S1x400) (lab : FVec F S400x1 .f32) (own : IVec S1x8000 32) (ones : FVec F S400x1 .f32) :
    FVec F S400x400 .f32 :=
  sitofp .f32 (extui 32 (cmpf .one
    (matmul dot_S400x1_S1x400_S400x400_1_0_0_1_n_n none ones (sitofp .f32 (extractStridedSlice S1x400 o own hs)) (constant S400x400 .f32 0x00000000#32))
    (broadcastTo S400x400 lab broadcasts_S400x1_S400x400)) natLt_1_32)

/-- The running maximum after a tile. -/
def newMax (sc : FVec F S400x400 .f32) (m : FVec F S400x1 .f32) : FVec F S400x1 .f32 :=
  maximumf m (shapeCast S400x1 (multiReduction .maximumf [1] S400 sc 0xFF800000#32 reduces_S400x400_S400 (.inl rfl) rfl) shapeCasts_S400_S400x1)

/-- The running sum after a tile: the old sum rescaled to the new maximum plus the tile's masked exponentials. -/
def newSum (sc mk : FVec F S400x400 .f32) (m m' l : FVec F S400x1 .f32) : FVec F S400x1 .f32 :=
  addf (mulf l (exp (subf m m')))
    (shapeCast S400x1 (multiReduction .add [1] S400 (mulf (exp (subf sc (broadcastTo S400x400 m' broadcasts_S400x1_S400x400))) mk)
      0x00000000#32 reduces_S400x400_S400 (.inl rfl) rfl) shapeCasts_S400_S400x1)

/-- The running maximum before any tile. -/
def M0 (a : FVec F S400x256 .bf16) (mem : FVec F S8000x256 .f32) (m0 : FVec F S400x1 .f32) : FVec F S400x1 .f32 := m0
/-- The running sum before any tile. -/
def L0 (a : FVec F S400x256 .bf16) (mem : FVec F S8000x256 .f32) (lab : FVec F S400x1 .f32) (own : IVec S1x8000 32) (ones m0 l0 : FVec F S400x1 .f32) : FVec F S400x1 .f32 := l0
/-- The running maximum after tile 0 (memory rows 0 to 399). -/
def M1 (a : FVec F S400x256 .bf16) (mem : FVec F S8000x256 .f32) (m0 : FVec F S400x1 .f32) : FVec F S400x1 .f32 :=
  newMax (scores ![0, 0] slices_S8000x256_o0_0_S400x256 a mem) (M0 a mem m0)
/-- The running sum after tile 0. -/
def L1 (a : FVec F S400x256 .bf16) (mem : FVec F S8000x256 .f32) (lab : FVec F S400x1 .f32) (own : IVec S1x8000 32) (ones m0 l0 : FVec F S400x1 .f32) : FVec F S400x1 .f32 :=
  newSum (scores ![0, 0] slices_S8000x256_o0_0_S400x256 a mem) (mask ![0, 0] slices_S1x8000_o0_0_S1x400 lab own ones)
    (M0 a mem m0) (M1 a mem m0) (L0 a mem lab own ones m0 l0)
/-- The running maximum after tile 1 (memory rows 400 to 799). -/
def M2 (a : FVec F S400x256 .bf16) (mem : FVec F S8000x256 .f32) (m0 : FVec F S400x1 .f32) : FVec F S400x1 .f32 :=
  newMax (scores ![400, 0] slices_S8000x256_o400_0_S400x256 a mem) (M1 a mem m0)
/-- The running sum after tile 1. -/
def L2 (a : FVec F S400x256 .bf16) (mem : FVec F S8000x256 .f32) (lab : FVec F S400x1 .f32) (own : IVec S1x8000 32) (ones m0 l0 : FVec F S400x1 .f32) : FVec F S400x1 .f32 :=
  newSum (scores ![400, 0] slices_S8000x256_o400_0_S400x256 a mem) (mask ![0, 400] slices_S1x8000_o0_400_S1x400 lab own ones)
    (M1 a mem m0) (M2 a mem m0) (L1 a mem lab own ones m0 l0)
/-- The running maximum after tile 2 (memory rows 800 to 1199). -/
def M3 (a : FVec F S400x256 .bf16) (mem : FVec F S8000x256 .f32) (m0 : FVec F S400x1 .f32) : FVec F S400x1 .f32 :=
  newMax (scores ![800, 0] slices_S8000x256_o800_0_S400x256 a mem) (M2 a mem m0)
/-- The running sum after tile 2. -/
def L3 (a : FVec F S400x256 .bf16) (mem : FVec F S8000x256 .f32) (lab : FVec F S400x1 .f32) (own : IVec S1x8000 32) (ones m0 l0 : FVec F S400x1 .f32) : FVec F S400x1 .f32 :=
  newSum (scores ![800, 0] slices_S8000x256_o800_0_S400x256 a mem) (mask ![0, 800] slices_S1x8000_o0_800_S1x400 lab own ones)
    (M2 a mem m0) (M3 a mem m0) (L2 a mem lab own ones m0 l0)
/-- The running maximum after tile 3 (memory rows 1200 to 1599). -/
def M4 (a : FVec F S400x256 .bf16) (mem : FVec F S8000x256 .f32) (m0 : FVec F S400x1 .f32) : FVec F S400x1 .f32 :=
  newMax (scores ![1200, 0] slices_S8000x256_o1200_0_S400x256 a mem) (M3 a mem m0)
/-- The running sum after tile 3. -/
def L4 (a : FVec F S400x256 .bf16) (mem : FVec F S8000x256 .f32) (lab : FVec F S400x1 .f32) (own : IVec S1x8000 32) (ones m0 l0 : FVec F S400x1 .f32) : FVec F S400x1 .f32 :=
  newSum (scores ![1200, 0] slices_S8000x256_o1200_0_S400x256 a mem) (mask ![0, 1200] slices_S1x8000_o0_1200_S1x400 lab own ones)
    (M3 a mem m0) (M4 a mem m0) (L3 a mem lab own ones m0 l0)
/-- The running maximum after tile 4 (memory rows 1600 to 1999). -/
def M5 (a : FVec F S400x256 .bf16) (mem : FVec F S8000x256 .f32) (m0 : FVec F S400x1 .f32) : FVec F S400x1 .f32 :=
  newMax (scores ![1600, 0] slices_S8000x256_o1600_0_S400x256 a mem) (M4 a mem m0)
/-- The running sum after tile 4. -/
def L5 (a : FVec F S400x256 .bf16) (mem : FVec F S8000x256 .f32) (lab : FVec F S400x1 .f32) (own : IVec S1x8000 32) (ones m0 l0 : FVec F S400x1 .f32) : FVec F S400x1 .f32 :=
  newSum (scores ![1600, 0] slices_S8000x256_o1600_0_S400x256 a mem) (mask ![0, 1600] slices_S1x8000_o0_1600_S1x400 lab own ones)
    (M4 a mem m0) (M5 a mem m0) (L4 a mem lab own ones m0 l0)
/-- The running maximum after tile 5 (memory rows 2000 to 2399). -/
def M6 (a : FVec F S400x256 .bf16) (mem : FVec F S8000x256 .f32) (m0 : FVec F S400x1 .f32) : FVec F S400x1 .f32 :=
  newMax (scores ![2000, 0] slices_S8000x256_o2000_0_S400x256 a mem) (M5 a mem m0)
/-- The running sum after tile 5. -/
def L6 (a : FVec F S400x256 .bf16) (mem : FVec F S8000x256 .f32) (lab : FVec F S400x1 .f32) (own : IVec S1x8000 32) (ones m0 l0 : FVec F S400x1 .f32) : FVec F S400x1 .f32 :=
  newSum (scores ![2000, 0] slices_S8000x256_o2000_0_S400x256 a mem) (mask ![0, 2000] slices_S1x8000_o0_2000_S1x400 lab own ones)
    (M5 a mem m0) (M6 a mem m0) (L5 a mem lab own ones m0 l0)
/-- The running maximum after tile 6 (memory rows 2400 to 2799). -/
def M7 (a : FVec F S400x256 .bf16) (mem : FVec F S8000x256 .f32) (m0 : FVec F S400x1 .f32) : FVec F S400x1 .f32 :=
  newMax (scores ![2400, 0] slices_S8000x256_o2400_0_S400x256 a mem) (M6 a mem m0)
/-- The running sum after tile 6. -/
def L7 (a : FVec F S400x256 .bf16) (mem : FVec F S8000x256 .f32) (lab : FVec F S400x1 .f32) (own : IVec S1x8000 32) (ones m0 l0 : FVec F S400x1 .f32) : FVec F S400x1 .f32 :=
  newSum (scores ![2400, 0] slices_S8000x256_o2400_0_S400x256 a mem) (mask ![0, 2400] slices_S1x8000_o0_2400_S1x400 lab own ones)
    (M6 a mem m0) (M7 a mem m0) (L6 a mem lab own ones m0 l0)
/-- The running maximum after tile 7 (memory rows 2800 to 3199). -/
def M8 (a : FVec F S400x256 .bf16) (mem : FVec F S8000x256 .f32) (m0 : FVec F S400x1 .f32) : FVec F S400x1 .f32 :=
  newMax (scores ![2800, 0] slices_S8000x256_o2800_0_S400x256 a mem) (M7 a mem m0)
/-- The running sum after tile 7. -/
def L8 (a : FVec F S400x256 .bf16) (mem : FVec F S8000x256 .f32) (lab : FVec F S400x1 .f32) (own : IVec S1x8000 32) (ones m0 l0 : FVec F S400x1 .f32) : FVec F S400x1 .f32 :=
  newSum (scores ![2800, 0] slices_S8000x256_o2800_0_S400x256 a mem) (mask ![0, 2800] slices_S1x8000_o0_2800_S1x400 lab own ones)
    (M7 a mem m0) (M8 a mem m0) (L7 a mem lab own ones m0 l0)
/-- The running maximum after tile 8 (memory rows 3200 to 3599). -/
def M9 (a : FVec F S400x256 .bf16) (mem : FVec F S8000x256 .f32) (m0 : FVec F S400x1 .f32) : FVec F S400x1 .f32 :=
  newMax (scores ![3200, 0] slices_S8000x256_o3200_0_S400x256 a mem) (M8 a mem m0)
/-- The running sum after tile 8. -/
def L9 (a : FVec F S400x256 .bf16) (mem : FVec F S8000x256 .f32) (lab : FVec F S400x1 .f32) (own : IVec S1x8000 32) (ones m0 l0 : FVec F S400x1 .f32) : FVec F S400x1 .f32 :=
  newSum (scores ![3200, 0] slices_S8000x256_o3200_0_S400x256 a mem) (mask ![0, 3200] slices_S1x8000_o0_3200_S1x400 lab own ones)
    (M8 a mem m0) (M9 a mem m0) (L8 a mem lab own ones m0 l0)
/-- The running maximum after tile 9 (memory rows 3600 to 3999). -/
def M10 (a : FVec F S400x256 .bf16) (mem : FVec F S8000x256 .f32) (m0 : FVec F S400x1 .f32) : FVec F S400x1 .f32 :=
  newMax (scores ![3600, 0] slices_S8000x256_o3600_0_S400x256 a mem) (M9 a mem m0)
/-- The running sum after tile 9. -/
def L10 (a : FVec F S400x256 .bf16) (mem : FVec F S8000x256 .f32) (lab : FVec F S400x1 .f32) (own : IVec S1x8000 32) (ones m0 l0 : FVec F S400x1 .f32) : FVec F S400x1 .f32 :=
  newSum (scores ![3600, 0] slices_S8000x256_o3600_0_S400x256 a mem) (mask ![0, 3600] slices_S1x8000_o0_3600_S1x400 lab own ones)
    (M9 a mem m0) (M10 a mem m0) (L9 a mem lab own ones m0 l0)
/-- The running maximum after tile 10 (memory rows 4000 to 4399). -/
def M11 (a : FVec F S400x256 .bf16) (mem : FVec F S8000x256 .f32) (m0 : FVec F S400x1 .f32) : FVec F S400x1 .f32 :=
  newMax (scores ![4000, 0] slices_S8000x256_o4000_0_S400x256 a mem) (M10 a mem m0)
/-- The running sum after tile 10. -/
def L11 (a : FVec F S400x256 .bf16) (mem : FVec F S8000x256 .f32) (lab : FVec F S400x1 .f32) (own : IVec S1x8000 32) (ones m0 l0 : FVec F S400x1 .f32) : FVec F S400x1 .f32 :=
  newSum (scores ![4000, 0] slices_S8000x256_o4000_0_S400x256 a mem) (mask ![0, 4000] slices_S1x8000_o0_4000_S1x400 lab own ones)
    (M10 a mem m0) (M11 a mem m0) (L10 a mem lab own ones m0 l0)
/-- The running maximum after tile 11 (memory rows 4400 to 4799). -/
def M12 (a : FVec F S400x256 .bf16) (mem : FVec F S8000x256 .f32) (m0 : FVec F S400x1 .f32) : FVec F S400x1 .f32 :=
  newMax (scores ![4400, 0] slices_S8000x256_o4400_0_S400x256 a mem) (M11 a mem m0)
/-- The running sum after tile 11. -/
def L12 (a : FVec F S400x256 .bf16) (mem : FVec F S8000x256 .f32) (lab : FVec F S400x1 .f32) (own : IVec S1x8000 32) (ones m0 l0 : FVec F S400x1 .f32) : FVec F S400x1 .f32 :=
  newSum (scores ![4400, 0] slices_S8000x256_o4400_0_S400x256 a mem) (mask ![0, 4400] slices_S1x8000_o0_4400_S1x400 lab own ones)
    (M11 a mem m0) (M12 a mem m0) (L11 a mem lab own ones m0 l0)
/-- The running maximum after tile 12 (memory rows 4800 to 5199). -/
def M13 (a : FVec F S400x256 .bf16) (mem : FVec F S8000x256 .f32) (m0 : FVec F S400x1 .f32) : FVec F S400x1 .f32 :=
  newMax (scores ![4800, 0] slices_S8000x256_o4800_0_S400x256 a mem) (M12 a mem m0)
/-- The running sum after tile 12. -/
def L13 (a : FVec F S400x256 .bf16) (mem : FVec F S8000x256 .f32) (lab : FVec F S400x1 .f32) (own : IVec S1x8000 32) (ones m0 l0 : FVec F S400x1 .f32) : FVec F S400x1 .f32 :=
  newSum (scores ![4800, 0] slices_S8000x256_o4800_0_S400x256 a mem) (mask ![0, 4800] slices_S1x8000_o0_4800_S1x400 lab own ones)
    (M12 a mem m0) (M13 a mem m0) (L12 a mem lab own ones m0 l0)
/-- The running maximum after tile 13 (memory rows 5200 to 5599). -/
def M14 (a : FVec F S400x256 .bf16) (mem : FVec F S8000x256 .f32) (m0 : FVec F S400x1 .f32) : FVec F S400x1 .f32 :=
  newMax (scores ![5200, 0] slices_S8000x256_o5200_0_S400x256 a mem) (M13 a mem m0)
/-- The running sum after tile 13. -/
def L14 (a : FVec F S400x256 .bf16) (mem : FVec F S8000x256 .f32) (lab : FVec F S400x1 .f32) (own : IVec S1x8000 32) (ones m0 l0 : FVec F S400x1 .f32) : FVec F S400x1 .f32 :=
  newSum (scores ![5200, 0] slices_S8000x256_o5200_0_S400x256 a mem) (mask ![0, 5200] slices_S1x8000_o0_5200_S1x400 lab own ones)
    (M13 a mem m0) (M14 a mem m0) (L13 a mem lab own ones m0 l0)
/-- The running maximum after tile 14 (memory rows 5600 to 5999). -/
def M15 (a : FVec F S400x256 .bf16) (mem : FVec F S8000x256 .f32) (m0 : FVec F S400x1 .f32) : FVec F S400x1 .f32 :=
  newMax (scores ![5600, 0] slices_S8000x256_o5600_0_S400x256 a mem) (M14 a mem m0)
/-- The running sum after tile 14. -/
def L15 (a : FVec F S400x256 .bf16) (mem : FVec F S8000x256 .f32) (lab : FVec F S400x1 .f32) (own : IVec S1x8000 32) (ones m0 l0 : FVec F S400x1 .f32) : FVec F S400x1 .f32 :=
  newSum (scores ![5600, 0] slices_S8000x256_o5600_0_S400x256 a mem) (mask ![0, 5600] slices_S1x8000_o0_5600_S1x400 lab own ones)
    (M14 a mem m0) (M15 a mem m0) (L14 a mem lab own ones m0 l0)
/-- The running maximum after tile 15 (memory rows 6000 to 6399). -/
def M16 (a : FVec F S400x256 .bf16) (mem : FVec F S8000x256 .f32) (m0 : FVec F S400x1 .f32) : FVec F S400x1 .f32 :=
  newMax (scores ![6000, 0] slices_S8000x256_o6000_0_S400x256 a mem) (M15 a mem m0)
/-- The running sum after tile 15. -/
def L16 (a : FVec F S400x256 .bf16) (mem : FVec F S8000x256 .f32) (lab : FVec F S400x1 .f32) (own : IVec S1x8000 32) (ones m0 l0 : FVec F S400x1 .f32) : FVec F S400x1 .f32 :=
  newSum (scores ![6000, 0] slices_S8000x256_o6000_0_S400x256 a mem) (mask ![0, 6000] slices_S1x8000_o0_6000_S1x400 lab own ones)
    (M15 a mem m0) (M16 a mem m0) (L15 a mem lab own ones m0 l0)
/-- The running maximum after tile 16 (memory rows 6400 to 6799). -/
def M17 (a : FVec F S400x256 .bf16) (mem : FVec F S8000x256 .f32) (m0 : FVec F S400x1 .f32) : FVec F S400x1 .f32 :=
  newMax (scores ![6400, 0] slices_S8000x256_o6400_0_S400x256 a mem) (M16 a mem m0)
/-- The running sum after tile 16. -/
def L17 (a : FVec F S400x256 .bf16) (mem : FVec F S8000x256 .f32) (lab : FVec F S400x1 .f32) (own : IVec S1x8000 32) (ones m0 l0 : FVec F S400x1 .f32) : FVec F S400x1 .f32 :=
  newSum (scores ![6400, 0] slices_S8000x256_o6400_0_S400x256 a mem) (mask ![0, 6400] slices_S1x8000_o0_6400_S1x400 lab own ones)
    (M16 a mem m0) (M17 a mem m0) (L16 a mem lab own ones m0 l0)
/-- The running maximum after tile 17 (memory rows 6800 to 7199). -/
def M18 (a : FVec F S400x256 .bf16) (mem : FVec F S8000x256 .f32) (m0 : FVec F S400x1 .f32) : FVec F S400x1 .f32 :=
  newMax (scores ![6800, 0] slices_S8000x256_o6800_0_S400x256 a mem) (M17 a mem m0)
/-- The running sum after tile 17. -/
def L18 (a : FVec F S400x256 .bf16) (mem : FVec F S8000x256 .f32) (lab : FVec F S400x1 .f32) (own : IVec S1x8000 32) (ones m0 l0 : FVec F S400x1 .f32) : FVec F S400x1 .f32 :=
  newSum (scores ![6800, 0] slices_S8000x256_o6800_0_S400x256 a mem) (mask ![0, 6800] slices_S1x8000_o0_6800_S1x400 lab own ones)
    (M17 a mem m0) (M18 a mem m0) (L17 a mem lab own ones m0 l0)
/-- The running maximum after tile 18 (memory rows 7200 to 7599). -/
def M19 (a : FVec F S400x256 .bf16) (mem : FVec F S8000x256 .f32) (m0 : FVec F S400x1 .f32) : FVec F S400x1 .f32 :=
  newMax (scores ![7200, 0] slices_S8000x256_o7200_0_S400x256 a mem) (M18 a mem m0)
/-- The running sum after tile 18. -/
def L19 (a : FVec F S400x256 .bf16) (mem : FVec F S8000x256 .f32) (lab : FVec F S400x1 .f32) (own : IVec S1x8000 32) (ones m0 l0 : FVec F S400x1 .f32) : FVec F S400x1 .f32 :=
  newSum (scores ![7200, 0] slices_S8000x256_o7200_0_S400x256 a mem) (mask ![0, 7200] slices_S1x8000_o0_7200_S1x400 lab own ones)
    (M18 a mem m0) (M19 a mem m0) (L18 a mem lab own ones m0 l0)
/-- The running maximum after tile 19 (memory rows 7600 to 7999). -/
def M20 (a : FVec F S400x256 .bf16) (mem : FVec F S8000x256 .f32) (m0 : FVec F S400x1 .f32) : FVec F S400x1 .f32 :=
  newMax (scores ![7600, 0] slices_S8000x256_o7600_0_S400x256 a mem) (M19 a mem m0)
/-- The running sum after tile 19. -/
def L20 (a : FVec F S400x256 .bf16) (mem : FVec F S8000x256 .f32) (lab : FVec F S400x1 .f32) (own : IVec S1x8000 32) (ones m0 l0 : FVec F S400x1 .f32) : FVec F S400x1 .f32 :=
  newSum (scores ![7600, 0] slices_S8000x256_o7600_0_S400x256 a mem) (mask ![0, 7600] slices_S1x8000_o0_7600_S1x400 lab own ones)
    (M19 a mem m0) (M20 a mem m0) (L19 a mem lab own ones m0 l0)

/-- The column of ones. -/
def onesCol : FVec F S400x1 .f32 := broadcast S400x1 (Scalar.ofBits .f32 0x3F800000#32)

/-! ## Region 0: the body's loads and its two stored values -/

/-- The anchor block as the body of region 0 reads it. -/
def anchorOf0 (x0 : Vec F S400x256 .f32) : FVec F S400x256 .bf16 := truncf .bf16 (View.ld x0 Gen.r0_0) bitsLt_bf16_f32
/-- The memory rows as the body reads them. -/
def memOf0 (x4 : Vec F S8000x256 .f32) : FVec F S8000x256 .f32 := shapeCast S8000x256 (View.ld x4 Gen.r0_3) shapeCasts_S8000x256_S8000x256
/-- The rows' memory labels as floats. -/
def labOf0 (x2 : Vec F S400x1 .i32) : FVec F S400x1 .f32 := sitofp .f32 (shapeCast S400x1 (View.ld x2 Gen.r0_1) shapeCasts_S400x1_S400x1)
/-- The columns' own labels. -/
def ownOf0 (x3 : Vec F S1x8000 .i32) : IVec S1x8000 32 := shapeCast S1x8000 (View.ld x3 Gen.r0_2) shapeCasts_S1x8000_S1x8000
/-- The positive logits as the body reads them. -/
def posOf0 (x1 : Vec F S400x1 .f32) : FVec F S400x1 .f32 := shapeCast S400x1 (View.ld x1 Gen.r0_1) shapeCasts_S400x1_S400x1

/-- The stored sum of region 0 is the twentieth running sum. -/
theorem out0_sum (x0 : Vec F S400x256 .f32) (x1 : Vec F S400x1 .f32) (x2 : Vec F S400x1 .i32) (x3 : Vec F S1x8000 .i32) (x4 : Vec F S8000x256 .f32) :
    Gen.out0_5 x0 x1 x2 x3 x4 = View.canon [⟨Gen.r0_1, L20 (anchorOf0 x0) (memOf0 x4) (labOf0 x2) (ownOf0 x3) onesCol (posOf0 x1) onesCol⟩] := rfl

/-- The stored maximum of region 0 is the twentieth running maximum. -/
theorem out0_max (x0 : Vec F S400x256 .f32) (x1 : Vec F S400x1 .f32) (x2 : Vec F S400x1 .i32) (x3 : Vec F S1x8000 .i32) (x4 : Vec F S8000x256 .f32) :
    Gen.out0_6 x0 x1 x2 x3 x4 = View.canon [⟨Gen.r0_1, M20 (anchorOf0 x0) (memOf0 x4) (posOf0 x1)⟩] := rfl

/-! ## Region 1: the body's loads and its two stored values -/

/-- The anchor block as the body of region 1 reads it. -/
def anchorOf1 (x0 : Vec F S400x256 .f32) : FVec F S400x256 .bf16 := truncf .bf16 (View.ld x0 Gen.r1_0) bitsLt_bf16_f32
/-- The memory rows as the body reads them. -/
def memOf1 (x4 : Vec F S8000x256 .f32) : FVec F S8000x256 .f32 := shapeCast S8000x256 (View.ld x4 Gen.r1_3) shapeCasts_S8000x256_S8000x256
/-- The rows' memory labels as floats. -/
def labOf1 (x2 : Vec F S400x1 .i32) : FVec F S400x1 .f32 := sitofp .f32 (shapeCast S400x1 (View.ld x2 Gen.r1_1) shapeCasts_S400x1_S400x1)
/-- The columns' own labels. -/
def ownOf1 (x3 : Vec F S1x8000 .i32) : IVec S1x8000 32 := shapeCast S1x8000 (View.ld x3 Gen.r1_2) shapeCasts_S1x8000_S1x8000
/-- The positive logits as the body reads them. -/
def posOf1 (x1 : Vec F S400x1 .f32) : FVec F S400x1 .f32 := shapeCast S400x1 (View.ld x1 Gen.r1_1) shapeCasts_S400x1_S400x1

/-- The stored sum of region 1 is the twentieth running sum. -/
theorem out1_sum (x0 : Vec F S400x256 .f32) (x1 : Vec F S400x1 .f32) (x2 : Vec F S400x1 .i32) (x3 : Vec F S1x8000 .i32) (x4 : Vec F S8000x256 .f32) :
    Gen.out1_5 x0 x1 x2 x3 x4 = View.canon [⟨Gen.r1_1, L20 (anchorOf1 x0) (memOf1 x4) (labOf1 x2) (ownOf1 x3) onesCol (posOf1 x1) onesCol⟩] := rfl

/-- The stored maximum of region 1 is the twentieth running maximum. -/
theorem out1_max (x0 : Vec F S400x256 .f32) (x1 : Vec F S400x1 .f32) (x2 : Vec F S400x1 .i32) (x3 : Vec F S1x8000 .i32) (x4 : Vec F S8000x256 .f32) :
    Gen.out1_6 x0 x1 x2 x3 x4 = View.canon [⟨Gen.r1_1, M20 (anchorOf1 x0) (memOf1 x4) (posOf1 x1)⟩] := rfl

end Cert.KernelIdeal.Body

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.KTile.lean ====
/-
  One tile of the body, read at a row.

  Row r of the anchor block against the tile whose first memory row is o 0: the score of column j is the dot product
  of anchor row r with memory row o 0 + j, times the named inverse temperature; the mask of column j compares the
  column's own label, carried through the one-column product with a column of ones, with the row's memory label;
  the new maximum of row r is the old one against the fold of max over the tile's scores; the new sum is the old sum
  times exp (old maximum - new maximum) plus the sum over the tile of exp (score - new maximum) times the mask.
-/
import proofs.«168614_j49684181680814_2_alg».proof.Proof.KBody
import proofs.«168614_j49684181680814_2_alg».proof.Proof.LibPlainDot
import proofs.«168614_j49684181680814_2_alg».proof.Proof.LibColumn
import proofs.«168614_j49684181680814_2_alg».proof.Proof.LibRowReduce
import Idealize.ShloMosaic.Lib.Pipeline.Value
import Idealize.ShloMosaic.Lib.ValueIdx

noncomputable section

namespace Cert.KernelIdeal.Tile

open Idealize.ShloMosaic Idealize.ShloMosaic.ValueIdx Cert.KernelIdeal Cert.KernelIdeal.Facts₀ Cert.KernelIdeal.Body

variable [Cert.KernelIdeal.Facts]

/-- The word 0xFF800000 is −∞. -/
theorem ofBits_neg_inf : Ideal.ofBits .f32 0xFF800000#32 = (⊥ : EReal) := by simp [Ideal.ofBits, Ideal.ieee]

/-- The score of row r against column j of a tile: the dot product with the memory row the tile's offset puts there,
    times the named inverse temperature. -/
theorem scores_apply (o : Fin 2 → ℕ) (hs : S8000x256.Slices o S400x256) (a : FVec Ideal S400x256 .bf16)
    (mem : FVec Ideal S8000x256 .f32) (r j : Fin 400) (J : Fin 8000) (hJ : J.val = o 0 + j.val) (ho1 : o 1 = 0) :
    scores o hs a mem (ix2 r j)
      = (∑ k : Fin 256, a (ix2 r k) * mem (ix2 J k)) * Named.named (F := Ideal) κ "inv_temp" (φ := .f32) 0x41200000#32 := by
  unfold scores
  rw [mulf_apply, broadcast_apply]
  congr 1
  refine (Cert.LibPlainDot.matmul_plain 400 256 400 none a _ (ix2 r j)).trans ?_
  refine Finset.sum_congr rfl fun k _ => ?_
  show a (ix2 r k) * _ = a (ix2 r k) * _
  congr 1
  rw [transpose_apply [1, 0] _ transposes_S400x256_p1_0_S256x400 (ix2 k j) (ix2 j k)
    (by intro b; match b with | ⟨0, _⟩ => rfl | ⟨1, _⟩ => rfl)]
  rw [truncf_apply]
  exact extractStridedSlice_apply o mem hs (ix2 j k) (ix2 J k) (by
    intro ax
    match ax with
    | ⟨0, _⟩ => exact hJ
    | ⟨1, _⟩ => show k.val = o 1 + k.val; omega)

/-- The mask of row r at column j of a tile: the comparison of the column's own label with the row's memory label,
    both as floats, widened to a word and converted. -/
theorem mask_apply (o : Fin 2 → ℕ) (hs : S1x8000.Slices o S1x400) (lab : FVec Ideal S400x1 .f32) (own : IVec S1x8000 32)
    (ones : FVec Ideal S400x1 .f32) (r j : Fin 400) (J : Fin 8000) (hJ : J.val = o 1 + j.val) (ho0 : o 0 = 0)
    (hone : ones (ix2 r (0 : Fin 1)) = 1) :
    mask o hs lab own ones (ix2 r j)
      = FloatOps.sitofp (F := Ideal) .f32
          ((FloatOps.cmpf (F := Ideal) .one (FloatOps.sitofp (F := Ideal) .f32 (own (ix2 (0 : Fin 1) J))) (lab (ix2 r (0 : Fin 1)))).setWidth 32) := by
  unfold mask
  rw [sitofp_apply, extui_apply, cmpf_apply]
  congr 3
  · refine (Cert.LibPlainDot.matmul_plain 400 1 400 none ones _ (ix2 r j)).trans ?_
    rw [Fin.sum_univ_one]
    show ones (ix2 r 0) * _ = _
    rw [hone, one_mul, sitofp_apply]
    congr 1
    exact extractStridedSlice_apply o own hs (ix2 (0 : Fin 1) j) (ix2 (0 : Fin 1) J) (by
      intro ax
      match ax with
      | ⟨0, _⟩ => show 0 = o 0 + 0; omega
      | ⟨1, _⟩ => exact hJ)
  · exact Cert.LibColumn.broadcastTo_a1_ab_apply lab broadcasts_S400x1_S400x400 r j

/-- The new maximum of row r. -/
theorem newMax_apply (sc : FVec Ideal S400x400 .f32) (m : FVec Ideal S400x1 .f32) (r : Fin 400) :
    newMax sc m (ix2 r (0 : Fin 1)) = max (m (ix2 r 0)) ((Finset.univ : Finset (Fin 400)).fold max ⊥ (fun k => sc (ix2 r k))) := by
  unfold newMax
  rw [maximumf_apply, Cert.LibColumn.shapeCast_a_a1_apply]
  refine congrArg (max (m (ix2 r 0))) ?_
  refine (Cert.LibRowReduce.rowMax_apply sc 0xFF800000#32 reduces_S400x400_S400 (.inl rfl) rfl r).trans ?_
  rw [Ideal.ofBits_def, ofBits_neg_inf]

/-- The new sum of row r. -/
theorem newSum_apply (sc mk : FVec Ideal S400x400 .f32) (m m' l : FVec Ideal S400x1 .f32) (r : Fin 400) :
    newSum sc mk m m' l (ix2 r (0 : Fin 1))
      = l (ix2 r 0) * Ideal.exp (m (ix2 r 0) - m' (ix2 r 0)) + ∑ k : Fin 400, Ideal.exp (sc (ix2 r k) - m' (ix2 r 0)) * mk (ix2 r k) := by
  unfold newSum
  rw [addf_apply, mulf_apply, Cert.LibColumn.shapeCast_a_a1_apply]
  refine congrArg (l (ix2 r 0) * Ideal.exp (m (ix2 r 0) - m' (ix2 r 0)) + ·) ?_
  refine (Cert.LibRowReduce.rowSum_apply _ 0x00000000#32 reduces_S400x400_S400 (.inl rfl) rfl r).trans ?_
  refine Finset.sum_congr rfl fun k _ => ?_
  rw [mulf_apply]
  congr 1
  show Ideal.exp (sc (ix2 r k) - broadcastTo S400x400 m' broadcasts_S400x1_S400x400 (ix2 r k)) = _
  rw [Cert.LibColumn.broadcastTo_a1_ab_apply m' broadcasts_S400x1_S400x400 r k]

end Cert.KernelIdeal.Tile

end
-- ==== Proof.LibOnlineDenominator.lean ====
/-
  The online form of a softmax denominator with multiplicative weights (over Mathlib and the library's ideal exponential only).

  A row has a real positive logit p, real scores s j and real weights w j for the columns j = 0, 1, 2, ….
  The columns are consumed k at a time; a running maximum m and a running sum l are carried along.
  Starting from m = p, l = 1, a tile holding the columns n, …, n + k - 1 replaces
      m  by  m' = max m (max over the tile's scores),
      l  by  l · exp (m - m') + ∑ over the tile of exp (score - m') · weight.
  The invariant after n columns: m is the maximum of p and the first n scores, and
      l = exp (p - m) + ∑ j < n, exp (s j - m) · w j.
  The step preserves it because exp (a - m) · exp (m - m') = exp (a - m'); after all the columns the pair (m, l)
  is the row maximum and the row sum (rowMax, rowSum below): the maximum over the positive logit and ALL the scores, and the
  weighted sum of the exponentials at that maximum, the positive logit's term with weight one.
-/
import Idealize.ShloMosaic.PureOps.Ideal

noncomputable section

namespace Cert.LibOnlineDenominator

open Idealize.ShloMosaic

/-- The row maximum: over the positive logit and every score. -/
def rowMax {M : ℕ} (p : EReal) (s : Fin M → EReal) : EReal := max p (Finset.univ.sup s)

/-- The row sum: the exponentials of the logits shifted by the row maximum, the scores' weighted. -/
def rowSum {M : ℕ} (p : EReal) (s w : Fin M → EReal) : EReal :=
  Ideal.exp (p - rowMax p s) + ∑ j : Fin M, Ideal.exp (s j - rowMax p s) * w j

/-- The inclusion of the reals in the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite maximum, started from ⊥, of values none of which is ⊤ is not ⊤. -/
theorem fold_max_ne_top {ι : Type*} (t : Finset ι) (S : ι → EReal) (hS : ∀ j, S j ≠ ⊤) :
    t.fold max ⊥ S ≠ ⊤ := by
  classical
  induction t using Finset.induction_on with
  | empty => simp
  | insert a t ha ih =>
    rw [Finset.fold_insert ha]
    rcases max_choice (S a) (t.fold max ⊥ S) with h | h
    · rw [h]; exact hS a
    · rw [h]; exact ih

/-- The exponential of a difference of two reals, computed on the extended reals. -/
theorem exp_coe_sub (a b : ℝ) : Ideal.exp ((a : EReal) - (b : EReal)) = ((Real.exp (a - b) : ℝ) : EReal) := by
  rw [← EReal.coe_sub, Ideal.exp_coe]

/-- Shifting by a new maximum: exp (a - M) · exp (M - M') = exp (a - M'). -/
theorem exp_shift (a M M' : ℝ) : Real.exp (a - M) * Real.exp (M - M') = Real.exp (a - M') := by
  rw [← Real.exp_add]; congr 1; ring

/-- The step on the reals: rescaling the running sum to the new maximum and adding the tile's terms gives the
    sum over all the columns seen so far. -/
theorem step_real (p M M' : ℝ) (s w : ℕ → ℝ) (n k : ℕ) :
    (Real.exp (p - M) + ∑ j ∈ Finset.range n, Real.exp (s j - M) * w j) * Real.exp (M - M')
        + ∑ j : Fin k, Real.exp (s (n + j.val) - M') * w (n + j.val)
      = Real.exp (p - M') + ∑ j ∈ Finset.range (n + k), Real.exp (s j - M') * w j := by
  rw [Finset.sum_range_add, add_mul, Finset.sum_mul, exp_shift,
    Fin.sum_univ_eq_sum_range (fun x => Real.exp (s (n + x) - M') * w (n + x)) k, add_assoc]
  congr 2
  refine Finset.sum_congr rfl fun j _ => ?_
  rw [mul_right_comm, exp_shift]

/-- The invariant after n columns: m is real and is the least upper bound of p and the first n scores, and l is the
    sum of the exponentials shifted by m, the scores' weighted. -/
structure Inv (p : ℝ) (s w : ℕ → ℝ) (n : ℕ) (m l : EReal) : Prop where
  m_real : ∃ M : ℝ, m = (M : EReal)
  m_le : ∀ u : EReal, m ≤ u ↔ (p : EReal) ≤ u ∧ ∀ j, j < n → ((s j : ℝ) : EReal) ≤ u
  l_eq : l = ((Real.exp (p - m.toReal) + ∑ j ∈ Finset.range n, Real.exp (s j - m.toReal) * w j : ℝ) : EReal)

/-- Before any column: the maximum is p and the sum is exp (p - p) = 1. -/
theorem Inv.init (p : ℝ) (s w : ℕ → ℝ) : Inv p s w 0 (p : EReal) 1 where
  m_real := ⟨p, rfl⟩
  m_le u := by simp
  l_eq := by simp

/-- One tile of k columns preserves the invariant. -/
theorem Inv.step {p : ℝ} {s w : ℕ → ℝ} {n : ℕ} {m l : EReal} (h : Inv p s w n m l) (k : ℕ) (S W : Fin k → EReal)
    (hS : ∀ j : Fin k, S j = ((s (n + j.val) : ℝ) : EReal)) (hW : ∀ j : Fin k, W j = ((w (n + j.val) : ℝ) : EReal)) :
    Inv p s w (n + k) (max m (Finset.univ.fold max ⊥ S))
      (l * Ideal.exp (m - max m (Finset.univ.fold max ⊥ S))
        + ∑ j : Fin k, Ideal.exp (S j - max m (Finset.univ.fold max ⊥ S)) * W j) := by
  obtain ⟨M, hM⟩ := h.m_real
  -- the new maximum is a real number: it is at least m, and it is m or one of the tile's scores
  have hne_top : max m (Finset.univ.fold max ⊥ S) ≠ ⊤ := by
    rcases max_choice m (Finset.univ.fold max ⊥ S) with e | e
    · rw [e, hM]; exact EReal.coe_ne_top M
    · rw [e]; exact fold_max_ne_top _ S fun j => by rw [hS j]; exact EReal.coe_ne_top _
  have hne_bot : max m (Finset.univ.fold max ⊥ S) ≠ ⊥ := by
    intro e
    have : m ≤ ⊥ := e ▸ le_max_left _ _
    rw [hM] at this
    exact EReal.coe_ne_bot M (le_bot_iff.mp this)
  obtain ⟨M', hM'⟩ : ∃ M' : ℝ, max m (Finset.univ.fold max ⊥ S) = (M' : EReal) :=
    ⟨_, (EReal.coe_toReal hne_top hne_bot).symm⟩
  refine ⟨⟨M', hM'⟩, fun u => ?_, ?_⟩
  · -- the least upper bound property: a column below n + k is below n or is n + j for a j of the tile
    rw [max_le_iff, Finset.fold_max_le, h.m_le u]
    constructor
    · rintro ⟨⟨hp, hs⟩, -, ht⟩
      refine ⟨hp, fun j hj => ?_⟩
      by_cases hjn : j < n
      · exact hs j hjn
      · have hjk : j - n < k := by omega
        have := ht ⟨j - n, hjk⟩ (Finset.mem_univ _)
        rw [hS] at this
        have e : n + (j - n) = j := by omega
        simpa [e] using this
    · rintro ⟨hp, hs⟩
      refine ⟨⟨hp, fun j hj => hs j (by omega)⟩, bot_le, fun x _ => ?_⟩
      rw [hS]
      exact hs _ (by have := x.isLt; omega)
  · -- the sum: every factor is the inclusion of a real number, and the reals obey the step law
    rw [hM', h.l_eq, hM, EReal.toReal_coe, exp_coe_sub, ← EReal.coe_mul]
    have hterm : ∀ j : Fin k, Ideal.exp (S j - (M' : EReal)) * W j
        = ((Real.exp (s (n + j.val) - M') * w (n + j.val) : ℝ) : EReal) := fun j => by
      rw [hS, hW, exp_coe_sub, ← EReal.coe_mul]
    rw [Finset.sum_congr rfl fun j _ => hterm j, ← coe_sum, ← EReal.coe_add, step_real, EReal.toReal_coe]

/-- After all N columns the pair is the specification's row maximum and row sum. -/
theorem Inv.final {p : ℝ} {s w : ℕ → ℝ} {N : ℕ} {m l : EReal} (h : Inv p s w N m l) :
    m = rowMax (p : EReal) (fun j : Fin N => ((s j.val : ℝ) : EReal))
      ∧ l = rowSum (p : EReal) (fun j : Fin N => ((s j.val : ℝ) : EReal))
          (fun j : Fin N => ((w j.val : ℝ) : EReal)) := by
  have hmax : m = rowMax (p : EReal) (fun j : Fin N => ((s j.val : ℝ) : EReal)) := by
    refine eq_of_forall_ge_iff fun u => ?_
    rw [h.m_le u, rowMax, max_le_iff, Finset.sup_le_iff]
    constructor
    · rintro ⟨hp, hs⟩
      exact ⟨hp, fun b _ => hs b.val b.isLt⟩
    · rintro ⟨hp, hs⟩
      exact ⟨hp, fun j hj => hs ⟨j, hj⟩ (Finset.mem_univ _)⟩
  refine ⟨hmax, ?_⟩
  obtain ⟨M, hM⟩ := h.m_real
  rw [rowSum, ← hmax, h.l_eq, hM, EReal.toReal_coe, exp_coe_sub]
  have hterm : ∀ j : Fin N, Ideal.exp (((s j.val : ℝ) : EReal) - (M : EReal)) * ((w j.val : ℝ) : EReal)
      = ((Real.exp (s j.val - M) * w j.val : ℝ) : EReal) := fun j => by
    rw [exp_coe_sub, ← EReal.coe_mul]
  rw [Finset.sum_congr rfl fun j _ => hterm j, ← coe_sum, ← EReal.coe_add,
    Fin.sum_univ_eq_sum_range (fun x => Real.exp (s x - M) * w x) N]

end Cert.LibOnlineDenominator

end
-- ==== Proof.Spec.lean ====
/-
  The row quantities both programs compute, on the extended reals.

  Row i of the anchor matrix is scored against every memory row j: the score is the dot product over the 256
  channels divided by the temperature. The row's positive logit p is scored first, with weight one; column j
  carries the weight 1 when the column's own label differs from the row's memory label and 0 otherwise.
  The row maximum is taken over the positive logit and ALL the scores (weighted or not); the row sum is the
  weighted sum of the exponentials of the shifted logits, the positive logit's term included.
-/
import Idealize.ShloMosaic.PureOps.Ideal
import Idealize.ShloMosaic.Lib.ValueIdx
import proofs.«168614_j49684181680814_2_alg».proof.Proof.LibOnlineDenominator

noncomputable section

namespace Cert.Spec

open Idealize.ShloMosaic Idealize.ShloMosaic.ValueIdx

/-- The positive logit of row i: the row's dot product, already summed in red, over the temperature word. -/
def pos {N : ℕ} (red : (⟨1, ![N]⟩ : Shape).Idx → EReal) (i : Fin N) : EReal :=
  Ideal.div (red (ix1 i)) (Ideal.ofBits .f32 0x3DCCCCCD#32)

/-- The score of anchor row i against memory row j: the dot product over the channels, over the temperature word. -/
def score {N M C : ℕ} (A : (⟨2, ![N, C]⟩ : Shape).Idx → EReal) (mem : (⟨2, ![M, C]⟩ : Shape).Idx → EReal)
    (i : Fin N) (j : Fin M) : EReal :=
  Ideal.div (∑ k : Fin C, A (ix2 i k) * mem (ix2 j k)) (Ideal.ofBits .f32 0x3DCCCCCD#32)

/-- The weight of column j in row i: zero when the column's own label equals the row's memory label, else one. -/
def weight {N M : ℕ} (own : (⟨1, ![M]⟩ : Shape).Idx → BitVec 32) (mlab : (⟨1, ![N]⟩ : Shape).Idx → BitVec 32)
    (i : Fin N) (j : Fin M) : EReal :=
  if own (ix1 j) = mlab (ix1 i) then 0 else 1

/- The row maximum (over the positive logit and every score) and the row sum (the exponentials of the logits shifted by
   the row maximum, the scores' weighted) are those of the online-denominator lemmas. -/
export Cert.LibOnlineDenominator (rowMax rowSum)

end Cert.Spec

end
-- ==== Proof.KRow.lean ====
/-
  A row of the body through its twenty tiles.

  For a row r of the anchor block whose entries, like the memory rows' and the row's positive logit, are real numbers,
  the running maximum and sum keep the online-softmax invariant tile after tile: after the tile that ends at column n
  the maximum is that of the positive logit and the first n scores, and the sum is the weighted sum of their
  exponentials at that maximum. After the twentieth tile they are the row maximum and the row sum of all 8000 columns.
-/
import proofs.«168614_j49684181680814_2_alg».proof.Proof.KTile
import proofs.«168614_j49684181680814_2_alg».proof.Proof.LibOnlineDenominator
import proofs.«168614_j49684181680814_2_alg».proof.Proof.Spec

noncomputable section

namespace Cert.KernelIdeal.Row

open Idealize.ShloMosaic Idealize.ShloMosaic.ValueIdx Cert.KernelIdeal Cert.KernelIdeal.Facts₀ Cert.KernelIdeal.Body
  Cert.KernelIdeal.Tile

variable [Cert.KernelIdeal.Facts]

/-- The named inverse temperature. -/
abbrev invT : EReal := Named.named (F := Ideal) κ "inv_temp" (φ := .f32) 0x41200000#32

/-- The score of row r against memory row J, as the body computes it. -/
def kscore (a : FVec Ideal S400x256 .bf16) (mem : FVec Ideal S8000x256 .f32) (r : Fin 400) (J : Fin 8000) : EReal :=
  (∑ k : Fin 256, a (ix2 r k) * mem (ix2 J k)) * invT

/-- The weight of column J in row r, as the body computes it. -/
def kweight (lab : FVec Ideal S400x1 .f32) (own : IVec S1x8000 32) (r : Fin 400) (J : Fin 8000) : EReal :=
  FloatOps.sitofp (F := Ideal) .f32
    ((FloatOps.cmpf (F := Ideal) .one (FloatOps.sitofp (F := Ideal) .f32 (own (ix2 (0 : Fin 1) J))) (lab (ix2 r (0 : Fin 1)))).setWidth 32)

/-- The scores and weights over all natural column numbers (zero past the last column). -/
def scN (a : FVec Ideal S400x256 .bf16) (mem : FVec Ideal S8000x256 .f32) (r : Fin 400) (J : ℕ) : EReal :=
  if h : J < 8000 then kscore a mem r ⟨J, h⟩ else 0
def wtN (lab : FVec Ideal S400x1 .f32) (own : IVec S1x8000 32) (r : Fin 400) (J : ℕ) : EReal :=
  if h : J < 8000 then kweight lab own r ⟨J, h⟩ else 0

/-- One tile keeps the invariant of the row. -/
theorem tile_step (c : ℕ) (o : Fin 2 → ℕ) (hs : S8000x256.Slices o S400x256) (o' : Fin 2 → ℕ) (hs' : S1x8000.Slices o' S1x400)
    (ho : o = ![400 * c, 0]) (ho' : o' = ![0, 400 * c])
    (a : FVec Ideal S400x256 .bf16) (mem : FVec Ideal S8000x256 .f32) (lab : FVec Ideal S400x1 .f32) (own : IVec S1x8000 32)
    (ones : FVec Ideal S400x1 .f32) (r : Fin 400) (hone : ones (ix2 r (0 : Fin 1)) = 1)
    (p : ℝ) (s w : ℕ → ℝ) (hsr : ∀ J, scN a mem r J = ((s J : ℝ) : EReal)) (hwr : ∀ J, wtN lab own r J = ((w J : ℝ) : EReal))
    (m l : FVec Ideal S400x1 .f32)
    (h : Cert.LibOnlineDenominator.Inv p s w (400 * c) (m (ix2 r 0)) (l (ix2 r 0))) :
    Cert.LibOnlineDenominator.Inv p s w (400 * (c + 1))
      (newMax (scores o hs a mem) m (ix2 r 0))
      (newSum (scores o hs a mem) (mask o' hs' lab own ones) m (newMax (scores o hs a mem) m) l (ix2 r 0)) := by
  have hslice : ∀ j : Fin 400, 400 * c + j.val < 8000 := by
    intro j
    have h0 : (![400 * c, 0] : Fin 2 → ℕ) 0 + S400x256.size 0 ≤ S8000x256.size 0 := by
      have := hs; subst ho; exact (this.2 0)
    have : 400 * c + 400 ≤ 8000 := h0
    have := j.isLt; omega
  rw [newSum_apply, newMax_apply, show 400 * (c + 1) = 400 * c + 400 from by ring]
  refine h.step 400 (fun j => scores o hs a mem (ix2 r j)) (fun j => mask o' hs' lab own ones (ix2 r j)) ?_ ?_
  · intro j
    rw [scores_apply o hs a mem r j ⟨400 * c + j.val, hslice j⟩ (by rw [ho]; rfl) (by rw [ho]; rfl), ← hsr]
    unfold scN
    rw [dif_pos (hslice j)]
    rfl
  · intro j
    rw [mask_apply o' hs' lab own ones r j ⟨400 * c + j.val, hslice j⟩ (by rw [ho']; rfl) (by rw [ho']; rfl) hone, ← hwr]
    unfold wtN
    rw [dif_pos (hslice j)]
    rfl

/-- After the twentieth tile the invariant holds of all 8000 columns. -/
theorem row_inv (a : FVec Ideal S400x256 .bf16) (mem : FVec Ideal S8000x256 .f32) (lab : FVec Ideal S400x1 .f32) (own : IVec S1x8000 32)
    (ones m0 l0 : FVec Ideal S400x1 .f32) (r : Fin 400) (hone : ones (ix2 r (0 : Fin 1)) = 1)
    (p : ℝ) (s w : ℕ → ℝ) (hsr : ∀ J, scN a mem r J = ((s J : ℝ) : EReal)) (hwr : ∀ J, wtN lab own r J = ((w J : ℝ) : EReal))
    (hm0 : m0 (ix2 r (0 : Fin 1)) = ((p : ℝ) : EReal)) (hl0 : l0 (ix2 r (0 : Fin 1)) = 1) :
    Cert.LibOnlineDenominator.Inv p s w 8000 (M20 a mem m0 (ix2 r 0)) (L20 a mem lab own ones m0 l0 (ix2 r 0)) := by
  have h0 : Cert.LibOnlineDenominator.Inv p s w (400 * 0) (M0 a mem m0 (ix2 r 0)) (L0 a mem lab own ones m0 l0 (ix2 r 0)) := by
    show Cert.LibOnlineDenominator.Inv p s w 0 (m0 (ix2 r 0)) (l0 (ix2 r 0))
    rw [hm0, hl0]
    exact Cert.LibOnlineDenominator.Inv.init p s w
  have h1 : Cert.LibOnlineDenominator.Inv p s w (400 * 1) (M1 a mem m0 (ix2 r 0)) (L1 a mem lab own ones m0 l0 (ix2 r 0)) :=
    tile_step 0 _ slices_S8000x256_o0_0_S400x256 _ slices_S1x8000_o0_0_S1x400 rfl rfl a mem lab own ones r hone p s w hsr hwr _ _ h0
  have h2 : Cert.LibOnlineDenominator.Inv p s w (400 * 2) (M2 a mem m0 (ix2 r 0)) (L2 a mem lab own ones m0 l0 (ix2 r 0)) :=
    tile_step 1 _ slices_S8000x256_o400_0_S400x256 _ slices_S1x8000_o0_400_S1x400 rfl rfl a mem lab own ones r hone p s w hsr hwr _ _ h1
  have h3 : Cert.LibOnlineDenominator.Inv p s w (400 * 3) (M3 a mem m0 (ix2 r 0)) (L3 a mem lab own ones m0 l0 (ix2 r 0)) :=
    tile_step 2 _ slices_S8000x256_o800_0_S400x256 _ slices_S1x8000_o0_800_S1x400 rfl rfl a mem lab own ones r hone p s w hsr hwr _ _ h2
  have h4 : Cert.LibOnlineDenominator.Inv p s w (400 * 4) (M4 a mem m0 (ix2 r 0)) (L4 a mem lab own ones m0 l0 (ix2 r 0)) :=
    tile_step 3 _ slices_S8000x256_o1200_0_S400x256 _ slices_S1x8000_o0_1200_S1x400 rfl rfl a mem lab own ones r hone p s w hsr hwr _ _ h3
  have h5 : Cert.LibOnlineDenominator.Inv p s w (400 * 5) (M5 a mem m0 (ix2 r 0)) (L5 a mem lab own ones m0 l0 (ix2 r 0)) :=
    tile_step 4 _ slices_S8000x256_o1600_0_S400x256 _ slices_S1x8000_o0_1600_S1x400 rfl rfl a mem lab own ones r hone p s w hsr hwr _ _ h4
  have h6 : Cert.LibOnlineDenominator.Inv p s w (400 * 6) (M6 a mem m0 (ix2 r 0)) (L6 a mem lab own ones m0 l0 (ix2 r 0)) :=
    tile_step 5 _ slices_S8000x256_o2000_0_S400x256 _ slices_S1x8000_o0_2000_S1x400 rfl rfl a mem lab own ones r hone p s w hsr hwr _ _ h5
  have h7 : Cert.LibOnlineDenominator.Inv p s w (400 * 7) (M7 a mem m0 (ix2 r 0)) (L7 a mem lab own ones m0 l0 (ix2 r 0)) :=
    tile_step 6 _ slices_S8000x256_o2400_0_S400x256 _ slices_S1x8000_o0_2400_S1x400 rfl rfl a mem lab own ones r hone p s w hsr hwr _ _ h6
  have h8 : Cert.LibOnlineDenominator.Inv p s w (400 * 8) (M8 a mem m0 (ix2 r 0)) (L8 a mem lab own ones m0 l0 (ix2 r 0)) :=
    tile_step 7 _ slices_S8000x256_o2800_0_S400x256 _ slices_S1x8000_o0_2800_S1x400 rfl rfl a mem lab own ones r hone p s w hsr hwr _ _ h7
  have h9 : Cert.LibOnlineDenominator.Inv p s w (400 * 9) (M9 a mem m0 (ix2 r 0)) (L9 a mem lab own ones m0 l0 (ix2 r 0)) :=
    tile_step 8 _ slices_S8000x256_o3200_0_S400x256 _ slices_S1x8000_o0_3200_S1x400 rfl rfl a mem lab own ones r hone p s w hsr hwr _ _ h8
  have h10 : Cert.LibOnlineDenominator.Inv p s w (400 * 10) (M10 a mem m0 (ix2 r 0)) (L10 a mem lab own ones m0 l0 (ix2 r 0)) :=
    tile_step 9 _ slices_S8000x256_o3600_0_S400x256 _ slices_S1x8000_o0_3600_S1x400 rfl rfl a mem lab own ones r hone p s w hsr hwr _ _ h9
  have h11 : Cert.LibOnlineDenominator.Inv p s w (400 * 11) (M11 a mem m0 (ix2 r 0)) (L11 a mem lab own ones m0 l0 (ix2 r 0)) :=
    tile_step 10 _ slices_S8000x256_o4000_0_S400x256 _ slices_S1x8000_o0_4000_S1x400 rfl rfl a mem lab own ones r hone p s w hsr hwr _ _ h10
  have h12 : Cert.LibOnlineDenominator.Inv p s w (400 * 12) (M12 a mem m0 (ix2 r 0)) (L12 a mem lab own ones m0 l0 (ix2 r 0)) :=
    tile_step 11 _ slices_S8000x256_o4400_0_S400x256 _ slices_S1x8000_o0_4400_S1x400 rfl rfl a mem lab own ones r hone p s w hsr hwr _ _ h11
  have h13 : Cert.LibOnlineDenominator.Inv p s w (400 * 13) (M13 a mem m0 (ix2 r 0)) (L13 a mem lab own ones m0 l0 (ix2 r 0)) :=
    tile_step 12 _ slices_S8000x256_o4800_0_S400x256 _ slices_S1x8000_o0_4800_S1x400 rfl rfl a mem lab own ones r hone p s w hsr hwr _ _ h12
  have h14 : Cert.LibOnlineDenominator.Inv p s w (400 * 14) (M14 a mem m0 (ix2 r 0)) (L14 a mem lab own ones m0 l0 (ix2 r 0)) :=
    tile_step 13 _ slices_S8000x256_o5200_0_S400x256 _ slices_S1x8000_o0_5200_S1x400 rfl rfl a mem lab own ones r hone p s w hsr hwr _ _ h13
  have h15 : Cert.LibOnlineDenominator.Inv p s w (400 * 15) (M15 a mem m0 (ix2 r 0)) (L15 a mem lab own ones m0 l0 (ix2 r 0)) :=
    tile_step 14 _ slices_S8000x256_o5600_0_S400x256 _ slices_S1x8000_o0_5600_S1x400 rfl rfl a mem lab own ones r hone p s w hsr hwr _ _ h14
  have h16 : Cert.LibOnlineDenominator.Inv p s w (400 * 16) (M16 a mem m0 (ix2 r 0)) (L16 a mem lab own ones m0 l0 (ix2 r 0)) :=
    tile_step 15 _ slices_S8000x256_o6000_0_S400x256 _ slices_S1x8000_o0_6000_S1x400 rfl rfl a mem lab own ones r hone p s w hsr hwr _ _ h15
  have h17 : Cert.LibOnlineDenominator.Inv p s w (400 * 17) (M17 a mem m0 (ix2 r 0)) (L17 a mem lab own ones m0 l0 (ix2 r 0)) :=
    tile_step 16 _ slices_S8000x256_o6400_0_S400x256 _ slices_S1x8000_o0_6400_S1x400 rfl rfl a mem lab own ones r hone p s w hsr hwr _ _ h16
  have h18 : Cert.LibOnlineDenominator.Inv p s w (400 * 18) (M18 a mem m0 (ix2 r 0)) (L18 a mem lab own ones m0 l0 (ix2 r 0)) :=
    tile_step 17 _ slices_S8000x256_o6800_0_S400x256 _ slices_S1x8000_o0_6800_S1x400 rfl rfl a mem lab own ones r hone p s w hsr hwr _ _ h17
  have h19 : Cert.LibOnlineDenominator.Inv p s w (400 * 19) (M19 a mem m0 (ix2 r 0)) (L19 a mem lab own ones m0 l0 (ix2 r 0)) :=
    tile_step 18 _ slices_S8000x256_o7200_0_S400x256 _ slices_S1x8000_o0_7200_S1x400 rfl rfl a mem lab own ones r hone p s w hsr hwr _ _ h18
  have h20 : Cert.LibOnlineDenominator.Inv p s w (400 * 20) (M20 a mem m0 (ix2 r 0)) (L20 a mem lab own ones m0 l0 (ix2 r 0)) :=
    tile_step 19 _ slices_S8000x256_o7600_0_S400x256 _ slices_S1x8000_o0_7600_S1x400 rfl rfl a mem lab own ones r hone p s w hsr hwr _ _ h19
  exact h20

end Cert.KernelIdeal.Row

end
-- ==== Proof.KRowValues.lean ====
/-
  The row values of the body in closed form.

  With real anchor entries, real memory entries and a real positive logit, every score is a real number (a finite sum
  of products of reals, times the real inverse temperature) and every weight is 0 or 1: the column's own label and the
  row's memory label, read as signed integers and compared as real numbers, differ exactly when the two words differ.
  So the invariant of the twenty tiles applies, and the body's stored maximum and sum of a row are the row maximum and
  the row sum of the specification. The named inverse temperature is the reciprocal of the temperature word's value,
  so multiplying by it is dividing by the temperature.
-/
import proofs.«168614_j49684181680814_2_alg».proof.Proof.KRow
import Idealize.ShloMosaic.PureOps.IdealRules

noncomputable section

namespace Cert.KernelIdeal.Row

open Idealize.ShloMosaic Idealize.ShloMosaic.ValueIdx Cert.KernelIdeal Cert.KernelIdeal.Facts₀ Cert.KernelIdeal.Body
  Cert.KernelIdeal.Tile

variable [Cert.KernelIdeal.Facts]

/-- The named inverse temperature is the rational the table gives it. -/
theorem invT_eq : invT = ((134217728 / 13421773 : ℝ) : EReal) :=
  IdealRules.named_const.ideal_named_scalar _ _ _ _ rfl

/-- The temperature word 0x3DCCCCCD is the dyadic 13421773 / 2^27. -/
theorem ofBits_temp : Ideal.ofBits .f32 0x3DCCCCCD#32 = ((13421773 / 134217728 : ℝ) : EReal) := by
  simp [Ideal.ofBits, Ideal.ieee, -EReal.coe_mul]; norm_num

/-- Dividing by the temperature is multiplying by the named inverse temperature, on every extended real. -/
theorem div_temp (x : EReal) : Ideal.div x (Ideal.ofBits .f32 0x3DCCCCCD#32) = x * invT := by
  rw [ofBits_temp, invT_eq, Ideal.div_coe (by norm_num : (13421773 / 134217728 : ℝ) ≠ 0)]
  congr 2; norm_num

/-- Two label words compared as the real numbers they denote: the comparison bit, widened and converted, is 0 when the
    words are equal and 1 when they differ. -/
theorem weight_word (x y : BitVec 32) :
    FloatOps.sitofp (F := Ideal) .f32
      ((FloatOps.cmpf (F := Ideal) .one (FloatOps.sitofp (F := Ideal) .f32 x) (FloatOps.sitofp (F := Ideal) .f32 y)).setWidth 32)
      = if x = y then 0 else 1 := by
  show ((((Ideal.cmp .one (((x.toInt : ℝ)) : EReal) ((y.toInt : ℝ) : EReal)).setWidth 32).toInt : ℝ) : EReal) = _
  by_cases h : x = y
  · subst h
    rw [if_pos rfl]
    have : Ideal.cmp .one (((x.toInt : ℝ)) : EReal) ((x.toInt : ℝ) : EReal) = 0#1 := by
      unfold Ideal.cmp; simp
    rw [this]; simp
  · rw [if_neg h]
    have hne : (((x.toInt : ℝ)) : EReal) ≠ ((y.toInt : ℝ) : EReal) := by
      intro e
      have e1 : (x.toInt : ℝ) = (y.toInt : ℝ) := EReal.coe_eq_coe_iff.mp e
      exact h (BitVec.eq_of_toInt_eq (by exact_mod_cast e1))
    have : Ideal.cmp .one (((x.toInt : ℝ)) : EReal) ((y.toInt : ℝ) : EReal) = 1#1 := by
      unfold Ideal.cmp; simp [hne]
    rw [this]; simp

/-- The stored maximum and sum of row r are the specification's row maximum and row sum. -/
theorem row_values (a : FVec Ideal S400x256 .bf16) (mem : FVec Ideal S8000x256 .f32) (lab : FVec Ideal S400x1 .f32)
    (own : IVec S1x8000 32) (ones m0 l0 : FVec Ideal S400x1 .f32) (r : Fin 400)
    (hone : ones (ix2 r (0 : Fin 1)) = 1) (hl0 : l0 (ix2 r (0 : Fin 1)) = 1)
    (hm0 : ∃ p : ℝ, m0 (ix2 r (0 : Fin 1)) = (p : EReal))
    (hA : ∀ k : Fin 256, ∃ x : ℝ, a (ix2 r k) = (x : EReal))
    (hM : ∀ (J : Fin 8000) (k : Fin 256), ∃ x : ℝ, mem (ix2 J k) = (x : EReal))
    (y : BitVec 32) (hlab : lab (ix2 r (0 : Fin 1)) = FloatOps.sitofp (F := Ideal) .f32 y) :
    M20 a mem m0 (ix2 r 0) = Cert.Spec.rowMax (m0 (ix2 r 0)) (fun J : Fin 8000 => kscore a mem r J)
    ∧ L20 a mem lab own ones m0 l0 (ix2 r 0)
        = Cert.Spec.rowSum (m0 (ix2 r 0)) (fun J : Fin 8000 => kscore a mem r J)
            (fun J : Fin 8000 => if own (ix2 (0 : Fin 1) J) = y then 0 else 1) := by
  obtain ⟨p, hp⟩ := hm0
  -- every score is a real number
  have hsc : ∀ J : Fin 8000, ∃ x : ℝ, kscore a mem r J = (x : EReal) := by
    intro J
    have hsum : ∃ x : ℝ, (∑ k : Fin 256, a (ix2 r k) * mem (ix2 J k)) = (x : EReal) := by
      classical
      have : ∀ T : Finset (Fin 256), ∃ x : ℝ, (∑ k ∈ T, a (ix2 r k) * mem (ix2 J k)) = (x : EReal) := by
        intro T
        induction T using Finset.induction_on with
        | empty => exact ⟨0, by simp⟩
        | insert k T hk ih =>
          obtain ⟨x, hx⟩ := ih
          obtain ⟨u, hu⟩ := hA k
          obtain ⟨v, hv⟩ := hM J k
          exact ⟨u * v + x, by rw [Finset.sum_insert hk, hx, hu, hv, ← EReal.coe_mul, ← EReal.coe_add]⟩
      exact this Finset.univ
    obtain ⟨x, hx⟩ := hsum
    exact ⟨x * (134217728 / 13421773), by unfold kscore; rw [hx, invT_eq, ← EReal.coe_mul]⟩
  -- every weight is 0 or 1
  have hwt : ∀ J : Fin 8000, kweight lab own r J = if own (ix2 (0 : Fin 1) J) = y then 0 else 1 := by
    intro J
    unfold kweight
    rw [hlab]
    exact weight_word _ _
  have hsN : ∀ J : ℕ, ∃ x : ℝ, scN a mem r J = (x : EReal) := by
    intro J
    unfold scN
    split
    · exact hsc _
    · exact ⟨0, by simp⟩
  have hwN : ∀ J : ℕ, ∃ x : ℝ, wtN lab own r J = (x : EReal) := by
    intro J
    unfold wtN
    split
    · rw [hwt]; split
      · exact ⟨0, by simp⟩
      · exact ⟨1, by simp⟩
    · exact ⟨0, by simp⟩
  choose s hs using hsN
  choose w hw using hwN
  have inv := row_inv a mem lab own ones m0 l0 r hone p s w hs hw hp hl0
  obtain ⟨e1, e2⟩ := inv.final
  have hsJ : ∀ J : Fin 8000, ((s J.val : ℝ) : EReal) = kscore a mem r J := by
    intro J
    rw [← hs J.val]
    unfold scN
    rw [dif_pos J.isLt]
  have hwJ : ∀ J : Fin 8000, ((w J.val : ℝ) : EReal) = if own (ix2 (0 : Fin 1) J) = y then 0 else 1 := by
    intro J
    rw [← hw J.val]
    unfold wtN
    rw [dif_pos J.isLt]
    exact hwt _
  rw [hp]
  refine ⟨?_, ?_⟩
  · rw [e1]; congr 1; funext J; exact hsJ J
  · rw [e2]
    have f1 : (fun j : Fin 8000 => ((s j.val : ℝ) : EReal)) = fun J : Fin 8000 => kscore a mem r J := funext hsJ
    have f2 : (fun j : Fin 8000 => ((w j.val : ℝ) : EReal)) = fun J : Fin 8000 => if own (ix2 (0 : Fin 1) J) = y then 0 else 1 :=
      funext hwJ
    rw [f1, f2]

end Cert.KernelIdeal.Row

end
-- ==== Proof.KRegion0.lean ====
/-
  Region 0: the two arrays the pipelined kernel leaves, as whole-array functions of the arrays it reads.

  The grid has twenty points; point t holds anchor rows 400 t to 400 t + 399, their positive logits and memory labels,
  and the whole row of own labels and the whole memory bank. What point t writes back to each output is, row by row,
  the row sum (window 5) and the row maximum (window 6) of the specification, provided the anchor entries, the memory
  entries and the positive logits are real numbers. The twenty blocks tile each [8000, 1] output, so each output array
  ends at the specification's column of row sums, resp. row maxima.
-/
import proofs.«168614_j49684181680814_2_alg».proof.Proof.KRowValues
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.KernelIdeal.Row

variable (V : (c : Dev nD) → (b : Ref sig .tc) → Buf (Elt Ideal) ((c : Thread nD τ).loc b))

theorem hz : (![0, 0] : Fin 2 → Nat) = fun _ => 0 := funext fun a => by fin_cases a <;> rfl

/-- The word 0x3F800000 is the number one. -/
theorem ofBits_one : Ideal.ofBits .f32 0x3F800000#32 = 1 := by
  simp [Ideal.ofBits, Ideal.ieee, -EReal.coe_mul]; norm_num

/-- The column of row sums of the specification, from the arrays the region reads. -/
def GSum (A : S8000x256.Idx → EReal) (P : S8000x1.Idx → EReal) (ML : S8000x1.Idx → BitVec 32) (OW : S1x8000.Idx → BitVec 32)
    (MEM : S8000x256.Idx → EReal) : S8000x1.Idx → EReal := fun i =>
  Cert.Spec.rowSum (P (ix2 (i 0) (0 : Fin 1))) (fun J : Fin 8000 => Cert.Spec.score A MEM (i 0) J)
    (fun J : Fin 8000 => if OW (ix2 (0 : Fin 1) J) = ML (ix2 (i 0) (0 : Fin 1)) then 0 else 1)

/-- The column of row maxima of the specification. -/
def GMax (A : S8000x256.Idx → EReal) (P : S8000x1.Idx → EReal) (MEM : S8000x256.Idx → EReal) : S8000x1.Idx → EReal := fun i =>
  Cert.Spec.rowMax (P (ix2 (i 0) (0 : Fin 1))) (fun J : Fin 8000 => Cert.Spec.score A MEM (i 0) J)

/-- The printed index maps over the grid: the row-tiled windows are at block t, the two resident ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row r of point t is row 400 t + r of the arrays. -/
def grow (t : Fin cfg0.N) (r : Fin 400) : Fin 8000 :=
  ⟨400 * t.val + r.val, by have ht : t.val < 20 := t.isLt; have := r.isLt; omega⟩

/-! ## The blocks of the windows at a point, entry by entry -/

theorem blk0 (c : Dev nD) (t : Fin cfg0.N) (r : Fin 400) (q : Fin 256) :
    iblk0 V c 0 t (ix2 r q) = V c main_arg0 (ix2 (grow t r) q) := by
  show V c main_arg0 (((cfg0.win 0).blk t).view.emb (ix2 r q)) = V c main_arg0 (ix2 (grow t r) q)
  obtain ⟨e0, e1, -⟩ := idx_facts t
  refine congrArg (V c main_arg0) (funext fun a => Fin.ext ?_)
  match a with
  | ⟨0, _⟩ => show win0_0.index t (0 : Fin 2) * 400 + 1 * r.val = 400 * t.val + r.val; omega
  | ⟨1, _⟩ => show win0_0.index t (1 : Fin 2) * 256 + 1 * q.val = q.val; omega

theorem blk1 (c : Dev nD) (t : Fin cfg0.N) (r : Fin 400) :
    iblk0 V c 1 t (ix2 r (0 : Fin 1)) = V c main_v38 (ix2 (grow t r) (0 : Fin 1)) := by
  show V c main_v38 (((cfg0.win 1).blk t).view.emb (ix2 r (0 : Fin 1))) = V c main_v38 (ix2 (grow t r) (0 : Fin 1))
  obtain ⟨-, -, e0, e1, -⟩ := idx_facts t
  refine congrArg (V c main_v38) (funext fun a => Fin.ext ?_)
  match a with
  | ⟨0, _⟩ => show win0_1.index t (0 : Fin 2) * 400 + 1 * r.val = 400 * t.val + r.val; omega
  | ⟨1, _⟩ => show win0_1.index t (1 : Fin 2) * 1 + 1 * 0 = 0; omega

theorem blk2 (c : Dev nD) (t : Fin cfg0.N) (r : Fin 400) :
    iblk0 V c 2 t (ix2 r (0 : Fin 1)) = V c main_v39 (ix2 (grow t r) (0 : Fin 1)) := by
  show V c main_v39 (((cfg0.win 2).blk t).view.emb (ix2 r (0 : Fin 1))) = V c main_v39 (ix2 (grow t r) (0 : Fin 1))
  obtain ⟨-, -, -, -, e0, e1, -⟩ := idx_facts t
  refine congrArg (V c main_v39) (funext fun a => Fin.ext ?_)
  match a with
  | ⟨0, _⟩ => show win0_2.index t (0 : Fin 2) * 400 + 1 * r.val = 400 * t.val + r.val; omega
  | ⟨1, _⟩ => show win0_2.index t (1 : Fin 2) * 1 + 1 * 0 = 0; omega

theorem blk3 (c : Dev nD) (t : Fin cfg0.N) (J : Fin 8000) :
    iblk0 V c 3 t (ix2 (0 : Fin 1) J) = V c main_v40 (ix2 (0 : Fin 1) J) := by
  show V c main_v40 (((cfg0.win 3).blk t).view.emb (ix2 (0 : Fin 1) J)) = V c main_v40 (ix2 (0 : Fin 1) J)
  obtain ⟨-, -, -, -, -, -, e0, e1, -⟩ := idx_facts t
  refine congrArg (V c main_v40) (funext fun a => Fin.ext ?_)
  match a with
  | ⟨0, _⟩ => show win0_3.index t (0 : Fin 2) * 1 + 1 * 0 = 0; omega
  | ⟨1, _⟩ => show win0_3.index t (1 : Fin 2) * 8000 + 1 * J.val = J.val; omega

theorem blk4 (c : Dev nD) (t : Fin cfg0.N) (J : Fin 8000) (q : Fin 256) :
    iblk0 V c 4 t (ix2 J q) = V c main_v22 (ix2 J q) := by
  show V c main_v22 (((cfg0.win 4).blk t).view.emb (ix2 J q)) = V c main_v22 (ix2 J q)
  obtain ⟨-, -, -, -, -, -, -, -, e0, e1, -⟩ := idx_facts t
  refine congrArg (V c main_v22) (funext fun a => Fin.ext ?_)
  match a with
  | ⟨0, _⟩ => show win0_4.index t (0 : Fin 2) * 8000 + 1 * J.val = J.val; omega
  | ⟨1, _⟩ => show win0_4.index t (1 : Fin 2) * 256 + 1 * q.val = q.val; omega

/-! ## The body's loads are the blocks -/

theorem anchorOf_apply (x0 : Vec Ideal S400x256 .f32) (i : S400x256.Idx) : anchorOf0 (F := Ideal) x0 i = x0 i := by
  unfold anchorOf0; rw [truncf_apply, View.ld_unit_zero (S := S400x256) hz]
theorem memOf_apply (x4 : Vec Ideal S8000x256 .f32) (i : S8000x256.Idx) : memOf0 (F := Ideal) x4 i = x4 i := by
  unfold memOf0; rw [View.ld_unit_zero (S := S8000x256) hz]; exact congrFun (shapeCast_self x4 _) i
theorem posOf_apply (x1 : Vec Ideal S400x1 .f32) (i : S400x1.Idx) : posOf0 (F := Ideal) x1 i = x1 i := by
  unfold posOf0; rw [View.ld_unit_zero (S := S400x1) hz]; exact congrFun (shapeCast_self x1 _) i
theorem ownOf_apply (x3 : Vec Ideal S1x8000 .i32) (i : S1x8000.Idx) : ownOf0 (F := Ideal) x3 i = x3 i := by
  unfold ownOf0; rw [View.ld_unit_zero (S := S1x8000) hz]; exact congrFun (shapeCast_self x3 _) i
theorem labOf_apply (x2 : Vec Ideal S400x1 .i32) (i : S400x1.Idx) :
    labOf0 (F := Ideal) x2 i = FloatOps.sitofp (F := Ideal) .f32 (x2 i) := by
  unfold labOf0; rw [sitofp_apply, View.ld_unit_zero (S := S400x1) hz]; exact congrArg (FloatOps.sitofp (F := Ideal) .f32) (congrFun (shapeCast_self x2 _) i)
theorem onesCol_apply (i : S400x1.Idx) : onesCol (F := Ideal) i = 1 := by
  show Ideal.ofBits .f32 0x3F800000#32 = 1
  exact ofBits_one

/-! ## What a point writes back, row by row -/

/-- The stored sum and maximum of row r of point t, in the specification's terms. -/
theorem point_row (c : Dev nD) (t : Fin cfg0.N) (r : Fin 400)
    (hA : ∀ i, ∃ x : ℝ, V c main_arg0 i = (x : EReal)) (hP : ∀ i, ∃ x : ℝ, V c main_v38 i = (x : EReal))
    (hM : ∀ i, ∃ x : ℝ, V c main_v22 i = (x : EReal)) :
    M20 (anchorOf0 (iblk0 V c 0 t)) (memOf0 (iblk0 V c 4 t)) (posOf0 (iblk0 V c 1 t)) (ix2 r (0 : Fin 1))
        = GMax (V c main_arg0) (V c main_v38) (V c main_v22) (ix2 (grow t r) (0 : Fin 1))
    ∧ L20 (anchorOf0 (iblk0 V c 0 t)) (memOf0 (iblk0 V c 4 t)) (labOf0 (iblk0 V c 2 t)) (ownOf0 (iblk0 V c 3 t))
          onesCol (posOf0 (iblk0 V c 1 t)) onesCol (ix2 r (0 : Fin 1))
        = GSum (V c main_arg0) (V c main_v38) (V c main_v39) (V c main_v40) (V c main_v22) (ix2 (grow t r) (0 : Fin 1)) := by
  have e1 : posOf0 (iblk0 V c 1 t) (ix2 r (0 : Fin 1)) = V c main_v38 (ix2 (grow t r) (0 : Fin 1)) :=
    (posOf_apply (iblk0 V c 1 t) (ix2 r (0 : Fin 1))).trans (blk1 V c t r)
  have e2 : (fun J : Fin 8000 => kscore (anchorOf0 (iblk0 V c 0 t)) (memOf0 (iblk0 V c 4 t)) r J)
      = fun J : Fin 8000 => Cert.Spec.score (V c main_arg0) (V c main_v22) (grow t r) J := by
    funext J
    unfold kscore Cert.Spec.score
    rw [div_temp]
    refine congrArg (· * invT) (Finset.sum_congr rfl fun q _ => ?_)
    rw [anchorOf_apply, memOf_apply, blk0 V c t r q, blk4 V c t J q]
  have e3 : (fun J : Fin 8000 => if ownOf0 (iblk0 V c 3 t) (ix2 (0 : Fin 1) J) = V c main_v39 (ix2 (grow t r) (0 : Fin 1)) then (0 : EReal) else 1)
      = fun J : Fin 8000 => if V c main_v40 (ix2 (0 : Fin 1) J) = V c main_v39 (ix2 (grow t r) (0 : Fin 1)) then (0 : EReal) else 1 := by
    funext J
    rw [ownOf_apply, blk3 V c t J]
  have key := row_values (anchorOf0 (iblk0 V c 0 t)) (memOf0 (iblk0 V c 4 t)) (labOf0 (iblk0 V c 2 t))
    (ownOf0 (iblk0 V c 3 t)) onesCol (posOf0 (iblk0 V c 1 t)) onesCol r (onesCol_apply _) (onesCol_apply _)
    (by rw [e1]; exact hP _)
    (fun q => by rw [anchorOf_apply, blk0 V c t r q]; exact hA _)
    (fun J q => by rw [memOf_apply, blk4 V c t J q]; exact hM _)
    (V c main_v39 (ix2 (grow t r) (0 : Fin 1)))
    (by rw [labOf_apply, blk2 V c t r])
  refine ⟨?_, ?_⟩
  · rw [key.1, e1, e2]; rfl
  · rw [key.2, e1, e2, e3]; rfl

/-! ## The output blocks and the cover -/

theorem emb5 (t : Fin cfg0.N) (r : Fin 400) : ((cfg0.win 5).blk t).view.emb (ix2 r (0 : Fin 1)) = ix2 (grow t r) (0 : Fin 1) := by
  obtain ⟨-, -, -, -, -, -, -, -, -, -, e0, e1, -⟩ := idx_facts t
  funext a; apply Fin.ext
  match a with
  | ⟨0, _⟩ => show win0_5.index t (0 : Fin 2) * 400 + 1 * r.val = 400 * t.val + r.val; omega
  | ⟨1, _⟩ => show win0_5.index t (1 : Fin 2) * 1 + 1 * 0 = 0; omega

theorem emb6 (t : Fin cfg0.N) (r : Fin 400) : ((cfg0.win 6).blk t).view.emb (ix2 r (0 : Fin 1)) = ix2 (grow t r) (0 : Fin 1) := by
  obtain ⟨-, -, -, -, -, -, -, -, -, -, -, -, e0, e1⟩ := idx_facts t
  funext a; apply Fin.ext
  match a with
  | ⟨0, _⟩ => show win0_6.index t (0 : Fin 2) * 400 + 1 * r.val = 400 * t.val + r.val; omega
  | ⟨1, _⟩ => show win0_6.index t (1 : Fin 2) * 1 + 1 * 0 = 0; omega

/-- What point t writes back to the sum output is block t of the column of row sums. -/
theorem flushed5_eq (c : Dev nD) (t : Fin cfg0.N)
    (hA : ∀ i, ∃ x : ℝ, V c main_arg0 i = (x : EReal)) (hP : ∀ i, ∃ x : ℝ, V c main_v38 i = (x : EReal))
    (hM : ∀ i, ∃ x : ℝ, V c main_v22 i = (x : EReal)) :
    (dat0 V c).flushed 5 t
      = ((cfg0.win 5).blk t).view.read (Elt Ideal) (GSum (V c main_arg0) (V c main_v38) (V c main_v39) (V c main_v40) (V c main_v22)) := by
  show (cfg0.win 5).cut (grid0.coords t) ((dat0 V c).after 5 t) = _
  rw [after0_5, out0_sum, View.canon_unit_zero hz]
  funext j
  obtain ⟨r, u, rfl⟩ : ∃ (r : Fin 400) (u : Fin 1), j = ix2 r u := ⟨j 0, j 1, eq_ix2 j⟩
  obtain rfl : u = 0 := Subsingleton.elim _ _
  show L20 (F := Ideal) _ _ _ _ _ _ _ (ix2 r (0 : Fin 1)) = GSum _ _ _ _ _ (((cfg0.win 5).blk t).view.emb (ix2 r (0 : Fin 1)))
  rw [emb5 t r]
  exact (point_row V c t r hA hP hM).2

/-- What point t writes back to the maximum output is block t of the column of row maxima. -/
theorem flushed6_eq (c : Dev nD) (t : Fin cfg0.N)
    (hA : ∀ i, ∃ x : ℝ, V c main_arg0 i = (x : EReal)) (hP : ∀ i, ∃ x : ℝ, V c main_v38 i = (x : EReal))
    (hM : ∀ i, ∃ x : ℝ, V c main_v22 i = (x : EReal)) :
    (dat0 V c).flushed 6 t
      = ((cfg0.win 6).blk t).view.read (Elt Ideal) (GMax (V c main_arg0) (V c main_v38) (V c main_v22)) := by
  show (cfg0.win 6).cut (grid0.coords t) ((dat0 V c).after 6 t) = _
  rw [after0_6, out0_max, View.canon_unit_zero hz]
  funext j
  obtain ⟨r, u, rfl⟩ : ∃ (r : Fin 400) (u : Fin 1), j = ix2 r u := ⟨j 0, j 1, eq_ix2 j⟩
  obtain rfl : u = 0 := Subsingleton.elim _ _
  show M20 (F := Ideal) _ _ _ (ix2 r (0 : Fin 1)) = GMax _ _ _ (((cfg0.win 6).blk t).view.emb (ix2 r (0 : Fin 1)))
  rw [emb6 t r]
  exact (point_row V c t r hA hP hM).1

theorem mem_blk5 (t : Fin cfg0.N) (i : S8000x1.Idx) :
    i ∈ ((cfg0.win 5).blk t).view.set ↔ ∀ a : Fin 2, win0_5.index t a * S400x1.size a ≤ (i a).val ∧ (i a).val < win0_5.index t a * S400x1.size a + S400x1.size a := by
  show i ∈ ((View.whole main_v41_0).slice (win0_5.rect t)).set ↔ _
  rw [View.set_slice_whole, Rect.mem_set_unit]
  exact Iff.rfl

theorem mem_blk6 (t : Fin cfg0.N) (i : S8000x1.Idx) :
    i ∈ ((cfg0.win 6).blk t).view.set ↔ ∀ a : Fin 2, win0_6.index t a * S400x1.size a ≤ (i a).val ∧ (i a).val < win0_6.index t a * S400x1.size a + S400x1.size a := by
  show i ∈ ((View.whole main_v41_1).slice (win0_6.rect t)).set ↔ _
  rw [View.set_slice_whole, Rect.mem_set_unit]
  exact Iff.rfl

/-- Every row of the sum output is in the block of the point that holds it: row i is in block i / 400. -/
theorem cover5 (i : S8000x1.Idx) : ∃ t : Fin cfg0.N, (cfg0.win 5).flush t = true ∧ i ∈ ((cfg0.win 5).blk t).view.set := by
  have hi0 : (i 0).val < 8000 := (i 0).isLt
  have hi1 : (i 1).val < 1 := (i 1).isLt
  have ht : (i 0).val / 400 < cfg0.N := by show (i 0).val / 400 < 20; omega
  refine ⟨⟨(i 0).val / 400, ht⟩, flush0_5 _, ?_⟩
  rw [mem_blk5]
  obtain ⟨-, -, -, -, -, -, -, -, -, -, e0, e1, -⟩ := idx_facts ⟨(i 0).val / 400, ht⟩
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, ht⟩ (1 : Fin 2) * 1 ≤ (i 1).val ∧ (i 1).val < win0_5.index ⟨(i 0).val / 400, ht⟩ (1 : Fin 2) * 1 + 1
    rw [e1]; omega

theorem cover6 (i : S8000x1.Idx) : ∃ t : Fin cfg0.N, (cfg0.win 6).flush t = true ∧ i ∈ ((cfg0.win 6).blk t).view.set := by
  have hi0 : (i 0).val < 8000 := (i 0).isLt
  have hi1 : (i 1).val < 1 := (i 1).isLt
  have ht : (i 0).val / 400 < cfg0.N := by show (i 0).val / 400 < 20; omega
  refine ⟨⟨(i 0).val / 400, ht⟩, flush0_6 _, ?_⟩
  rw [mem_blk6]
  obtain ⟨-, -, -, -, -, -, -, -, -, -, -, -, e0, e1⟩ := idx_facts ⟨(i 0).val / 400, ht⟩
  intro a
  match a with
  | ⟨0, _⟩ =>
    show win0_6.index ⟨(i 0).val / 400, ht⟩ (0 : Fin 2) * 400 ≤ (i 0).val ∧ (i 0).val < win0_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_6.index ⟨(i 0).val / 400, ht⟩ (1 : Fin 2) * 1 ≤ (i 1).val ∧ (i 1).val < win0_6.index ⟨(i 0).val / 400, ht⟩ (1 : Fin 2) * 1 + 1
    rw [e1]; omega

/-- The sum output after the region: the column of row sums. -/
theorem finalSum (c : Dev nD)
    (hA : ∀ i, ∃ x : ℝ, V c main_arg0 i = (x : EReal)) (hP : ∀ i, ∃ x : ℝ, V c main_v38 i = (x : EReal))
    (hM : ∀ i, ∃ x : ℝ, V c main_v22 i = (x : EReal)) :
    (dat0 V c).arrAt 5 cfg0.N = GSum (V c main_arg0) (V c main_v38) (V c main_v39) (V c main_v40) (V c main_v22) :=
  (dat0 V c).arrAt_eq_of_cover 5 _ (fun t _ => flushed5_eq V c t hA hP hM) cover5

/-- The maximum output after the region: the column of row maxima. -/
theorem finalMax (c : Dev nD)
    (hA : ∀ i, ∃ x : ℝ, V c main_arg0 i = (x : EReal)) (hP : ∀ i, ∃ x : ℝ, V c main_v38 i = (x : EReal))
    (hM : ∀ i, ∃ x : ℝ, V c main_v22 i = (x : EReal)) :
    (dat0 V c).arrAt 6 cfg0.N = GMax (V c main_arg0) (V c main_v38) (V c main_v22) :=
  (dat0 V c).arrAt_eq_of_cover 6 _ (fun t _ => flushed6_eq V c t hA hP hM) cover6

end Cert.KernelIdeal.Region0

end
-- ==== Proof.KRegion1.lean ====
/-
  Region 1: the two arrays the pipelined kernel leaves, as whole-array functions of the arrays it reads.

  The grid has twenty points; point t holds anchor rows 400 t to 400 t + 399, their positive logits and memory labels,
  and the whole row of own labels and the whole memory bank. What point t writes back to each output is, row by row,
  the row sum (window 5) and the row maximum (window 6) of the specification, provided the anchor entries, the memory
  entries and the positive logits are real numbers. The twenty blocks tile each [8000, 1] output, so each output array
  ends at the specification's column of row sums, resp. row maxima.
-/
import proofs.«168614_j49684181680814_2_alg».proof.Proof.KRowValues
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.KernelIdeal.Row

variable (V : (c : Dev nD) → (b : Ref sig .tc) → Buf (Elt Ideal) ((c : Thread nD τ).loc b))

theorem hz : (![0, 0] : Fin 2 → Nat) = fun _ => 0 := funext fun a => by fin_cases a <;> rfl

/-- The word 0x3F800000 is the number one. -/
theorem ofBits_one : Ideal.ofBits .f32 0x3F800000#32 = 1 := by
  simp [Ideal.ofBits, Ideal.ieee, -EReal.coe_mul]; norm_num

/-- The column of row sums of the specification, from the arrays the region reads. -/
def GSum (A : S8000x256.Idx → EReal) (P : S8000x1.Idx → EReal) (ML : S8000x1.Idx → BitVec 32) (OW : S1x8000.Idx → BitVec 32)
    (MEM : S8000x256.Idx → EReal) : S8000x1.Idx → EReal := fun i =>
  Cert.Spec.rowSum (P (ix2 (i 0) (0 : Fin 1))) (fun J : Fin 8000 => Cert.Spec.score A MEM (i 0) J)
    (fun J : Fin 8000 => if OW (ix2 (0 : Fin 1) J) = ML (ix2 (i 0) (0 : Fin 1)) then 0 else 1)

/-- The column of row maxima of the specification. -/
def GMax (A : S8000x256.Idx → EReal) (P : S8000x1.Idx → EReal) (MEM : S8000x256.Idx → EReal) : S8000x1.Idx → EReal := fun i =>
  Cert.Spec.rowMax (P (ix2 (i 0) (0 : Fin 1))) (fun J : Fin 8000 => Cert.Spec.score A MEM (i 0) J)

/-- The printed index maps over the grid: the row-tiled windows are at block t, the two resident ones at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row r of point t is row 400 t + r of the arrays. -/
def grow (t : Fin cfg1.N) (r : Fin 400) : Fin 8000 :=
  ⟨400 * t.val + r.val, by have ht : t.val < 20 := t.isLt; have := r.isLt; omega⟩

/-! ## The blocks of the windows at a point, entry by entry -/

theorem blk0 (c : Dev nD) (t : Fin cfg1.N) (r : Fin 400) (q : Fin 256) :
    iblk1 V c 0 t (ix2 r q) = V c main_arg1 (ix2 (grow t r) q) := by
  show V c main_arg1 (((cfg1.win 0).blk t).view.emb (ix2 r q)) = V c main_arg1 (ix2 (grow t r) q)
  obtain ⟨e0, e1, -⟩ := idx_facts t
  refine congrArg (V c main_arg1) (funext fun a => Fin.ext ?_)
  match a with
  | ⟨0, _⟩ => show win1_0.index t (0 : Fin 2) * 400 + 1 * r.val = 400 * t.val + r.val; omega
  | ⟨1, _⟩ => show win1_0.index t (1 : Fin 2) * 256 + 1 * q.val = q.val; omega

theorem blk1 (c : Dev nD) (t : Fin cfg1.N) (r : Fin 400) :
    iblk1 V c 1 t (ix2 r (0 : Fin 1)) = V c main_v63 (ix2 (grow t r) (0 : Fin 1)) := by
  show V c main_v63 (((cfg1.win 1).blk t).view.emb (ix2 r (0 : Fin 1))) = V c main_v63 (ix2 (grow t r) (0 : Fin 1))
  obtain ⟨-, -, e0, e1, -⟩ := idx_facts t
  refine congrArg (V c main_v63) (funext fun a => Fin.ext ?_)
  match a with
  | ⟨0, _⟩ => show win1_1.index t (0 : Fin 2) * 400 + 1 * r.val = 400 * t.val + r.val; omega
  | ⟨1, _⟩ => show win1_1.index t (1 : Fin 2) * 1 + 1 * 0 = 0; omega

theorem blk2 (c : Dev nD) (t : Fin cfg1.N) (r : Fin 400) :
    iblk1 V c 2 t (ix2 r (0 : Fin 1)) = V c main_v64 (ix2 (grow t r) (0 : Fin 1)) := by
  show V c main_v64 (((cfg1.win 2).blk t).view.emb (ix2 r (0 : Fin 1))) = V c main_v64 (ix2 (grow t r) (0 : Fin 1))
  obtain ⟨-, -, -, -, e0, e1, -⟩ := idx_facts t
  refine congrArg (V c main_v64) (funext fun a => Fin.ext ?_)
  match a with
  | ⟨0, _⟩ => show win1_2.index t (0 : Fin 2) * 400 + 1 * r.val = 400 * t.val + r.val; omega
  | ⟨1, _⟩ => show win1_2.index t (1 : Fin 2) * 1 + 1 * 0 = 0; omega

theorem blk3 (c : Dev nD) (t : Fin cfg1.N) (J : Fin 8000) :
    iblk1 V c 3 t (ix2 (0 : Fin 1) J) = V c main_v65 (ix2 (0 : Fin 1) J) := by
  show V c main_v65 (((cfg1.win 3).blk t).view.emb (ix2 (0 : Fin 1) J)) = V c main_v65 (ix2 (0 : Fin 1) J)
  obtain ⟨-, -, -, -, -, -, e0, e1, -⟩ := idx_facts t
  refine congrArg (V c main_v65) (funext fun a => Fin.ext ?_)
  match a with
  | ⟨0, _⟩ => show win1_3.index t (0 : Fin 2) * 1 + 1 * 0 = 0; omega
  | ⟨1, _⟩ => show win1_3.index t (1 : Fin 2) * 8000 + 1 * J.val = J.val; omega

theorem blk4 (c : Dev nD) (t : Fin cfg1.N) (J : Fin 8000) (q : Fin 256) :
    iblk1 V c 4 t (ix2 J q) = V c main_v22 (ix2 J q) := by
  show V c main_v22 (((cfg1.win 4).blk t).view.emb (ix2 J q)) = V c main_v22 (ix2 J q)
  obtain ⟨-, -, -, -, -, -, -, -, e0, e1, -⟩ := idx_facts t
  refine congrArg (V c main_v22) (funext fun a => Fin.ext ?_)
  match a with
  | ⟨0, _⟩ => show win1_4.index t (0 : Fin 2) * 8000 + 1 * J.val = J.val; omega
  | ⟨1, _⟩ => show win1_4.index t (1 : Fin 2) * 256 + 1 * q.val = q.val; omega

/-! ## The body's loads are the blocks -/

theorem anchorOf_apply (x0 : Vec Ideal S400x256 .f32) (i : S400x256.Idx) : anchorOf1 (F := Ideal) x0 i = x0 i := by
  unfold anchorOf1; rw [truncf_apply, View.ld_unit_zero (S := S400x256) hz]
theorem memOf_apply (x4 : Vec Ideal S8000x256 .f32) (i : S8000x256.Idx) : memOf1 (F := Ideal) x4 i = x4 i := by
  unfold memOf1; rw [View.ld_unit_zero (S := S8000x256) hz]; exact congrFun (shapeCast_self x4 _) i
theorem posOf_apply (x1 : Vec Ideal S400x1 .f32) (i : S400x1.Idx) : posOf1 (F := Ideal) x1 i = x1 i := by
  unfold posOf1; rw [View.ld_unit_zero (S := S400x1) hz]; exact congrFun (shapeCast_self x1 _) i
theorem ownOf_apply (x3 : Vec Ideal S1x8000 .i32) (i : S1x8000.Idx) : ownOf1 (F := Ideal) x3 i = x3 i := by
  unfold ownOf1; rw [View.ld_unit_zero (S := S1x8000) hz]; exact congrFun (shapeCast_self x3 _) i
theorem labOf_apply (x2 : Vec Ideal S400x1 .i32) (i : S400x1.Idx) :
    labOf1 (F := Ideal) x2 i = FloatOps.sitofp (F := Ideal) .f32 (x2 i) := by
  unfold labOf1; rw [sitofp_apply, View.ld_unit_zero (S := S400x1) hz]; exact congrArg (FloatOps.sitofp (F := Ideal) .f32) (congrFun (shapeCast_self x2 _) i)
theorem onesCol_apply (i : S400x1.Idx) : onesCol (F := Ideal) i = 1 := by
  show Ideal.ofBits .f32 0x3F800000#32 = 1
  exact ofBits_one

/-! ## What a point writes back, row by row -/

/-- The stored sum and maximum of row r of point t, in the specification's terms. -/
theorem point_row (c : Dev nD) (t : Fin cfg1.N) (r : Fin 400)
    (hA : ∀ i, ∃ x : ℝ, V c main_arg1 i = (x : EReal)) (hP : ∀ i, ∃ x : ℝ, V c main_v63 i = (x : EReal))
    (hM : ∀ i, ∃ x : ℝ, V c main_v22 i = (x : EReal)) :
    M20 (anchorOf1 (iblk1 V c 0 t)) (memOf1 (iblk1 V c 4 t)) (posOf1 (iblk1 V c 1 t)) (ix2 r (0 : Fin 1))
        = GMax (V c main_arg1) (V c main_v63) (V c main_v22) (ix2 (grow t r) (0 : Fin 1))
    ∧ L20 (anchorOf1 (iblk1 V c 0 t)) (memOf1 (iblk1 V c 4 t)) (labOf1 (iblk1 V c 2 t)) (ownOf1 (iblk1 V c 3 t))
          onesCol (posOf1 (iblk1 V c 1 t)) onesCol (ix2 r (0 : Fin 1))
        = GSum (V c main_arg1) (V c main_v63) (V c main_v64) (V c main_v65) (V c main_v22) (ix2 (grow t r) (0 : Fin 1)) := by
  have e1 : posOf1 (iblk1 V c 1 t) (ix2 r (0 : Fin 1)) = V c main_v63 (ix2 (grow t r) (0 : Fin 1)) :=
    (posOf_apply (iblk1 V c 1 t) (ix2 r (0 : Fin 1))).trans (blk1 V c t r)
  have e2 : (fun J : Fin 8000 => kscore (anchorOf1 (iblk1 V c 0 t)) (memOf1 (iblk1 V c 4 t)) r J)
      = fun J : Fin 8000 => Cert.Spec.score (V c main_arg1) (V c main_v22) (grow t r) J := by
    funext J
    unfold kscore Cert.Spec.score
    rw [div_temp]
    refine congrArg (· * invT) (Finset.sum_congr rfl fun q _ => ?_)
    rw [anchorOf_apply, memOf_apply, blk0 V c t r q, blk4 V c t J q]
  have e3 : (fun J : Fin 8000 => if ownOf1 (iblk1 V c 3 t) (ix2 (0 : Fin 1) J) = V c main_v64 (ix2 (grow t r) (0 : Fin 1)) then (0 : EReal) else 1)
      = fun J : Fin 8000 => if V c main_v65 (ix2 (0 : Fin 1) J) = V c main_v64 (ix2 (grow t r) (0 : Fin 1)) then (0 : EReal) else 1 := by
    funext J
    rw [ownOf_apply, blk3 V c t J]
  have key := row_values (anchorOf1 (iblk1 V c 0 t)) (memOf1 (iblk1 V c 4 t)) (labOf1 (iblk1 V c 2 t))
    (ownOf1 (iblk1 V c 3 t)) onesCol (posOf1 (iblk1 V c 1 t)) onesCol r (onesCol_apply _) (onesCol_apply _)
    (by rw [e1]; exact hP _)
    (fun q => by rw [anchorOf_apply, blk0 V c t r q]; exact hA _)
    (fun J q => by rw [memOf_apply, blk4 V c t J q]; exact hM _)
    (V c main_v64 (ix2 (grow t r) (0 : Fin 1)))
    (by rw [labOf_apply, blk2 V c t r])
  refine ⟨?_, ?_⟩
  · rw [key.1, e1, e2]; rfl
  · rw [key.2, e1, e2, e3]; rfl

/-! ## The output blocks and the cover -/

theorem emb5 (t : Fin cfg1.N) (r : Fin 400) : ((cfg1.win 5).blk t).view.emb (ix2 r (0 : Fin 1)) = ix2 (grow t r) (0 : Fin 1) := by
  obtain ⟨-, -, -, -, -, -, -, -, -, -, e0, e1, -⟩ := idx_facts t
  funext a; apply Fin.ext
  match a with
  | ⟨0, _⟩ => show win1_5.index t (0 : Fin 2) * 400 + 1 * r.val = 400 * t.val + r.val; omega
  | ⟨1, _⟩ => show win1_5.index t (1 : Fin 2) * 1 + 1 * 0 = 0; omega

theorem emb6 (t : Fin cfg1.N) (r : Fin 400) : ((cfg1.win 6).blk t).view.emb (ix2 r (0 : Fin 1)) = ix2 (grow t r) (0 : Fin 1) := by
  obtain ⟨-, -, -, -, -, -, -, -, -, -, -, -, e0, e1⟩ := idx_facts t
  funext a; apply Fin.ext
  match a with
  | ⟨0, _⟩ => show win1_6.index t (0 : Fin 2) * 400 + 1 * r.val = 400 * t.val + r.val; omega
  | ⟨1, _⟩ => show win1_6.index t (1 : Fin 2) * 1 + 1 * 0 = 0; omega

/-- What point t writes back to the sum output is block t of the column of row sums. -/
theorem flushed5_eq (c : Dev nD) (t : Fin cfg1.N)
    (hA : ∀ i, ∃ x : ℝ, V c main_arg1 i = (x : EReal)) (hP : ∀ i, ∃ x : ℝ, V c main_v63 i = (x : EReal))
    (hM : ∀ i, ∃ x : ℝ, V c main_v22 i = (x : EReal)) :
    (dat1 V c).flushed 5 t
      = ((cfg1.win 5).blk t).view.read (Elt Ideal) (GSum (V c main_arg1) (V c main_v63) (V c main_v64) (V c main_v65) (V c main_v22)) := by
  show (cfg1.win 5).cut (grid1.coords t) ((dat1 V c).after 5 t) = _
  rw [after1_5, out1_sum, View.canon_unit_zero hz]
  funext j
  obtain ⟨r, u, rfl⟩ : ∃ (r : Fin 400) (u : Fin 1), j = ix2 r u := ⟨j 0, j 1, eq_ix2 j⟩
  obtain rfl : u = 0 := Subsingleton.elim _ _
  show L20 (F := Ideal) _ _ _ _ _ _ _ (ix2 r (0 : Fin 1)) = GSum _ _ _ _ _ (((cfg1.win 5).blk t).view.emb (ix2 r (0 : Fin 1)))
  rw [emb5 t r]
  exact (point_row V c t r hA hP hM).2

/-- What point t writes back to the maximum output is block t of the column of row maxima. -/
theorem flushed6_eq (c : Dev nD) (t : Fin cfg1.N)
    (hA : ∀ i, ∃ x : ℝ, V c main_arg1 i = (x : EReal)) (hP : ∀ i, ∃ x : ℝ, V c main_v63 i = (x : EReal))
    (hM : ∀ i, ∃ x : ℝ, V c main_v22 i = (x : EReal)) :
    (dat1 V c).flushed 6 t
      = ((cfg1.win 6).blk t).view.read (Elt Ideal) (GMax (V c main_arg1) (V c main_v63) (V c main_v22)) := by
  show (cfg1.win 6).cut (grid1.coords t) ((dat1 V c).after 6 t) = _
  rw [after1_6, out1_max, View.canon_unit_zero hz]
  funext j
  obtain ⟨r, u, rfl⟩ : ∃ (r : Fin 400) (u : Fin 1), j = ix2 r u := ⟨j 0, j 1, eq_ix2 j⟩
  obtain rfl : u = 0 := Subsingleton.elim _ _
  show M20 (F := Ideal) _ _ _ (ix2 r (0 : Fin 1)) = GMax _ _ _ (((cfg1.win 6).blk t).view.emb (ix2 r (0 : Fin 1)))
  rw [emb6 t r]
  exact (point_row V c t r hA hP hM).1

theorem mem_blk5 (t : Fin cfg1.N) (i : S8000x1.Idx) :
    i ∈ ((cfg1.win 5).blk t).view.set ↔ ∀ a : Fin 2, win1_5.index t a * S400x1.size a ≤ (i a).val ∧ (i a).val < win1_5.index t a * S400x1.size a + S400x1.size a := by
  show i ∈ ((View.whole main_v66_0).slice (win1_5.rect t)).set ↔ _
  rw [View.set_slice_whole, Rect.mem_set_unit]
  exact Iff.rfl

theorem mem_blk6 (t : Fin cfg1.N) (i : S8000x1.Idx) :
    i ∈ ((cfg1.win 6).blk t).view.set ↔ ∀ a : Fin 2, win1_6.index t a * S400x1.size a ≤ (i a).val ∧ (i a).val < win1_6.index t a * S400x1.size a + S400x1.size a := by
  show i ∈ ((View.whole main_v66_1).slice (win1_6.rect t)).set ↔ _
  rw [View.set_slice_whole, Rect.mem_set_unit]
  exact Iff.rfl

/-- Every row of the sum output is in the block of the point that holds it: row i is in block i / 400. -/
theorem cover5 (i : S8000x1.Idx) : ∃ t : Fin cfg1.N, (cfg1.win 5).flush t = true ∧ i ∈ ((cfg1.win 5).blk t).view.set := by
  have hi0 : (i 0).val < 8000 := (i 0).isLt
  have hi1 : (i 1).val < 1 := (i 1).isLt
  have ht : (i 0).val / 400 < cfg1.N := by show (i 0).val / 400 < 20; omega
  refine ⟨⟨(i 0).val / 400, ht⟩, flush1_5 _, ?_⟩
  rw [mem_blk5]
  obtain ⟨-, -, -, -, -, -, -, -, -, -, e0, e1, -⟩ := idx_facts ⟨(i 0).val / 400, ht⟩
  intro a
  match a with
  | ⟨0, _⟩ =>
    show win1_5.index ⟨(i 0).val / 400, ht⟩ (0 : Fin 2) * 400 ≤ (i 0).val ∧ (i 0).val < win1_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_5.index ⟨(i 0).val / 400, ht⟩ (1 : Fin 2) * 1 ≤ (i 1).val ∧ (i 1).val < win1_5.index ⟨(i 0).val / 400, ht⟩ (1 : Fin 2) * 1 + 1
    rw [e1]; omega

theorem cover6 (i : S8000x1.Idx) : ∃ t : Fin cfg1.N, (cfg1.win 6).flush t = true ∧ i ∈ ((cfg1.win 6).blk t).view.set := by
  have hi0 : (i 0).val < 8000 := (i 0).isLt
  have hi1 : (i 1).val < 1 := (i 1).isLt
  have ht : (i 0).val / 400 < cfg1.N := by show (i 0).val / 400 < 20; omega
  refine ⟨⟨(i 0).val / 400, ht⟩, flush1_6 _, ?_⟩
  rw [mem_blk6]
  obtain ⟨-, -, -, -, -, -, -, -, -, -, -, -, e0, e1⟩ := idx_facts ⟨(i 0).val / 400, ht⟩
  intro a
  match a with
  | ⟨0, _⟩ =>
    show win1_6.index ⟨(i 0).val / 400, ht⟩ (0 : Fin 2) * 400 ≤ (i 0).val ∧ (i 0).val < win1_6.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_6.index ⟨(i 0).val / 400, ht⟩ (1 : Fin 2) * 1 ≤ (i 1).val ∧ (i 1).val < win1_6.index ⟨(i 0).val / 400, ht⟩ (1 : Fin 2) * 1 + 1
    rw [e1]; omega

/-- The sum output after the region: the column of row sums. -/
theorem finalSum (c : Dev nD)
    (hA : ∀ i, ∃ x : ℝ, V c main_arg1 i = (x : EReal)) (hP : ∀ i, ∃ x : ℝ, V c main_v63 i = (x : EReal))
    (hM : ∀ i, ∃ x : ℝ, V c main_v22 i = (x : EReal)) :
    (dat1 V c).arrAt 5 cfg1.N = GSum (V c main_arg1) (V c main_v63) (V c main_v64) (V c main_v65) (V c main_v22) :=
  (dat1 V c).arrAt_eq_of_cover 5 _ (fun t _ => flushed5_eq V c t hA hP hM) cover5

/-- The maximum output after the region: the column of row maxima. -/
theorem finalMax (c : Dev nD)
    (hA : ∀ i, ∃ x : ℝ, V c main_arg1 i = (x : EReal)) (hP : ∀ i, ∃ x : ℝ, V c main_v63 i = (x : EReal))
    (hM : ∀ i, ∃ x : ℝ, V c main_v22 i = (x : EReal)) :
    (dat1 V c).arrAt 6 cfg1.N = GMax (V c main_arg1) (V c main_v63) (V c main_v22) :=
  (dat1 V c).arrAt_eq_of_cover 6 _ (fun t _ => flushed6_eq V c t hA hP hM) cover6

end Cert.KernelIdeal.Region1

end
-- ==== Proof.KFold.lean ====
/-
  The kernel program's result, folded back to the arguments.

  The program's chain is: host operations (the positive logits, the memory bank and its labels, three reshapes), the
  first pipelined region, host operations (the first loss and three reshapes), the second region, host operations (the
  second loss and the sum of the two). Reading the chain's fold at the result buffer, stretch by stretch: the result is
  the sum of two loss tails; a loss tail takes the exponentials of (positive logit - row maximum), the row sums and the
  two pseudo-logit vectors; the row maxima and row sums are what the regions leave in their output arrays; the regions'
  input arrays are what the host operations before them computed. The host operations that both programs share (the
  rows' dot products, the memory bank, its labels) are named by the reference's stages, which are the same terms.
-/
import proofs.«168614_j49684181680814_2_alg».proof.Proof.KRegion0
import proofs.«168614_j49684181680814_2_alg».proof.Proof.KRegion1
import proofs.«168614_j49684181680814_2_alg».proof.Proof.Gen.ReferenceIdeal.Read
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- One loss from the exponentials e of (positive logit - row maximum), the row sums sm, and the pseudo-logits pa, pb:
    the mean over the rows selected by (pb > 0.7 and pa < pb) of -log (e / (sm + eps) + eps). -/
def lossTail (e sm pa pb : FVec Ideal S8000 .f32) : FVec Ideal S_ .f32 :=
  Host.divf
    (Host.reduceAdd
      (mulf
        (Host.negf (Host.log (addf (Host.divf e (addf sm (broadcastInDim S8000 ![] bcast_S_S8000 (constant (F := Ideal) S_ .f32 0x322BCC77#32))))
          (broadcastInDim S8000 ![] bcast_S_S8000 (constant (F := Ideal) S_ .f32 0x322BCC77#32)))))
        (uitofp .f32 (andi (cmpf .ogt pb (broadcastInDim S8000 ![] bcast_S_S8000 (constant (F := Ideal) S_ .f32 0x3F333333#32))) (cmpf .olt pa pb))))
      (constant (F := Ideal) S_ .f32 0x00000000#32) reducesTo_S8000_S_d0 h_S_)
    (addf
      (Host.reduceAdd
        (uitofp .f32 (andi (cmpf .ogt pb (broadcastInDim S8000 ![] bcast_S_S8000 (constant (F := Ideal) S_ .f32 0x3F333333#32))) (cmpf .olt pa pb)))
        (constant (F := Ideal) S_ .f32 0x00000000#32) reducesTo_S8000_S_d0 h_S_)
      (constant (F := Ideal) S_ .f32 0x2B8CBCCC#32))

/-! ## The arguments and the shared host stages -/

abbrev a0 : FVec Ideal S8000x256 .f32 := m ((c : Thread nD τ).loc main_arg0)
abbrev a1 : FVec Ideal S8000x256 .f32 := m ((c : Thread nD τ).loc main_arg1)
abbrev a2 : FVec Ideal S5x256x40x40 .f32 := m ((c : Thread nD τ).loc main_arg2)
abbrev a3 : FVec Ideal S5x256x40x40 .f32 := m ((c : Thread nD τ).loc main_arg3)
abbrev a4 : IVec S8000 32 := m ((c : Thread nD τ).loc main_arg4)
abbrev a5 : IVec S8000 32 := m ((c : Thread nD τ).loc main_arg5)
abbrev a6 : FVec Ideal S8000 .f32 := m ((c : Thread nD τ).loc main_arg6)
abbrev a7 : FVec Ideal S8000 .f32 := m ((c : Thread nD τ).loc main_arg7)
abbrev a8 : IVec S4000 32 := m ((c : Thread nD τ).loc main_arg8)
abbrev a9 : IVec S4000 32 := m ((c : Thread nD τ).loc main_arg9)

/-- The rows' dot products of the two feature matrices. -/
abbrev redK : FVec Ideal S8000 .f32 := Cert.ReferenceIdeal.Read.val_main_v1 (F := Ideal) (a0 m c) (a1 m c)
/-- The memory bank. -/
abbrev memK : FVec Ideal S8000x256 .f32 := Cert.ReferenceIdeal.Read.val_main_v28 (F := Ideal) (a2 m c) (a3 m c) (a8 m c) (a9 m c)
/-- The memory bank's labels. -/
abbrev mlabK : IVec S8000 32 := Cert.ReferenceIdeal.Read.val_main_v43 (F := Ideal) (a4 m c) (a5 m c) (a8 m c) (a9 m c)

/-- The positive logits: the rows' dot products over the temperature. -/
def posK : FVec Ideal S8000 .f32 :=
  Host.divf (redK m c) (broadcastInDim S8000 ![] bcast_S_S8000 (constant (F := Ideal) S_ .f32 0x3DCCCCCD#32))

/-! ## After the first stretch of host operations -/

theorem A_v3 : W1 m ρ c (Proc.devRef .tc main_v3) = posK m c := by
  show StableHlo.after hostOps0 (W0 m ρ c) (Proc.devRef .tc main_v3) = _
  after_results_simp
  rfl

theorem A_v22 : W1 m ρ c (Proc.devRef .tc main_v22) = memK m c := by
  show StableHlo.after hostOps0 (W0 m ρ c) (Proc.devRef .tc main_v22) = _
  after_results_simp
  rfl

theorem A_v37 : W1 m ρ c (Proc.devRef .tc main_v37) = mlabK m c := by
  show StableHlo.after hostOps0 (W0 m ρ c) (Proc.devRef .tc main_v37) = _
  after_results_simp
  rfl

theorem A_v38 : W1 m ρ c (Proc.devRef .tc main_v38) = shapeCast S8000x1 (posK m c) shapeCasts_S8000_S8000x1 := by
  show StableHlo.after hostOps0 (W0 m ρ c) (Proc.devRef .tc main_v38) = _
  after_results_simp
  rfl

theorem A_v39 : W1 m ρ c (Proc.devRef .tc main_v39) = shapeCast S8000x1 (mlabK m c) shapeCasts_S8000_S8000x1 := by
  show StableHlo.after hostOps0 (W0 m ρ c) (Proc.devRef .tc main_v39) = _
  after_results_simp
  rfl

theorem A_v40 : W1 m ρ c (Proc.devRef .tc main_v40) = shapeCast S1x8000 (a4 m c) shapeCasts_S8000_S1x8000 := by
  show StableHlo.after hostOps0 (W0 m ρ c) (Proc.devRef .tc main_v40) = _
  after_results_simp
  rfl

theorem A_arg0 : W1 m ρ c (Proc.devRef .tc main_arg0) = a0 m c := by
  show StableHlo.after hostOps0 (W0 m ρ c) (Proc.devRef .tc main_arg0) = _
  after_results_simp

theorem A_arg1 : W1 m ρ c (Proc.devRef .tc main_arg1) = a1 m c := by
  show StableHlo.after hostOps0 (W0 m ρ c) (Proc.devRef .tc main_arg1) = _
  after_results_simp

theorem A_arg5 : W1 m ρ c (Proc.devRef .tc main_arg5) = a5 m c := by
  show StableHlo.after hostOps0 (W0 m ρ c) (Proc.devRef .tc main_arg5) = _
  after_results_simp

theorem A_arg6 : W1 m ρ c (Proc.devRef .tc main_arg6) = a6 m c := by
  show StableHlo.after hostOps0 (W0 m ρ c) (Proc.devRef .tc main_arg6) = _
  after_results_simp

theorem A_arg7 : W1 m ρ c (Proc.devRef .tc main_arg7) = a7 m c := by
  show StableHlo.after hostOps0 (W0 m ρ c) (Proc.devRef .tc main_arg7) = _
  after_results_simp

/-! ## After the first region -/

/-- An input array of the first region is left as it was entered. -/
theorem B_in (w : Fin cfg0.W) (hw : (cfg0.win w).isOut = false := by rfl) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

theorem B_arg0 : W2 m ρ c (Proc.devRef .tc main_arg0) = a0 m c :=
  (B_in m ρ c 0).trans (A_arg0 m ρ c)

theorem B_v38 : W2 m ρ c (Proc.devRef .tc main_v38) = shapeCast S8000x1 (posK m c) shapeCasts_S8000_S8000x1 :=
  (B_in m ρ c 1).trans (A_v38 m ρ c)

theorem B_v39 : W2 m ρ c (Proc.devRef .tc main_v39) = shapeCast S8000x1 (mlabK m c) shapeCasts_S8000_S8000x1 :=
  (B_in m ρ c 2).trans (A_v39 m ρ c)

theorem B_v40 : W2 m ρ c (Proc.devRef .tc main_v40) = shapeCast S1x8000 (a4 m c) shapeCasts_S8000_S1x8000 :=
  (B_in m ρ c 3).trans (A_v40 m ρ c)

theorem B_v22 : W2 m ρ c (Proc.devRef .tc main_v22) = memK m c :=
  (B_in m ρ c 4).trans (A_v22 m ρ c)

theorem B_v3 : W2 m ρ c (Proc.devRef .tc main_v3) = posK m c :=
  (W2_of_ne m ρ c main_v3 (by decide)).trans (A_v3 m ρ c)

theorem B_v37 : W2 m ρ c (Proc.devRef .tc main_v37) = mlabK m c :=
  (W2_of_ne m ρ c main_v37 (by decide)).trans (A_v37 m ρ c)

theorem B_arg1 : W2 m ρ c (Proc.devRef .tc main_arg1) = a1 m c :=
  (W2_of_ne m ρ c main_arg1 (by decide)).trans (A_arg1 m ρ c)

theorem B_arg5 : W2 m ρ c (Proc.devRef .tc main_arg5) = a5 m c :=
  (W2_of_ne m ρ c main_arg5 (by decide)).trans (A_arg5 m ρ c)

theorem B_arg6 : W2 m ρ c (Proc.devRef .tc main_arg6) = a6 m c :=
  (W2_of_ne m ρ c main_arg6 (by decide)).trans (A_arg6 m ρ c)

theorem B_arg7 : W2 m ρ c (Proc.devRef .tc main_arg7) = a7 m c :=
  (W2_of_ne m ρ c main_arg7 (by decide)).trans (A_arg7 m ρ c)

/-- The positive logits as the column the regions read. -/
abbrev posCol : FVec Ideal S8000x1 .f32 := shapeCast S8000x1 (posK m c) shapeCasts_S8000_S8000x1
/-- The memory labels as the column the regions read. -/
abbrev mlabCol : IVec S8000x1 32 := shapeCast S8000x1 (mlabK m c) shapeCasts_S8000_S8000x1

/-- What the first region leaves in its sum output. -/
theorem B_sum (hA : ∀ i, ∃ x : ℝ, a0 m c i = (x : EReal)) (hP : ∀ i, ∃ x : ℝ, posCol m c i = (x : EReal))
    (hM : ∀ i, ∃ x : ℝ, memK m c i = (x : EReal)) :
    W2 m ρ c (Proc.devRef .tc main_v41_0)
      = Cert.KernelIdeal.Region0.GSum (a0 m c) (posCol m c) (mlabCol m c) (shapeCast S1x8000 (a4 m c) shapeCasts_S8000_S1x8000) (memK m c) := by
  have e0 : V1 m ρ c main_arg0 = a0 m c := A_arg0 m ρ c
  have e1 : V1 m ρ c main_v38 = posCol m c := A_v38 m ρ c
  have e2 : V1 m ρ c main_v39 = mlabCol m c := A_v39 m ρ c
  have e3 : V1 m ρ c main_v40 = shapeCast S1x8000 (a4 m c) shapeCasts_S8000_S1x8000 := A_v40 m ρ c
  have e4 : V1 m ρ c main_v22 = memK m c := A_v22 m ρ c
  refine (W2_arr m ρ c 5).trans ?_
  rw [Cert.KernelIdeal.Region0.finalSum (V1 m ρ) c (by rw [e0]; exact hA) (by rw [e1]; exact hP) (by rw [e4]; exact hM), e0, e1, e2, e3, e4]

/-- What the first region leaves in its maximum output. -/
theorem B_max (hA : ∀ i, ∃ x : ℝ, a0 m c i = (x : EReal)) (hP : ∀ i, ∃ x : ℝ, posCol m c i = (x : EReal))
    (hM : ∀ i, ∃ x : ℝ, memK m c i = (x : EReal)) :
    W2 m ρ c (Proc.devRef .tc main_v41_1) = Cert.KernelIdeal.Region0.GMax (a0 m c) (posCol m c) (memK m c) := by
  have e0 : V1 m ρ c main_arg0 = a0 m c := A_arg0 m ρ c
  have e1 : V1 m ρ c main_v38 = posCol m c := A_v38 m ρ c
  have e4 : V1 m ρ c main_v22 = memK m c := A_v22 m ρ c
  refine (W2_arr m ρ c 6).trans ?_
  rw [Cert.KernelIdeal.Region0.finalMax (V1 m ρ) c (by rw [e0]; exact hA) (by rw [e1]; exact hP) (by rw [e4]; exact hM), e0, e1, e4]

/-! ## After the second stretch of host operations -/

theorem C_v62 : W3 m ρ c (Proc.devRef .tc main_v62) = lossTail (Host.exp (subf (W2 m ρ c (Proc.devRef .tc main_v3)) (shapeCast S8000 (W2 m ρ c (Proc.devRef .tc main_v41_1)) shapeCasts_S8000x1_S8000))) (shapeCast S8000 (W2 m ρ c (Proc.devRef .tc main_v41_0)) shapeCasts_S8000x1_S8000) (W2 m ρ c (Proc.devRef .tc main_arg6)) (W2 m ρ c (Proc.devRef .tc main_arg7)) := by
  show StableHlo.after hostOps1 (W2 m ρ c) (Proc.devRef .tc main_v62) = _
  after_results_simp
  rfl

theorem C_v63 : W3 m ρ c (Proc.devRef .tc main_v63) = shapeCast S8000x1 (W2 m ρ c (Proc.devRef .tc main_v3)) shapeCasts_S8000_S8000x1 := by
  show StableHlo.after hostOps1 (W2 m ρ c) (Proc.devRef .tc main_v63) = _
  after_results_simp
  rfl

theorem C_v64 : W3 m ρ c (Proc.devRef .tc main_v64) = shapeCast S8000x1 (W2 m ρ c (Proc.devRef .tc main_v37)) shapeCasts_S8000_S8000x1 := by
  show StableHlo.after hostOps1 (W2 m ρ c) (Proc.devRef .tc main_v64) = _
  after_results_simp
  rfl

theorem C_v65 : W3 m ρ c (Proc.devRef .tc main_v65) = shapeCast S1x8000 (W2 m ρ c (Proc.devRef .tc main_arg5)) shapeCasts_S8000_S1x8000 := by
  show StableHlo.after hostOps1 (W2 m ρ c) (Proc.devRef .tc main_v65) = _
  after_results_simp
  rfl

theorem C_v3 : W3 m ρ c (Proc.devRef .tc main_v3) = (W2 m ρ c (Proc.devRef .tc main_v3)) := by
  show StableHlo.after hostOps1 (W2 m ρ c) (Proc.devRef .tc main_v3) = _
  after_results_simp

theorem C_v22 : W3 m ρ c (Proc.devRef .tc main_v22) = (W2 m ρ c (Proc.devRef .tc main_v22)) := by
  show StableHlo.after hostOps1 (W2 m ρ c) (Proc.devRef .tc main_v22) = _
  after_results_simp

theorem C_arg1 : W3 m ρ c (Proc.devRef .tc main_arg1) = (W2 m ρ c (Proc.devRef .tc main_arg1)) := by
  show StableHlo.after hostOps1 (W2 m ρ c) (Proc.devRef .tc main_arg1) = _
  after_results_simp

theorem C_arg6 : W3 m ρ c (Proc.devRef .tc main_arg6) = (W2 m ρ c (Proc.devRef .tc main_arg6)) := by
  show StableHlo.after hostOps1 (W2 m ρ c) (Proc.devRef .tc main_arg6) = _
  after_results_simp

theorem C_arg7 : W3 m ρ c (Proc.devRef .tc main_arg7) = (W2 m ρ c (Proc.devRef .tc main_arg7)) := by
  show StableHlo.after hostOps1 (W2 m ρ c) (Proc.devRef .tc main_arg7) = _
  after_results_simp

/-! ## After the second region -/

/-- An input array of the second region is left as it was entered. -/
theorem D_in (w : Fin cfg1.W) (hw : (cfg1.win w).isOut = false := by rfl) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

theorem D_v62 : W4 m ρ c (Proc.devRef .tc main_v62) = W3 m ρ c (Proc.devRef .tc main_v62) :=
  W4_of_ne m ρ c main_v62 (by decide)

theorem D_v3 : W4 m ρ c (Proc.devRef .tc main_v3) = W3 m ρ c (Proc.devRef .tc main_v3) :=
  W4_of_ne m ρ c main_v3 (by decide)

theorem D_arg6 : W4 m ρ c (Proc.devRef .tc main_arg6) = W3 m ρ c (Proc.devRef .tc main_arg6) :=
  W4_of_ne m ρ c main_arg6 (by decide)

theorem D_arg7 : W4 m ρ c (Proc.devRef .tc main_arg7) = W3 m ρ c (Proc.devRef .tc main_arg7) :=
  W4_of_ne m ρ c main_arg7 (by decide)

/-- What the second region leaves in its sum output. -/
theorem D_sum (hA : ∀ i, ∃ x : ℝ, a1 m c i = (x : EReal)) (hP : ∀ i, ∃ x : ℝ, posCol m c i = (x : EReal))
    (hM : ∀ i, ∃ x : ℝ, memK m c i = (x : EReal)) :
    W4 m ρ c (Proc.devRef .tc main_v66_0)
      = Cert.KernelIdeal.Region1.GSum (a1 m c) (posCol m c) (mlabCol m c) (shapeCast S1x8000 (a5 m c) shapeCasts_S8000_S1x8000) (memK m c) := by
  have e0 : V3 m ρ c main_arg1 = a1 m c := (C_arg1 m ρ c).trans (B_arg1 m ρ c)
  have e1 : V3 m ρ c main_v63 = posCol m c := (C_v63 m ρ c).trans (by rw [B_v3])
  have e2 : V3 m ρ c main_v64 = mlabCol m c := (C_v64 m ρ c).trans (by rw [B_v37])
  have e3 : V3 m ρ c main_v65 = shapeCast S1x8000 (a5 m c) shapeCasts_S8000_S1x8000 := (C_v65 m ρ c).trans (by rw [B_arg5])
  have e4 : V3 m ρ c main_v22 = memK m c := (C_v22 m ρ c).trans (B_v22 m ρ c)
  refine (W4_arr m ρ c 5).trans ?_
  rw [Cert.KernelIdeal.Region1.finalSum (V3 m ρ) c (by rw [e0]; exact hA) (by rw [e1]; exact hP) (by rw [e4]; exact hM), e0, e1, e2, e3, e4]

/-- What the second region leaves in its maximum output. -/
theorem D_max (hA : ∀ i, ∃ x : ℝ, a1 m c i = (x : EReal)) (hP : ∀ i, ∃ x : ℝ, posCol m c i = (x : EReal))
    (hM : ∀ i, ∃ x : ℝ, memK m c i = (x : EReal)) :
    W4 m ρ c (Proc.devRef .tc main_v66_1) = Cert.KernelIdeal.Region1.GMax (a1 m c) (posCol m c) (memK m c) := by
  have e0 : V3 m ρ c main_arg1 = a1 m c := (C_arg1 m ρ c).trans (B_arg1 m ρ c)
  have e1 : V3 m ρ c main_v63 = posCol m c := (C_v63 m ρ c).trans (by rw [B_v3])
  have e4 : V3 m ρ c main_v22 = memK m c := (C_v22 m ρ c).trans (B_v22 m ρ c)
  refine (W4_arr m ρ c 6).trans ?_
  rw [Cert.KernelIdeal.Region1.finalMax (V3 m ρ) c (by rw [e0]; exact hA) (by rw [e1]; exact hP) (by rw [e4]; exact hM), e0, e1, e4]

/-! ## The result -/

theorem E_v88 : W5 m ρ c (Proc.devRef .tc main_v88)
    = addf (W4 m ρ c (Proc.devRef .tc main_v62))
        (lossTail (Host.exp (subf (W4 m ρ c (Proc.devRef .tc main_v3)) (shapeCast S8000 (W4 m ρ c (Proc.devRef .tc main_v66_1)) shapeCasts_S8000x1_S8000)))
          (shapeCast S8000 (W4 m ρ c (Proc.devRef .tc main_v66_0)) shapeCasts_S8000x1_S8000) (W4 m ρ c (Proc.devRef .tc main_arg7)) (W4 m ρ c (Proc.devRef .tc main_arg6))) := by
  show StableHlo.after hostOps2 (W4 m ρ c) (Proc.devRef .tc main_v88) = _
  after_results_simp
  rfl

/-- The exponentials of (positive logit - row maximum) of the first loss. -/
def expK1 : FVec Ideal S8000 .f32 :=
  Host.exp (subf (posK m c) (shapeCast S8000 (Cert.KernelIdeal.Region0.GMax (a0 m c) (posCol m c) (memK m c)) shapeCasts_S8000x1_S8000))
/-- The row sums of the first loss. -/
def sumK1 : FVec Ideal S8000 .f32 :=
  shapeCast S8000 (Cert.KernelIdeal.Region0.GSum (a0 m c) (posCol m c) (mlabCol m c) (shapeCast S1x8000 (a4 m c) shapeCasts_S8000_S1x8000) (memK m c)) shapeCasts_S8000x1_S8000
/-- The exponentials of the second loss. -/
def expK2 : FVec Ideal S8000 .f32 :=
  Host.exp (subf (posK m c) (shapeCast S8000 (Cert.KernelIdeal.Region1.GMax (a1 m c) (posCol m c) (memK m c)) shapeCasts_S8000x1_S8000))
/-- The row sums of the second loss. -/
def sumK2 : FVec Ideal S8000 .f32 :=
  shapeCast S8000 (Cert.KernelIdeal.Region1.GSum (a1 m c) (posCol m c) (mlabCol m c) (shapeCast S1x8000 (a5 m c) shapeCasts_S8000_S1x8000) (memK m c)) shapeCasts_S8000x1_S8000

/-- The program's result: the sum of the two loss tails over the regions' columns. -/
theorem result_eq (hA0 : ∀ i, ∃ x : ℝ, a0 m c i = (x : EReal)) (hA1 : ∀ i, ∃ x : ℝ, a1 m c i = (x : EReal))
    (hP : ∀ i, ∃ x : ℝ, posCol m c i = (x : EReal)) (hM : ∀ i, ∃ x : ℝ, memK m c i = (x : EReal)) :
    W5 m ρ c (Proc.devRef .tc main_v88)
      = addf (lossTail (expK1 m c) (sumK1 m c) (a6 m c) (a7 m c)) (lossTail (expK2 m c) (sumK2 m c) (a7 m c) (a6 m c)) := by
  rw [E_v88, D_v62, C_v62, D_v3, C_v3, D_arg6, C_arg6, D_arg7, C_arg7, D_sum m ρ c hA1 hP hM, D_max m ρ c hA1 hP hM,
    B_v3, B_arg6, B_arg7, B_sum m ρ c hA0 hP hM, B_max m ρ c hA0 hP hM]
  rfl

end Cert.KernelIdeal.Fold

end
-- ==== Proof.KRun.lean ====
/-
  The kernel program's run with its result named.

  The program is a chain of host operations, a pipelined region, host operations, a second region, host operations.
  Every weakly fair execution terminates without a fault, and in the final state every unscoped buffer holds what
  the chain leaves in it: the fold, stretch by stretch, of the host operations' results and of the regions'
  written-back arrays from the launch contents. Read at the result buffer this names the program's result; read at
  the argument buffers it gives them back unchanged.
-/
import proofs.«168614_j49684181680814_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the chain's
    fold from the launch contents and every argument array as launched. -/
theorem run_result : θ_run defs (onTc (τ := τ) (main (F := F))) ⟨m, fun _ => 0, ρ⟩ (fun r => ∀ c : Dev nD,
      r.2.mem ((c.tc : Thread nD τ).loc main_v88) = W5 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v88 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.KRun

end
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.KFinite.lean ====
/-
  Under the precondition "every float input is finite", every entry of the four float argument arrays is a real number.

  The precondition is the conjunction of six tests, one per float array: the test of an array x is the conjunction, over
  all its entries, of the comparison bit "max x (-x) < +∞". The conjunction being 1 gives each test being 1, a test being 1
  gives each of its bits being 1, and an extended real whose absolute value is below +∞ is a real.
-/
import proofs.«168614_j49684181680814_2_alg».proof.Defs
import proofs.«168614_j49684181680814_2_alg».proof.Proof.Gen.Pre_finite_inputs
import proofs.«168614_j49684181680814_2_alg».proof.Proof.LibRealEntries
import Idealize.ShloMosaic.Lib.ReduceAll

namespace Cert.KFinite

open Idealize.ShloMosaic Idealize.SL.Sem

/-- The shape with no axes has one index. -/
instance : Subsingleton Cert.Pre_finite_inputs.S_.Idx := ⟨fun a b => funext fun d => d.elim0⟩

open Cert.Pre_finite_inputs in
/-- The printed test, over any ten arrays: when it is all ones, every entry of its first four arrays is a real. -/
theorem real_of_fn [Cert.Pre_finite_inputs.Facts]
    (a0 a1 : FVec Ideal S8000x256 .f32) (a2 a3 : FVec Ideal S5x256x40x40 .f32) (a4 a5 : IVec S8000 32)
    (a6 a7 : FVec Ideal S8000 .f32) (a8 a9 : IVec S4000 32)
    (h : Cert.Pre_finite_inputs.fn (F := Ideal) a0 a1 a2 a3 a4 a5 a6 a7 a8 a9 = fun _ => 1#1) :
    (∀ i, ∃ x : ℝ, a0 i = (x : EReal)) ∧ (∀ i, ∃ x : ℝ, a1 i = (x : EReal))
      ∧ (∀ i, ∃ x : ℝ, a2 i = (x : EReal)) ∧ (∀ i, ∃ x : ℝ, a3 i = (x : EReal)) := by
  -- the test's one bit, as the conjunction of the six arrays' tests
  have h0 := congrFun h (fun d => d.elim0)
  dsimp only [Cert.Pre_finite_inputs.fn, Cert.Pre_finite_inputs.fn_part1] at h0
  obtain ⟨h0, -⟩ := IntOp.andi_eq_one.1 h0
  obtain ⟨h0, -⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- a test that is 1 has every comparison bit 1, and the bit of an entry says that the entry is a real
  exact ⟨fun i => Cert.LibRealEntries.real_of_cmp (a0 i) (Host.reduce_andi_all _ _ _ _ _ e0 i),
    fun i => Cert.LibRealEntries.real_of_cmp (a1 i) (Host.reduce_andi_all _ _ _ _ _ e1 i),
    fun i => Cert.LibRealEntries.real_of_cmp (a2 i) (Host.reduce_andi_all _ _ _ _ _ e2 i),
    fun i => Cert.LibRealEntries.real_of_cmp (a3 i) (Host.reduce_andi_all _ _ _ _ _ e3 i)⟩

/-- Under the generated precondition every entry of the four float argument arrays of the idealized kernel is a real
    number, on every device. -/
theorem real_args [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, (m ((c.tc : Thread Cert.KernelIdeal.nD Cert.KernelIdeal.τ).loc Cert.KernelIdeal.main_arg0)
        : Cert.KernelIdeal.S8000x256.Idx → EReal) i = (x : EReal))
      ∧ (∀ i, ∃ x : ℝ, (m ((c.tc : Thread Cert.KernelIdeal.nD Cert.KernelIdeal.τ).loc Cert.KernelIdeal.main_arg1)
        : Cert.KernelIdeal.S8000x256.Idx → EReal) i = (x : EReal))
      ∧ (∀ i, ∃ x : ℝ, (m ((c.tc : Thread Cert.KernelIdeal.nD Cert.KernelIdeal.τ).loc Cert.KernelIdeal.main_arg2)
        : Cert.KernelIdeal.S5x256x40x40.Idx → EReal) i = (x : EReal))
      ∧ (∀ i, ∃ x : ℝ, (m ((c.tc : Thread Cert.KernelIdeal.nD Cert.KernelIdeal.τ).loc Cert.KernelIdeal.main_arg3)
        : Cert.KernelIdeal.S5x256x40x40.Idx → EReal) i = (x : EReal)) :=
  real_of_fn _ _ _ _ _ _ _ _ _ _ (h c)

end Cert.KFinite
-- ==== Proof.RefRows.lean ====
/-
  The reference program's rows.

  For a row i of 8000 the reference forms the vector x = [p, s_0, …, s_7999] of the row's positive logit p and its
  scores s_j against every memory row (a column joined in front of a matrix along the columns), the row maximum of x
  from −∞, the exponentials of x shifted by that maximum, each times a weight (the positive logit's weight is 1, the
  score s_j's is the mask entry w_j), and their sum. This file reads those three quantities at a row, for both losses:
  the row maximum is max p (sup_j s_j), the row sum is exp (p − M) + Σ_j exp (s_j − M) · w_j with M the row maximum, and
  the positive logit's exponential is exp (p − M).

  The argument is made once over abstract arrays (a column P, a score matrix Sc, a weight matrix Wm) and used twice.
  A row of 8001 entries is split at its first entry: a fold of max by its universal property, a sum by peeling the
  first term; the entries are never enumerated. Nothing here needs a finiteness hypothesis: 0 + y = y and y · 1 = y hold
  on all of the extended reals.
-/
import proofs.«168614_j49684181680814_2_alg».proof.Proof.Gen.ReferenceIdeal.Read
import proofs.«168614_j49684181680814_2_alg».proof.Proof.Spec
import Idealize.ShloMosaic.Lib.ValueIdx
import Idealize.ShloMosaic.Lib.Pipeline.Value
import Idealize.ShloMosaic.PureOps.Ideal.Laws

noncomputable section

namespace Cert.RefRows

open Cert.ReferenceIdeal Cert.ReferenceIdeal.Gen Idealize.ShloMosaic Idealize.ShloMosaic.ValueIdx

/-! ## Folds and sums over a row of N + 1 entries, split at the first entry -/

/-- A maximum folded from the bottom over n + 1 entries: the first entry against the supremum of the rest. -/
theorem fold_max_succ {n : ℕ} (f : Fin (n + 1) → EReal) :
    (Finset.univ : Finset (Fin (n + 1))).fold max ⊥ f = max (f 0) (Finset.univ.sup fun j : Fin n => f j.succ) := by
  have e : (Finset.univ : Finset (Fin (n + 1))).fold max ⊥ f = Finset.univ.sup f := rfl
  rw [e]
  refine eq_of_forall_ge_iff fun c => ?_
  simp only [Finset.sup_le_iff, Finset.mem_univ, true_implies, max_le_iff, Fin.forall_fin_succ]

theorem ofBits_negInf : Ideal.ofBits .f32 0xFF800000#32 = (⊥ : EReal) := by simp [Ideal.ofBits, Ideal.ieee]
theorem ofBits_one : Ideal.ofBits .f32 0x3F800000#32 = (1 : EReal) := by
  simp [Ideal.ofBits, Ideal.ieee, -EReal.coe_mul]; norm_num

/-! ## The concatenation of a column and a matrix along the columns, read at (i, 0) and at (i, j + 1) -/

theorem cat_zero (P : S8000x1.Idx → EReal) (Sc : S8000x8000.Idx → EReal) (h : Shape.Concatenates [S8000x1, S8000x8000] S8000x8001 1) (i : Fin 8000) :
    concatenate S8000x8001 1 [⟨S8000x1, P⟩, ⟨S8000x8000, Sc⟩] h (ix2 i (0 : Fin 8001)) = P (ix2 i 0) :=
  concatenate_pair_apply_left 1 P Sc h _ rfl _ (fun b => by
    match b with
    | ⟨0, _⟩ => rfl
    | ⟨1, _⟩ => rfl)

theorem cat_succ (P : S8000x1.Idx → EReal) (Sc : S8000x8000.Idx → EReal) (h : Shape.Concatenates [S8000x1, S8000x8000] S8000x8001 1) (i j : Fin 8000) :
    concatenate S8000x8001 1 [⟨S8000x1, P⟩, ⟨S8000x8000, Sc⟩] h (ix2 i (j.succ : Fin 8001)) = Sc (ix2 i j) :=
  concatenate_pair_apply_right 1 P Sc h _ rfl rfl _
    (fun b hb => by
      match b with
      | ⟨0, _⟩ => rfl
      | ⟨1, _⟩ => exact absurd rfl hb)
    (Fin.val_succ j).symm

/-- The row index i with the column k put back is (i, k). -/
theorem lift_ix2 (h : S8000x8001.Reduces [1] S8000) (i : Fin 8000) (k : Fin (S8000x8001.size 1)) :
    h.lift (ix1 i) k = ix2 i (⟨k.val, k.isLt⟩ : Fin 8001) := by
  funext c; apply Fin.ext
  fin_cases c <;> rfl

/-! ## The row maximum and the row sum of the reference, over abstract arrays -/

/-- The maximum over a row of the concatenation, from −∞: the column's entry against the supremum of the matrix row. -/
theorem absMax (P : S8000x1.Idx → EReal) (Sc : S8000x8000.Idx → EReal) (hcat : Shape.Concatenates [S8000x1, S8000x8000] S8000x8001 1)
    (hred : S8000x8001.ReducesTo [1] S8000) (hu : 0 < S_.numel) (i : Fin 8000) :
    Host.reduce (FloatOps.maximumf (F := Ideal) (φ := .f32)) (concatenate S8000x8001 1 [⟨S8000x1, P⟩, ⟨S8000x8000, Sc⟩] hcat)
        (constant (F := Ideal) S_ .f32 0xFF800000#32) hred hu (ix1 i)
      = Cert.Spec.rowMax (P (ix2 i 0)) (fun j => Sc (ix2 i j)) := by
  have h : S8000x8001.Reduces [1] S8000 := by decide
  rw [Host.reduce_eq_fold_single _ _ _ hred h hu]
  generalize hX : concatenate S8000x8001 1 [⟨S8000x1, P⟩, ⟨S8000x8000, Sc⟩] hcat = X
  have hf : (X ∘ h.lift (ix1 i)) = fun k : Fin 8001 => X (ix2 i k) := funext fun k => congrArg X (lift_ix2 h i k)
  have hb : (constant (F := Ideal) S_ .f32 0xFF800000#32) (Shape.Idx.first hu) = (⊥ : EReal) := ofBits_negInf
  rw [hb]
  refine (congrArg (fun f => Finset.fold max (⊥ : EReal) f (Finset.univ : Finset (Fin 8001))) hf).trans ?_
  refine (fold_max_succ (n := 8000) _).trans ?_
  subst hX
  unfold Cert.Spec.rowMax
  rw [cat_zero]
  exact congrArg (max _) (congrArg _ (funext fun j => cat_succ P Sc hcat i j))

/-! ## Broadcasts read at an index -/

theorem bc2 {α : Type} (c : S8000x1.Idx → α) (hb : S8000x1.BroadcastsInDim S8000x8001 (![0, 1] : Fin 2 → Fin S8000x8001.rank)) (i : Fin 8000) (k : Fin 8001) :
    broadcastInDim S8000x8001 ![0, 1] hb c (ix2 i k) = c (ix2 i 0) :=
  broadcastInDim_apply _ hb c (ix2 i k) (ix2 i 0) (fun a => match a with
    | ⟨0, _⟩ => by show i.val = if (8000 : Nat) = 1 then 0 else i.val; rw [if_neg (by decide)]
    | ⟨1, _⟩ => by show 0 = if (1 : Nat) = 1 then 0 else k.val; rw [if_pos rfl])

theorem bc1 {α : Type} (r : S8000.Idx → α) (hb : S8000.BroadcastsInDim S8000x1 (![0] : Fin 1 → Fin S8000x1.rank)) (i : Fin 8000) :
    broadcastInDim S8000x1 ![0] hb r (ix2 i 0) = r (ix1 i) :=
  broadcastInDim_apply _ hb r (ix2 i 0) (ix1 i) (fun a => match a with
    | ⟨0, _⟩ => by show i.val = if (8000 : Nat) = 1 then 0 else i.val; rw [if_neg (by decide)])

theorem bc0 {α : Type} (z : S_.Idx → α) (hb : S_.BroadcastsInDim S8000x1 (![] : Fin 0 → Fin S8000x1.rank)) (i : Fin 8000) :
    broadcastInDim S8000x1 ![] hb z (ix2 i 0) = z ix0 :=
  broadcastInDim_apply _ hb z (ix2 i 0) ix0 (fun a => a.elim0)

/-- The host's sum over a row, from the zero word: the sum of the row's entries. -/
theorem sum_read (Y : S8000x8001.Idx → EReal) (hred : S8000x8001.ReducesTo [1] S8000) (hu : 0 < S_.numel) (i : Fin 8000) :
    Host.reduceAdd (F := Ideal) (φ := .f32) Y (constant (F := Ideal) S_ .f32 0x00000000#32) hred hu (ix1 i)
      = ∑ k : Fin 8001, Y (ix2 i k) := by
  have h : S8000x8001.Reduces [1] S8000 := by decide
  simp only [Host.reduceAdd, Ideal.hostReduceAdd_def]
  rw [Ideal.hostReduceAdd_single hred h]
  show Ideal.ofBits .f32 0x00000000#32 + _ = _
  rw [Ideal.ofBits_zero_f32, zero_add]
  exact Finset.sum_congr rfl fun k _ => congrArg Y (lift_ix2 h i k)

/-- The weighted row sum of the reference: the exponentials of the row's entries shifted by the row maximum, each
    times its weight, the column's entry with weight one. -/
theorem absSum (P : S8000x1.Idx → EReal) (Sc Wm : S8000x8000.Idx → EReal) (hcat : Shape.Concatenates [S8000x1, S8000x8000] S8000x8001 1)
    (hred : S8000x8001.ReducesTo [1] S8000) (hu : 0 < S_.numel)
    (hb0 : S_.BroadcastsInDim S8000x1 (![] : Fin 0 → Fin S8000x1.rank))
    (hb1 : S8000.BroadcastsInDim S8000x1 (![0] : Fin 1 → Fin S8000x1.rank))
    (hb2 : S8000x1.BroadcastsInDim S8000x8001 (![0, 1] : Fin 2 → Fin S8000x8001.rank)) (i : Fin 8000) :
    Host.reduceAdd (F := Ideal) (φ := .f32)
        (mulf
          (Host.exp (subf (concatenate S8000x8001 1 [⟨S8000x1, P⟩, ⟨S8000x8000, Sc⟩] hcat)
            (broadcastInDim S8000x8001 ![0, 1] hb2 (broadcastInDim S8000x1 ![0] hb1
              (Host.reduce (FloatOps.maximumf (F := Ideal) (φ := .f32)) (concatenate S8000x8001 1 [⟨S8000x1, P⟩, ⟨S8000x8000, Sc⟩] hcat)
                (constant (F := Ideal) S_ .f32 0xFF800000#32) hred hu)))))
          (concatenate S8000x8001 1 [⟨S8000x1, broadcastInDim S8000x1 ![] hb0 (constant (F := Ideal) S_ .f32 0x3F800000#32)⟩, ⟨S8000x8000, Wm⟩] hcat))
        (constant (F := Ideal) S_ .f32 0x00000000#32) hred hu (ix1 i)
      = Cert.Spec.rowSum (P (ix2 i 0)) (fun j => Sc (ix2 i j)) (fun j => Wm (ix2 i j)) := by
  rw [sum_read]
  have hM := absMax P Sc hcat hred hu i
  generalize Host.reduce (FloatOps.maximumf (F := Ideal) (φ := .f32)) (concatenate S8000x8001 1 [⟨S8000x1, P⟩, ⟨S8000x8000, Sc⟩] hcat)
    (constant (F := Ideal) S_ .f32 0xFF800000#32) hred hu = Mx at hM ⊢
  have hterm : ∀ k : Fin 8001,
      (mulf (F := Ideal) (φ := .f32)
          (Host.exp (subf (concatenate S8000x8001 1 [⟨S8000x1, P⟩, ⟨S8000x8000, Sc⟩] hcat)
            (broadcastInDim S8000x8001 ![0, 1] hb2 (broadcastInDim S8000x1 ![0] hb1 Mx))))
          (concatenate S8000x8001 1 [⟨S8000x1, broadcastInDim S8000x1 ![] hb0 (constant (F := Ideal) S_ .f32 0x3F800000#32)⟩, ⟨S8000x8000, Wm⟩] hcat)) (ix2 i k)
        = Ideal.exp (concatenate S8000x8001 1 [⟨S8000x1, P⟩, ⟨S8000x8000, Sc⟩] hcat (ix2 i k) - Mx (ix1 i))
          * concatenate S8000x8001 1 [⟨S8000x1, broadcastInDim S8000x1 ![] hb0 (constant (F := Ideal) S_ .f32 0x3F800000#32)⟩, ⟨S8000x8000, Wm⟩] hcat (ix2 i k) := by
    intro k
    show Ideal.exp (concatenate S8000x8001 1 [⟨S8000x1, P⟩, ⟨S8000x8000, Sc⟩] hcat (ix2 i k)
        - broadcastInDim S8000x8001 ![0, 1] hb2 (broadcastInDim S8000x1 ![0] hb1 Mx) (ix2 i k)) * _ = _
    rw [bc2, bc1]
  rw [Finset.sum_congr rfl fun k _ => hterm k, hM]
  refine (Fin.sum_univ_succ (n := 8000) _).trans ?_
  unfold Cert.Spec.rowSum
  have h0 : concatenate S8000x8001 1 [⟨S8000x1, broadcastInDim S8000x1 ![] hb0 (constant (F := Ideal) S_ .f32 0x3F800000#32)⟩, ⟨S8000x8000, Wm⟩] hcat (ix2 i (0 : Fin 8001)) = 1 := by
    rw [cat_zero, bc0]; exact ofBits_one
  rw [h0, cat_zero, mul_one]
  refine congrArg (_ + ·) (Finset.sum_congr rfl fun j _ => ?_)
  rw [cat_succ, cat_succ]

/-- The exponential of the column's entry shifted by the row maximum, read off the reshaped column. -/
theorem absExp (P : S8000x1.Idx → EReal) (Mx : S8000.Idx → EReal)
    (hb1 : S8000.BroadcastsInDim S8000x1 (![0] : Fin 1 → Fin S8000x1.rank)) (hsc : S8000x1.ShapeCasts S8000) (i : Fin 8000) :
    shapeCast S8000 (Host.exp (F := Ideal) (φ := .f32) (subf P (broadcastInDim S8000x1 ![0] hb1 Mx))) hsc (ix1 i)
      = Ideal.exp (P (ix2 i 0) - Mx (ix1 i)) := by
  rw [shapeCast_apply _ hsc (ix1 i) (ix2 i 0)
    (by rewrite [Shape.rowMajor_val_two, Shape.rowMajor_val_one]; show i.val * 1 + 0 = i.val; omega)]
  show Ideal.exp (P (ix2 i 0) - broadcastInDim S8000x1 ![0] hb1 Mx (ix2 i 0)) = _
  rw [bc1]

/-! ## The mask word -/

/-- The float of the one-bit "differs" comparison of two words: 0 when they are equal, 1 otherwise. -/
theorem mask_word (x y : BitVec 32) :
    FloatOps.uitofp (F := Ideal) .f32 (IntOp.cmpi .ne x y) = if x = y then (0 : EReal) else 1 := by
  show (((IntOp.cmpi .ne x y).toNat : ℝ) : EReal) = _
  unfold IntOp.cmpi
  by_cases h : x = y
  · simp [h]
  · simp [h]

/-! ## The reference's arrays at an index: the positive logit, the scores, the weights -/

open Cert.ReferenceIdeal.Read

/-- Both losses' positive logits divide the same row sums. -/
theorem v6_eq_v1 (x0 x1 : (⟨S8000x256, .f32⟩ : BufTy).Contents (Elt Ideal)) : val_main_v6 (F := Ideal) x0 x1 = val_main_v1 (F := Ideal) x0 x1 := rfl

/-- The first loss's column at (i, 0) is the row's positive logit. -/
theorem read_pos1 {x0 x1 : (⟨S8000x256, .f32⟩ : BufTy).Contents (Elt Ideal)} (i : Fin 8000) :
    val_main_v4 (F := Ideal) x0 x1 (ix2 i 0) = Cert.Spec.pos (val_main_v1 (F := Ideal) x0 x1) i := by
  rw [val_main_v4_apply, val_main_v2_apply, val_main_v3_apply, val_main_cst_0_apply,
    show idx_main_v2 (ix2 i 0) = ix1 i from funext fun a => by match a with | ⟨0, _⟩ => rfl]
  rfl

/-- The second loss's column at (i, 0) is the same positive logit. -/
theorem read_pos2 {x0 x1 : (⟨S8000x256, .f32⟩ : BufTy).Contents (Elt Ideal)} (i : Fin 8000) :
    val_main_v9 (F := Ideal) x0 x1 (ix2 i 0) = Cert.Spec.pos (val_main_v1 (F := Ideal) x0 x1) i := by
  rw [val_main_v9_apply, val_main_v7_apply, val_main_v8_apply, val_main_cst_2_apply,
    show idx_main_v7 (ix2 i 0) = ix1 i from funext fun a => by match a with | ⟨0, _⟩ => rfl, v6_eq_v1]
  rfl

/-- The first loss's score matrix at (i, j): the dot product of anchor row i of the first features with memory row j,
    over the temperature word. -/
theorem read_score1 {x0 : (⟨S8000x256, .f32⟩ : BufTy).Contents (Elt Ideal)} {x2 x3 : (⟨S5x256x40x40, .f32⟩ : BufTy).Contents (Elt Ideal)} {x8 x9 : (⟨S4000, .i32⟩ : BufTy).Contents (Elt Ideal)} (i j : Fin 8000) :
    val_main_v53 (F := Ideal) x0 x2 x3 x8 x9 (ix2 i j) = Cert.Spec.score x0 (val_main_v28 (F := Ideal) x2 x3 x8 x9) i j := by
  rw [val_main_v53_apply, val_main_v51_apply, val_main_v52_apply, val_main_cst_10_apply]
  simp only [val_main_v50_apply]
  generalize val_main_v28 (F := Ideal) x2 x3 x8 x9 = mem
  unfold Cert.Spec.score
  show Ideal.div _ _ = Ideal.div _ _
  refine congrArg (fun t => Ideal.div t _) (Finset.sum_congr rfl fun k _ => ?_)
  rw [show lidx_main_v51 (ix2 i j) k = ix2 i k from
        funext fun a => by match a with | ⟨0, _⟩ => rfl | ⟨1, _⟩ => rfl,
      show idx_main_v50 (ridx_main_v51 (ix2 i j) k) = ix2 j k from
        funext fun a => by match a with | ⟨0, _⟩ => rfl | ⟨1, _⟩ => rfl]

/-- The second loss's score matrix at (i, j): the same with the second features as the anchor. -/
theorem read_score2 {x1 : (⟨S8000x256, .f32⟩ : BufTy).Contents (Elt Ideal)} {x2 x3 : (⟨S5x256x40x40, .f32⟩ : BufTy).Contents (Elt Ideal)} {x8 x9 : (⟨S4000, .i32⟩ : BufTy).Contents (Elt Ideal)} (i j : Fin 8000) :
    val_main_v93 (F := Ideal) x1 x2 x3 x8 x9 (ix2 i j) = Cert.Spec.score x1 (val_main_v28 (F := Ideal) x2 x3 x8 x9) i j := by
  rw [val_main_v93_apply, val_main_v91_apply, val_main_v92_apply, val_main_cst_20_apply]
  simp only [val_main_v90_apply]
  generalize val_main_v28 (F := Ideal) x2 x3 x8 x9 = mem
  unfold Cert.Spec.score
  show Ideal.div _ _ = Ideal.div _ _
  refine congrArg (fun t => Ideal.div t _) (Finset.sum_congr rfl fun k _ => ?_)
  rw [show lidx_main_v91 (ix2 i j) k = ix2 i k from
        funext fun a => by match a with | ⟨0, _⟩ => rfl | ⟨1, _⟩ => rfl,
      show idx_main_v90 (ridx_main_v91 (ix2 i j) k) = ix2 j k from
        funext fun a => by match a with | ⟨0, _⟩ => rfl | ⟨1, _⟩ => rfl]

/-- The first loss's mask at (i, j): the weight of column j's own first label against row i's memory label. -/
theorem read_weight1 {x4 x5 : (⟨S8000, .i32⟩ : BufTy).Contents (Elt Ideal)} {x8 x9 : (⟨S4000, .i32⟩ : BufTy).Contents (Elt Ideal)} (i j : Fin 8000) :
    val_main_v49 (F := Ideal) x4 x5 x8 x9 (ix2 i j) = Cert.Spec.weight x4 (val_main_v43 (F := Ideal) x4 x5 x8 x9) i j := by
  rw [val_main_v49_apply, val_main_v48_apply, val_main_v46_apply, val_main_v44_apply, val_main_v47_apply,
    val_main_v45_apply]
  generalize val_main_v43 (F := Ideal) x4 x5 x8 x9 = mlab
  rw [show idx_main_v44 (idx_main_v46 (ix2 i j)) = ix1 j from funext fun a => by match a with | ⟨0, _⟩ => rfl,
    show idx_main_v45 (idx_main_v47 (ix2 i j)) = ix1 i from funext fun a => by match a with | ⟨0, _⟩ => rfl]
  exact mask_word _ _

/-- The second loss's mask at (i, j): the same with the second labels as the columns' own. -/
theorem read_weight2 {x4 x5 : (⟨S8000, .i32⟩ : BufTy).Contents (Elt Ideal)} {x8 x9 : (⟨S4000, .i32⟩ : BufTy).Contents (Elt Ideal)} (i j : Fin 8000) :
    val_main_v89 (F := Ideal) x4 x5 x8 x9 (ix2 i j) = Cert.Spec.weight x5 (val_main_v43 (F := Ideal) x4 x5 x8 x9) i j := by
  rw [val_main_v89_apply, val_main_v88_apply, val_main_v86_apply, val_main_v84_apply, val_main_v87_apply,
    val_main_v85_apply]
  generalize val_main_v43 (F := Ideal) x4 x5 x8 x9 = mlab
  rw [show idx_main_v84 (idx_main_v86 (ix2 i j)) = ix1 j from funext fun a => by match a with | ⟨0, _⟩ => rfl,
    show idx_main_v85 (idx_main_v87 (ix2 i j)) = ix1 i from funext fun a => by match a with | ⟨0, _⟩ => rfl]
  exact mask_word _ _

/-! ## The reference's rows: maximum, weighted sum, and the positive logit's exponential, for both losses -/

theorem ref_max1 (x0 x1 : (⟨S8000x256, .f32⟩ : BufTy).Contents (Elt Ideal)) (x2 x3 : (⟨S5x256x40x40, .f32⟩ : BufTy).Contents (Elt Ideal)) (x8 x9 : (⟨S4000, .i32⟩ : BufTy).Contents (Elt Ideal)) (i : Fin 8000) :
    val_main_v57 (F := Ideal) x0 x1 x2 x3 x8 x9 (ix1 i) = Cert.Spec.rowMax (Cert.Spec.pos (val_main_v1 (F := Ideal) x0 x1) i) (Cert.Spec.score x0 (val_main_v28 (F := Ideal) x2 x3 x8 x9) i) := by
  unfold val_main_v57 val_main_v54 val_main_cst_12
  refine (absMax _ _ _ _ _ i).trans ?_
  rw [read_pos1]
  exact congrArg _ (funext fun j => read_score1 i j)

theorem ref_sum1 (x0 x1 : (⟨S8000x256, .f32⟩ : BufTy).Contents (Elt Ideal)) (x2 x3 : (⟨S5x256x40x40, .f32⟩ : BufTy).Contents (Elt Ideal)) (x4 x5 : (⟨S8000, .i32⟩ : BufTy).Contents (Elt Ideal)) (x8 x9 : (⟨S4000, .i32⟩ : BufTy).Contents (Elt Ideal)) (i : Fin 8000) :
    val_main_v63 (F := Ideal) x0 x1 x2 x3 x4 x5 x8 x9 (ix1 i)
      = Cert.Spec.rowSum (Cert.Spec.pos (val_main_v1 (F := Ideal) x0 x1) i) (Cert.Spec.score x0 (val_main_v28 (F := Ideal) x2 x3 x8 x9) i) (Cert.Spec.weight x4 (val_main_v43 (F := Ideal) x4 x5 x8 x9) i) := by
  unfold val_main_v63 val_main_v62 val_main_v61 val_main_v60 val_main_v59 val_main_v58 val_main_v57 val_main_v56
    val_main_v55 val_main_v54 val_main_cst_11 val_main_cst_12 val_main_cst_13
  refine (absSum _ _ _ _ _ _ _ _ _ i).trans ?_
  rw [read_pos1, show (fun j => val_main_v53 (F := Ideal) x0 x2 x3 x8 x9 (ix2 i j)) = Cert.Spec.score x0 (val_main_v28 (F := Ideal) x2 x3 x8 x9) i from
      funext fun j => read_score1 i j,
    show (fun j => val_main_v49 (F := Ideal) x4 x5 x8 x9 (ix2 i j)) = Cert.Spec.weight x4 (val_main_v43 (F := Ideal) x4 x5 x8 x9) i from
      funext fun j => read_weight1 i j]

theorem ref_exp1 (x0 x1 : (⟨S8000x256, .f32⟩ : BufTy).Contents (Elt Ideal)) (x2 x3 : (⟨S5x256x40x40, .f32⟩ : BufTy).Contents (Elt Ideal)) (x8 x9 : (⟨S4000, .i32⟩ : BufTy).Contents (Elt Ideal)) (i : Fin 8000) :
    val_main_v66 (F := Ideal) x0 x1 x2 x3 x8 x9 (ix1 i)
      = Ideal.exp (Cert.Spec.pos (val_main_v1 (F := Ideal) x0 x1) i - Cert.Spec.rowMax (Cert.Spec.pos (val_main_v1 (F := Ideal) x0 x1) i) (Cert.Spec.score x0 (val_main_v28 (F := Ideal) x2 x3 x8 x9) i)) := by
  unfold val_main_v66 val_main_v65 val_main_v64 val_main_v58
  refine (absExp _ _ _ _ i).trans ?_
  rw [read_pos1, ref_max1]

theorem ref_max2 (x0 x1 : (⟨S8000x256, .f32⟩ : BufTy).Contents (Elt Ideal)) (x2 x3 : (⟨S5x256x40x40, .f32⟩ : BufTy).Contents (Elt Ideal)) (x8 x9 : (⟨S4000, .i32⟩ : BufTy).Contents (Elt Ideal)) (i : Fin 8000) :
    val_main_v97 (F := Ideal) x0 x1 x2 x3 x8 x9 (ix1 i) = Cert.Spec.rowMax (Cert.Spec.pos (val_main_v1 (F := Ideal) x0 x1) i) (Cert.Spec.score x1 (val_main_v28 (F := Ideal) x2 x3 x8 x9) i) := by
  unfold val_main_v97 val_main_v94 val_main_cst_22
  refine (absMax _ _ _ _ _ i).trans ?_
  rw [read_pos2]
  exact congrArg _ (funext fun j => read_score2 i j)

theorem ref_sum2 (x0 x1 : (⟨S8000x256, .f32⟩ : BufTy).Contents (Elt Ideal)) (x2 x3 : (⟨S5x256x40x40, .f32⟩ : BufTy).Contents (Elt Ideal)) (x4 x5 : (⟨S8000, .i32⟩ : BufTy).Contents (Elt Ideal)) (x8 x9 : (⟨S4000, .i32⟩ : BufTy).Contents (Elt Ideal)) (i : Fin 8000) :
    val_main_v103 (F := Ideal) x0 x1 x2 x3 x4 x5 x8 x9 (ix1 i)
      = Cert.Spec.rowSum (Cert.Spec.pos (val_main_v1 (F := Ideal) x0 x1) i) (Cert.Spec.score x1 (val_main_v28 (F := Ideal) x2 x3 x8 x9) i) (Cert.Spec.weight x5 (val_main_v43 (F := Ideal) x4 x5 x8 x9) i) := by
  unfold val_main_v103 val_main_v102 val_main_v101 val_main_v100 val_main_v99 val_main_v98 val_main_v97 val_main_v96
    val_main_v95 val_main_v94 val_main_cst_21 val_main_cst_22 val_main_cst_23
  refine (absSum _ _ _ _ _ _ _ _ _ i).trans ?_
  rw [read_pos2, show (fun j => val_main_v93 (F := Ideal) x1 x2 x3 x8 x9 (ix2 i j)) = Cert.Spec.score x1 (val_main_v28 (F := Ideal) x2 x3 x8 x9) i from
      funext fun j => read_score2 i j,
    show (fun j => val_main_v89 (F := Ideal) x4 x5 x8 x9 (ix2 i j)) = Cert.Spec.weight x5 (val_main_v43 (F := Ideal) x4 x5 x8 x9) i from
      funext fun j => read_weight2 i j]

theorem ref_exp2 (x0 x1 : (⟨S8000x256, .f32⟩ : BufTy).Contents (Elt Ideal)) (x2 x3 : (⟨S5x256x40x40, .f32⟩ : BufTy).Contents (Elt Ideal)) (x8 x9 : (⟨S4000, .i32⟩ : BufTy).Contents (Elt Ideal)) (i : Fin 8000) :
    val_main_v106 (F := Ideal) x0 x1 x2 x3 x8 x9 (ix1 i)
      = Ideal.exp (Cert.Spec.pos (val_main_v1 (F := Ideal) x0 x1) i - Cert.Spec.rowMax (Cert.Spec.pos (val_main_v1 (F := Ideal) x0 x1) i) (Cert.Spec.score x1 (val_main_v28 (F := Ideal) x2 x3 x8 x9) i)) := by
  unfold val_main_v106 val_main_v105 val_main_v104 val_main_v98
  refine (absExp _ _ _ _ i).trans ?_
  rw [read_pos2, ref_max2]

end Cert.RefRows

end
-- ==== Proof.RefMemReal.lean ====
/-
  The memory bank's entries are real.

  The memory bank is a join, along the rows, of two look-ups of whole rows out of the reshaped transposes of the two
  unlabelled feature maps. A transpose, a reshape, a look-up of rows and a join each read, at every index, one entry of
  (one of) their operands; so a property that holds of every entry of the operands holds of every entry of the result.
  Applied to "is a real number": when both feature maps have only real entries, so has the memory bank.
-/
import proofs.«168614_j49684181680814_2_alg».proof.Proof.Gen.ReferenceIdeal.Read
import Idealize.ShloMosaic.Lib.Pipeline.Value
import Idealize.ShloMosaic.Lib.ValueIdx

noncomputable section

namespace Cert.RefMemReal

open Cert.ReferenceIdeal Cert.ReferenceIdeal.Gen Cert.ReferenceIdeal.Read Idealize.ShloMosaic Idealize.ShloMosaic.ValueIdx

/-! ## One lemma per operation: what holds of every entry of the operand holds of every entry of the result -/

section Entries
variable {α : Type} (Q : α → Prop)

/-- A transpose reads its operand at the permuted index. -/
theorem transpose_all {s t : Shape} (perm : List (Fin s.rank)) (x : s.Idx → α) (h : s.Transposes perm t)
    (hx : ∀ k, Q (x k)) : ∀ j, Q (transpose t perm x h j) := fun _ => hx _

/-- A reshape reads its operand at the index with the same row-major position. -/
theorem shapeCast_all {s t : Shape} (x : s.Idx → α) (h : s.ShapeCasts t) (hx : ∀ k, Q (x k)) :
    ∀ j, Q (shapeCast t x h j) := fun _ => hx _

/-- A look-up reads its operand at the index its start indices name. -/
theorem gather_all {s si t : Shape} {w : Nat} (d : GatherDims s si t) (x : s.Idx → α) (idx : IVec si w)
    (hx : ∀ k, Q (x k)) : ∀ j, Q (Host.gather d x idx j) := fun _ => hx _

/-- A join reads, at every index, one of its pieces at some index. -/
theorem concatenate_all {t : Shape} (a : Fin t.rank) (xs : List ((s : Shape) × (s.Idx → α)))
    (h : Shape.Concatenates (xs.map (·.1)) t a) (hx : ∀ p ∈ xs, ∀ k, Q (p.2 k)) :
    ∀ j, Q (concatenate t a xs h j) := by
  intro j
  unfold concatenate
  exact hx _ (List.getElem_mem _) _

end Entries

/-! ## The memory bank -/

/-- When both unlabelled feature maps have only real entries, every entry of the memory bank is real. -/
theorem mem_real (x2 x3 : (⟨S5x256x40x40, .f32⟩ : BufTy).Contents (Elt Ideal))
    (x8 x9 : (⟨S4000, .i32⟩ : BufTy).Contents (Elt Ideal))
    (h2 : ∀ k, ∃ r : ℝ, x2 k = (r : EReal)) (h3 : ∀ k, ∃ r : ℝ, x3 k = (r : EReal)) :
    ∀ i, ∃ r : ℝ, val_main_v28 (F := Ideal) x2 x3 x8 x9 i = (r : EReal) := by
  unfold val_main_v28
  refine concatenate_all (fun v : EReal => ∃ r : ℝ, v = (r : EReal)) _ _ _ ?_
  intro p hp
  simp only [List.mem_cons, List.not_mem_nil, or_false] at hp
  rcases hp with rfl | rfl
  · unfold val_main_v20 val_main_v11 val_main_v10
    exact gather_all _ _ _ _ (shapeCast_all _ _ _ (transpose_all _ _ _ _ h2))
  · unfold val_main_v27 val_main_v13 val_main_v12
    exact gather_all _ _ _ _ (shapeCast_all _ _ _ (transpose_all _ _ _ _ h3))

end Cert.RefMemReal

end
-- ==== Proof.LibColumnBack.lean ====
/-
  A column read back as a vector: an [a, 1] array cast to [a] has, at i, the column's entry (i, 0).
-/
import Idealize.ShloMosaic.Lib.Pipeline.Value
import Idealize.ShloMosaic.Lib.ValueIdx

noncomputable section

namespace Cert.LibColumnBack

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnBack

end
-- ==== Proof.Bridge.lean ====
/-
  The two programs compute one number.

  Kernel side: the result is the sum of two loss tails over the regions' columns (the fold of the program's chain).
  Reference side: the result is the same sum of the same two loss tails over the reference's own columns. The columns
  agree entry by entry: the exponential of (positive logit - row maximum) and the row sum of a row are, on both sides,
  the specification's functions of the row's positive logit, scores and weights — on the kernel side because the
  twenty-tile online update reaches them when the inputs are finite, on the reference side by reading its operations.
-/
import proofs.«168614_j49684181680814_2_alg».proof.Proof.KFold
import proofs.«168614_j49684181680814_2_alg».proof.Proof.KRun
import proofs.«168614_j49684181680814_2_alg».proof.Proof.KFinite
import proofs.«168614_j49684181680814_2_alg».proof.Proof.RefRows
import proofs.«168614_j49684181680814_2_alg».proof.Proof.RefMemReal
import proofs.«168614_j49684181680814_2_alg».proof.Proof.LibColumnBack
import proofs.«168614_j49684181680814_2_alg».proof.Proof.LibRealEntries
import proofs.«168614_j49684181680814_2_alg».proof.Proof.Gen.ReferenceIdeal.Run

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Fold

/-- A vector of length b made a [1, b] row by a shape cast: entry (0, j) is entry j of the vector. -/
theorem row_cast {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

variable (m : (ℓ : Loc nD τ sig) → Buf (Elt Ideal) ℓ) (c : Dev nD)

/-- The positive logit of row i is the specification's. -/
theorem posK_apply (i : Fin 8000) : posK m c (ix1 i) = Cert.Spec.pos (redK m c) i := rfl

theorem posCol_apply (i : Fin 8000) : posCol m c (ix2 i (0 : Fin 1)) = Cert.Spec.pos (redK m c) i :=
  (Cert.LibColumn.shapeCast_a_a1_apply (posK m c) shapeCasts_S8000_S8000x1 i 0).trans (posK_apply m c i)

theorem mlabCol_apply (i : Fin 8000) : mlabCol m c (ix2 i (0 : Fin 1)) = mlabK m c (ix1 i) :=
  Cert.LibColumn.shapeCast_a_a1_apply (mlabK m c) shapeCasts_S8000_S8000x1 i 0

/-! ## Finite inputs make the regions' float inputs real -/

/-- With real feature entries the rows' dot products are real. -/
theorem red_real (h0 : ∀ i, ∃ x : ℝ, a0 m c i = (x : EReal)) (h1 : ∀ i, ∃ x : ℝ, a1 m c i = (x : EReal)) :
    ∀ k, ∃ x : ℝ, redK m c k = (x : EReal) := by
  intro k
  show ∃ x : ℝ, Cert.ReferenceIdeal.Read.val_main_v1 (F := Ideal) (a0 m c) (a1 m c) k = (x : EReal)
  rw [Cert.ReferenceIdeal.Read.val_main_v1_apply]
  obtain ⟨s, hs⟩ := Cert.LibRealEntries.sum_real Finset.univ
    (fun q : Fin 256 => Cert.ReferenceIdeal.Read.val_main_v0 (F := Ideal) (a0 m c) (a1 m c) (Cert.ReferenceIdeal.Read.idx_main_v1 k q)) (fun q => by
      obtain ⟨u, hu⟩ := h0 (Cert.ReferenceIdeal.Read.idx_main_v1 k q)
      obtain ⟨v, hv⟩ := h1 (Cert.ReferenceIdeal.Read.idx_main_v1 k q)
      exact ⟨u * v, by show a0 m c _ * a1 m c _ = _; rw [hu, hv, EReal.coe_mul]⟩)
  refine ⟨0 + s, ?_⟩
  rw [hs]
  show Ideal.ofBits .f32 0x00000000#32 + (s : EReal) = _
  rw [Ideal.ofBits_zero_f32, EReal.coe_add, EReal.coe_zero]

/-- With real feature entries the positive logits are real. -/
theorem posCol_real (h0 : ∀ i, ∃ x : ℝ, a0 m c i = (x : EReal)) (h1 : ∀ i, ∃ x : ℝ, a1 m c i = (x : EReal)) :
    ∀ i, ∃ x : ℝ, posCol m c i = (x : EReal) := by
  refine Cert.RefMemReal.shapeCast_all (Q := fun v : EReal => ∃ x : ℝ, v = (x : EReal)) (posK m c) shapeCasts_S8000_S8000x1 ?_
  intro k
  obtain ⟨x, hx⟩ := red_real m c h0 h1 k
  refine ⟨x * (134217728 / 13421773), ?_⟩
  show Ideal.div (redK m c k) (Ideal.ofBits .f32 0x3DCCCCCD#32) = _
  rw [hx, Cert.KernelIdeal.Row.div_temp, Cert.KernelIdeal.Row.invT_eq, ← EReal.coe_mul]

/-! ## The kernel's columns are the reference's -/

theorem expK1_eq : expK1 m c = Cert.ReferenceIdeal.Read.val_main_v66 (F := Ideal) (a0 m c) (a1 m c) (a2 m c) (a3 m c) (a8 m c) (a9 m c) := by
  funext j
  obtain ⟨i, rfl⟩ : ∃ i : Fin 8000, j = ix1 i := ⟨j 0, eq_ix1 j⟩
  rw [Cert.RefRows.ref_exp1]
  unfold expK1
  show Ideal.exp (posK m c (ix1 i) - shapeCast S8000 (Cert.KernelIdeal.Region0.GMax (a0 m c) (posCol m c) (memK m c)) shapeCasts_S8000x1_S8000 (ix1 i)) = _
  rw [Cert.LibColumnBack.shapeCast_a1_a_apply, posK_apply]
  unfold Cert.KernelIdeal.Region0.GMax
  show Ideal.exp (_ - Cert.Spec.rowMax (posCol m c (ix2 i (0 : Fin 1))) _) = _
  rw [posCol_apply]

theorem expK2_eq : expK2 m c = Cert.ReferenceIdeal.Read.val_main_v106 (F := Ideal) (a0 m c) (a1 m c) (a2 m c) (a3 m c) (a8 m c) (a9 m c) := by
  funext j
  obtain ⟨i, rfl⟩ : ∃ i : Fin 8000, j = ix1 i := ⟨j 0, eq_ix1 j⟩
  rw [Cert.RefRows.ref_exp2]
  unfold expK2
  show Ideal.exp (posK m c (ix1 i) - shapeCast S8000 (Cert.KernelIdeal.Region1.GMax (a1 m c) (posCol m c) (memK m c)) shapeCasts_S8000x1_S8000 (ix1 i)) = _
  rw [Cert.LibColumnBack.shapeCast_a1_a_apply, posK_apply]
  unfold Cert.KernelIdeal.Region1.GMax
  show Ideal.exp (_ - Cert.Spec.rowMax (posCol m c (ix2 i (0 : Fin 1))) _) = _
  rw [posCol_apply]

theorem sumK1_eq : sumK1 m c = Cert.ReferenceIdeal.Read.val_main_v63 (F := Ideal) (a0 m c) (a1 m c) (a2 m c) (a3 m c) (a4 m c) (a5 m c) (a8 m c) (a9 m c) := by
  funext j
  obtain ⟨i, rfl⟩ : ∃ i : Fin 8000, j = ix1 i := ⟨j 0, eq_ix1 j⟩
  rw [Cert.RefRows.ref_sum1]
  unfold sumK1
  rw [Cert.LibColumnBack.shapeCast_a1_a_apply]
  unfold Cert.KernelIdeal.Region0.GSum
  show Cert.Spec.rowSum (posCol m c (ix2 i (0 : Fin 1))) _
    (fun J : Fin 8000 => if shapeCast S1x8000 (a4 m c) shapeCasts_S8000_S1x8000 (ix2 (0 : Fin 1) J) = mlabCol m c (ix2 i (0 : Fin 1)) then (0 : EReal) else 1) = _
  rw [posCol_apply, mlabCol_apply]
  simp only [row_cast]
  rfl

theorem sumK2_eq : sumK2 m c = Cert.ReferenceIdeal.Read.val_main_v103 (F := Ideal) (a0 m c) (a1 m c) (a2 m c) (a3 m c) (a4 m c) (a5 m c) (a8 m c) (a9 m c) := by
  funext j
  obtain ⟨i, rfl⟩ : ∃ i : Fin 8000, j = ix1 i := ⟨j 0, eq_ix1 j⟩
  rw [Cert.RefRows.ref_sum2]
  unfold sumK2
  rw [Cert.LibColumnBack.shapeCast_a1_a_apply]
  unfold Cert.KernelIdeal.Region1.GSum
  show Cert.Spec.rowSum (posCol m c (ix2 i (0 : Fin 1))) _
    (fun J : Fin 8000 => if shapeCast S1x8000 (a5 m c) shapeCasts_S8000_S1x8000 (ix2 (0 : Fin 1) J) = mlabCol m c (ix2 i (0 : Fin 1)) then (0 : EReal) else 1) = _
  rw [posCol_apply, mlabCol_apply]
  simp only [row_cast]
  rfl

/-! ## The reference's result is the same sum of two loss tails -/

theorem ref_result : Cert.ReferenceIdeal.Read.val_main_v124 (F := Ideal) (a0 m c) (a1 m c) (a2 m c) (a3 m c) (a4 m c) (a5 m c) (a6 m c) (a7 m c) (a8 m c) (a9 m c)
    = addf (lossTail (Cert.ReferenceIdeal.Read.val_main_v66 (F := Ideal) (a0 m c) (a1 m c) (a2 m c) (a3 m c) (a8 m c) (a9 m c)) (Cert.ReferenceIdeal.Read.val_main_v63 (F := Ideal) (a0 m c) (a1 m c) (a2 m c) (a3 m c) (a4 m c) (a5 m c) (a8 m c) (a9 m c)) (a6 m c) (a7 m c))
        (lossTail (Cert.ReferenceIdeal.Read.val_main_v106 (F := Ideal) (a0 m c) (a1 m c) (a2 m c) (a3 m c) (a8 m c) (a9 m c)) (Cert.ReferenceIdeal.Read.val_main_v103 (F := Ideal) (a0 m c) (a1 m c) (a2 m c) (a3 m c) (a4 m c) (a5 m c) (a8 m c) (a9 m c)) (a7 m c) (a6 m c)) := rfl

/-- The kernel program's result is the reference's composed term of the same arguments, under the precondition. -/
theorem result_bridge (ρ : Dev nD → PrngReg) (hpre : Cert.Pre_KernelIdeal m) :
    W5 m ρ c (Proc.devRef .tc main_v88)
      = Cert.ReferenceIdeal.Read.val_main_v124 (F := Ideal) (a0 m c) (a1 m c) (a2 m c) (a3 m c) (a4 m c) (a5 m c) (a6 m c) (a7 m c) (a8 m c) (a9 m c) := by
  obtain ⟨r0, r1, r2, r3⟩ := Cert.KFinite.real_args m hpre c
  rw [result_eq m ρ c r0 r1 (posCol_real m c r0 r1) (Cert.RefMemReal.mem_real _ _ _ _ r2 r3), ref_result,
    expK1_eq, sumK1_eq, expK2_eq, sumK2_eq]

end Cert.Bridge

end
-- ==== Proof.lean ====
/-
  The certificate of the contrastive-loss kernel against its reference.

  The kernel scores 8000 anchor rows against a memory bank of 8000 rows in twenty tiles of 400 columns, keeping for every
  row a running maximum and a running sum of weighted exponentials (an online softmax denominator, started from the
  row's positive logit); the reference builds the whole row of 8001 logits, takes its maximum and sums the weighted
  exponentials at that maximum. On the extended reals, for finite inputs, the two agree: rescaling the running sum by
  exp (old maximum - new maximum) moves every earlier term to the new maximum. The kernel multiplies the dot products by
  its inverse-temperature constant, which the certificate's table names the reciprocal of the reference's temperature
  word, so that multiplying by it is dividing by the temperature. Everything after the row sums and maxima (the two
  losses and their sum) is the same operations in both programs.

  The three frames are the generated ones (the reference's is its generated run with the result dropped); the
  idealization's forty ledger entries are the one named constant at its forty sites; the algebraic claim joins the
  kernel's run, its result folded back to the arguments, with the reference's generated run.
-/
import proofs.«168614_j49684181680814_2_alg».proof.Defs
import proofs.«168614_j49684181680814_2_alg».proof.Proof.Gen.Kernel
import proofs.«168614_j49684181680814_2_alg».proof.Proof.Gen.Kernel.Frame
import proofs.«168614_j49684181680814_2_alg».proof.Proof.Gen.KernelIdeal
import proofs.«168614_j49684181680814_2_alg».proof.Proof.Gen.KernelIdeal.Frame
import proofs.«168614_j49684181680814_2_alg».proof.Proof.Gen.ReferenceIdeal
import proofs.«168614_j49684181680814_2_alg».proof.Proof.Gen.Pre_finite_inputs
import proofs.«168614_j49684181680814_2_alg».proof.Proof.Gen.ReferenceIdeal.Run
import proofs.«168614_j49684181680814_2_alg».proof.Proof.Gen.ReferenceIdeal.Read
import proofs.«168614_j49684181680814_2_alg».proof.Proof.Bridge
import Idealize.ShloMosaic.PureOps.IdealRules
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- One ledger entry: the table gives the inverse temperature the reciprocal of the reference's temperature word. -/
theorem pres : IdealRules.named_const.Statement Cert.KernelIdeal.κ "inv_temp" .f32 0x41200000#32 ((134217728 / 13421773 : ℝ) : EReal) :=
  IdealRules.named_const.statement Cert.KernelIdeal.κ "inv_temp" .f32 0x41200000#32 ((134217728 / 13421773 : ℝ) : EReal) rfl

/-- The forty ledger entries are that one entry. -/
theorem preserves : Cert.preserves_Kernel_KernelIdeal :=
  ⟨pres, pres, pres, pres, pres, pres, pres, pres, pres, pres, pres, pres, pres, pres, pres, pres, pres, pres, pres, pres, pres, pres, pres, pres, pres, pres, pres, pres, pres, pres, pres, pres, pres, pres, pres, pres, pres, pres, pres, pres⟩

/-- Both programs run, and end with equal results: the kernel's result, folded back to the arguments, is the reference's
    composed term of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W5 m ρ c (Proc.devRef .tc Cert.KernelIdeal.main_v88),
    Cert.KernelIdeal.KRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v124_eq, h0, h1, h2, h3, h4, h5, h6, h7, h8, h9]
  exact (Cert.Bridge.result_bridge m c ρ hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
